-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S128x256x16 : Shape := ⟨3, ![128, 256, 16]⟩
abbrev S128x256 : Shape := ⟨2, ![128, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S128x256x16 : S_.BroadcastsInDim S128x256x16 (![] : Fin 0 → Fin S128x256x16.rank)
  reducesTo_S128x256x16_S_d0_1_2 : S128x256x16.ReducesTo [0, 1, 2] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4096x256 .f32) (main_arg1 : FVec F S128x256x16 .f32) (main_arg2 : FVec F S128x256 .f32) (main_arg3 : FVec F S128x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S128x256x16 .f32 := Host.absf main_arg1
  let main_cst_0 : FVec F S_ .f32 := constant S_ .f32 0x7F800000#32
  let main_v5 : FVec F S128x256x16 .f32 := broadcastInDim S128x256x16 ![] bcast_S_S128x256x16 main_cst_0
  let main_v6 : IVec S128x256x16 1 := cmpf .olt main_v4 main_v5
  let main_c_1 : IVec S_ 1 := constantI S_ 1 1#1
  let main_v7 : IVec S_ 1 := (fun x v => Host.reduce IntOp.andi x v reducesTo_S128x256x16_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S4096x256 : Shape := ⟨2, ![4096, 256]⟩
abbrev S128x256x16 : Shape := ⟨3, ![128, 256, 16]⟩
abbrev S128x256 : Shape := ⟨2, ![128, 256]⟩
abbrev S128x256x1 : Shape := ⟨3, ![128, 256, 1]⟩
abbrev S16x128x256 : Shape := ⟨3, ![16, 128, 256]⟩
abbrev S128x4096 : Shape := ⟨2, ![128, 4096]⟩
abbrev S1024x256 : Shape := ⟨2, ![1024, 256]⟩
abbrev S128x1024 : Shape := ⟨2, ![128, 1024]⟩
abbrev S1x128x256 : Shape := ⟨3, ![1, 128, 256]⟩
abbrev S4096x128 : Shape := ⟨2, ![4096, 128]⟩

abbrev nBuf : Space → Nat
  | .hbm => 12
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S128x256x16, .f32⟩
  | .hbm, ⟨2, _⟩ => ⟨S128x256, .f32⟩
  | .hbm, ⟨3, _⟩ => ⟨S128x256, .f32⟩
  | .hbm, ⟨4, _⟩ => ⟨S128x256x1, .f32⟩
  | .hbm, ⟨5, _⟩ => ⟨S128x256x16, .f32⟩
  | .hbm, ⟨6, _⟩ => ⟨S128x256x16, .f32⟩
  | .hbm, ⟨7, _⟩ => ⟨S16x128x256, .f32⟩
  | .hbm, ⟨8, _⟩ => ⟨S16x128x256, .bf16⟩
  | .hbm, ⟨9, _⟩ => ⟨S128x256, .bf16⟩
  | .hbm, ⟨10, _⟩ => ⟨S128x4096, .f32⟩
  | .hbm, ⟨11, _⟩ => ⟨S4096x128, .f32⟩
  | .local _ .vmem, ⟨0, _⟩ => ⟨S1024x256, .f32⟩
  | .local _ .vmem, ⟨1, _⟩ => ⟨S1024x256, .f32⟩
  | .local _ .vmem, ⟨2, _⟩ => ⟨S16x128x256, .bf16⟩
  | .local _ .vmem, ⟨3, _⟩ => ⟨S128x256, .bf16⟩
  | .local _ .vmem, ⟨4, _⟩ => ⟨S128x1024, .f32⟩
  | .local _ .vmem, ⟨5, _⟩ => ⟨S128x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v18 : Index := Scalar.indexCast arg5
  let c0_10 : Index := 0#32
  let c0_11 : Index := 0#32
  ![v18.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128x256_S128x256x1_0_1 : S128x256.BroadcastsInDim S128x256x1 (![0, 1] : Fin 2 → Fin S128x256x1.rank)
  bcast_S128x256x1_S128x256x16_0_1_2 : S128x256x1.BroadcastsInDim S128x256x16 (![0, 1, 2] : Fin 3 → Fin S128x256x16.rank)
  transposes_S128x256x16_S16x128x256_2_0_1 : S128x256x16.Transposes [2, 0, 1] S16x128x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S1x128x256 : 0 < S1x128x256.numel
  shapeCasts_S1x128x256_S128x256 : S1x128x256.ShapeCasts S128x256
  inb_S128x1024_S128x1024_0_0 : ∀ a, (![0, 0] : Fin 2 → Nat) a + S128x1024.size a ≤ S128x1024.size a
  h_S128x1024 : 0 < S128x1024.numel
  transposes_S128x4096_S4096x128_1_0 : S128x4096.Transposes [1, 0] S4096x128
  dot_S128x256_S1024x256_S128x1024_1_1_0_0_n_n_wf : DotDims.WF S128x256 S1024x256 S128x1024 [1] [1] [0] [0] [] []
  hrank0 : 0 < grid0.rank
  k0_t1_ok : k0_t1_loop.OK
  k0_off1_inb : ∀ k0_t1 : Fin k0_t1_loop.trips, ∀ a, (k0_off1 k0_t1) a + S1x128x256.size a ≤ S16x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S16x128x256.size a
  hwx0_1 : ∀ i : grid0.Coords, EltTy.bits .bf16 = 32 ∨ (Rect.block (s := S16x128x256) S16x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .f32 = 32 ∨ (Rect.block (s := S128x4096) S128x1024.size (cc0_transform_3 i) (hinb0_3 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S128x256x16 : Shape := ⟨3, ![128, 256, 16]⟩
abbrev S128x256 : Shape := ⟨2, ![128, 256]⟩
abbrev S_ : Shape := ⟨0, ![]⟩
abbrev S4096x1x256 : Shape := ⟨3, ![4096, 1, 256]⟩
abbrev S4096x1x256x1 : Shape := ⟨4, ![4096, 1, 256, 1]⟩
abbrev S1x128x256x16 : Shape := ⟨4, ![1, 128, 256, 16]⟩
abbrev S4096x256x1x1 : Shape := ⟨4, ![4096, 256, 1, 1]⟩
abbrev S1 : Shape := ⟨1, ![1]⟩
abbrev S1x1x1x1 : Shape := ⟨4, ![1, 1, 1, 1]⟩
abbrev S4096x256x1 : Shape := ⟨3, ![4096, 256, 1]⟩
abbrev S4096x128x256x1 : Shape := ⟨4, ![4096, 128, 256, 1]⟩
abbrev S4096x128x256 : Shape := ⟨3, ![4096, 128, 256]⟩
abbrev S1x128x256 : Shape := ⟨3, ![1, 128, 256]⟩
abbrev S4096x128 : Shape := ⟨2, ![4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S128x256x16, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4096x256, .i32⟩
  | .hbm, ⟨27, _⟩ => ⟨S4096x256, .i32⟩
  | .hbm, ⟨28, _⟩ => ⟨S_, .i32⟩
  | .hbm, ⟨29, _⟩ => ⟨S4096x256, .i32⟩
  | .hbm, ⟨30, _⟩ => ⟨S4096x256, .i32⟩
  | .hbm, ⟨31, _⟩ => ⟨S4096x256, .f32⟩
  | .hbm, ⟨32, _⟩ => ⟨S4096x256, .f32⟩
  | .hbm, ⟨33, _⟩ => ⟨S4096x1x256, .f32⟩
  | .hbm, ⟨34, _⟩ => ⟨S4096x1x256x1, .i32⟩
  | .hbm, ⟨35, _⟩ => ⟨S1x128x256x16, .f32⟩
  | .hbm, ⟨36, _⟩ => ⟨S_, .i32⟩
  | .hbm, ⟨37, _⟩ => ⟨S4096x1x256x1, .i32⟩
  | .hbm, ⟨38, _⟩ => ⟨S4096x1x256x1, .i1⟩
  | .hbm, ⟨39, _⟩ => ⟨S_, .i32⟩
  | .hbm, ⟨40, _⟩ => ⟨S4096x1x256x1, .i32⟩
  | .hbm, ⟨41, _⟩ => ⟨S4096x1x256x1, .i32⟩
  | .hbm, ⟨42, _⟩ => ⟨S4096x1x256x1, .i32⟩
  | .hbm, ⟨43, _⟩ => ⟨S4096x256x1x1, .i32⟩
  | .hbm, ⟨44, _⟩ => ⟨S128x256x16, .f32⟩
  | .hbm, ⟨45, _⟩ => ⟨S1, .i32⟩
  | .hbm, ⟨46, _⟩ => ⟨S_, .i32⟩
  | .hbm, ⟨47, _⟩ => ⟨S4096x256x1x1, .i32⟩
  | .hbm, ⟨48, _⟩ => ⟨S4096x256x1x1, .i1⟩
  | .hbm, ⟨49, _⟩ => ⟨S1x1x1x1, .i32⟩
  | .hbm, ⟨50, _⟩ => ⟨S4096x256x1x1, .i32⟩
  | .hbm, ⟨51, _⟩ => ⟨S4096x256x1x1, .i1⟩
  | .hbm, ⟨52, _⟩ => ⟨S4096x256x1x1, .i1⟩
  | .hbm, ⟨53, _⟩ => ⟨S_, .i1⟩
  | .hbm, ⟨54, _⟩ => ⟨S4096x256x1, .i1⟩
  | .hbm, ⟨55, _⟩ => ⟨S4096x128x256x1, .f32⟩
  | .hbm, ⟨56, _⟩ => ⟨S4096x128x256x1, .i1⟩
  | .hbm, ⟨57, _⟩ => ⟨S_, .f32⟩
  | .hbm, ⟨58, _⟩ => ⟨S4096x128x256x1, .f32⟩
  | .hbm, ⟨59, _⟩ => ⟨S4096x128x256x1, .f32⟩
  | .hbm, ⟨60, _⟩ => ⟨S4096x128x256, .f32⟩
  | .hbm, ⟨61, _⟩ => ⟨S1x128x256x16, .f32⟩
  | .hbm, ⟨62, _⟩ => ⟨S_, .i32⟩
  | .hbm, ⟨63, _⟩ => ⟨S4096x1x256x1, .i32⟩
  | .hbm, ⟨64, _⟩ => ⟨S4096x1x256x1, .i32⟩
  | .hbm, ⟨65, _⟩ => ⟨S_, .i32⟩
  | .hbm, ⟨66, _⟩ => ⟨S4096x1x256x1, .i32⟩
  | .hbm, ⟨67, _⟩ => ⟨S4096x1x256x1, .i1⟩
  | .hbm, ⟨68, _⟩ => ⟨S_, .i32⟩
  | .hbm, ⟨69, _⟩ => ⟨S4096x1x256x1, .i32⟩
  | .hbm, ⟨70, _⟩ => ⟨S4096x1x256x1, .i32⟩
  | .hbm, ⟨71, _⟩ => ⟨S4096x1x256x1, .i32⟩
  | .hbm, ⟨72, _⟩ => ⟨S4096x256x1x1, .i32⟩
  | .hbm, ⟨73, _⟩ => ⟨S128x256x16, .f32⟩
  | .hbm, ⟨74, _⟩ => ⟨S1, .i32⟩
  | .hbm, ⟨75, _⟩ => ⟨S_, .i32⟩
  | .hbm, ⟨76, _⟩ => ⟨S4096x256x1x1, .i32⟩
  | .hbm, ⟨77, _⟩ => ⟨S4096x256x1x1, .i1⟩
  | .hbm, ⟨78, _⟩ => ⟨S1x1x1x1, .i32⟩
  | .hbm, ⟨79, _⟩ => ⟨S4096x256x1x1, .i32⟩
  | .hbm, ⟨80, _⟩ => ⟨S4096x256x1x1, .i1⟩
  | .hbm, ⟨81, _⟩ => ⟨S4096x256x1x1, .i1⟩
  | .hbm, ⟨82, _⟩ => ⟨S_, .i1⟩
  | .hbm, ⟨83, _⟩ => ⟨S4096x256x1, .i1⟩
  | .hbm, ⟨84, _⟩ => ⟨S4096x128x256x1, .f32⟩
  | .hbm, ⟨85, _⟩ => ⟨S4096x128x256x1, .i1⟩
  | .hbm, ⟨86, _⟩ => ⟨S_, .f32⟩
  | .hbm, ⟨87, _⟩ => ⟨S4096x128x256x1, .f32⟩
  | .hbm, ⟨88, _⟩ => ⟨S4096x128x256x1, .f32⟩
  | .hbm, ⟨89, _⟩ => ⟨S4096x128x256, .f32⟩
  | .hbm, ⟨90, _⟩ => ⟨S_, .f32⟩
  | .hbm, ⟨91, _⟩ => ⟨S4096x1x256, .f32⟩
  | .hbm, ⟨92, _⟩ => ⟨S4096x1x256, .f32⟩
  | .hbm, ⟨93, _⟩ => ⟨S4096x128x256, .f32⟩
  | .hbm, ⟨94, _⟩ => ⟨S4096x128x256, .f32⟩
  | .hbm, ⟨95, _⟩ => ⟨S4096x128x256, .f32⟩
  | .hbm, ⟨96, _⟩ => ⟨S4096x128x256, .f32⟩
  | .hbm, ⟨97, _⟩ => ⟨S4096x128x256, .f32⟩
  | .hbm, ⟨98, _⟩ => ⟨S4096x256, .f32⟩
  | .hbm, ⟨99, _⟩ => ⟨S4096x256, .f32⟩
  | .hbm, ⟨100, _⟩ => ⟨S_, .f32⟩
  | .hbm, ⟨101, _⟩ => ⟨S4096x256, .f32⟩
  | .hbm, ⟨102, _⟩ => ⟨S4096x256, .f32⟩
  | .hbm, ⟨103, _⟩ => ⟨S_, .f32⟩
  | .hbm, ⟨104, _⟩ => ⟨S4096x256, .f32⟩
  | .hbm, ⟨105, _⟩ => ⟨S4096x256, .f32⟩
  | .hbm, ⟨106, _⟩ => ⟨S4096x256, .f32⟩
  | .hbm, ⟨107, _⟩ => ⟨S4096x1x256, .f32⟩
  | .hbm, ⟨108, _⟩ => ⟨S1x128x256, .f32⟩
  | .hbm, ⟨109, _⟩ => ⟨S4096x128x256, .f32⟩
  | .hbm, ⟨110, _⟩ => ⟨S4096x128x256, .f32⟩
  | .hbm, ⟨111, _⟩ => ⟨S4096x128x256, .f32⟩
  | .hbm, ⟨112, _⟩ => ⟨S1x128x256, .f32⟩
  | .hbm, ⟨113, _⟩ => ⟨S4096x128x256, .f32⟩
  | .hbm, ⟨114, _⟩ => ⟨S4096x128x256, .f32⟩
  | .hbm, ⟨115, _⟩ => ⟨S4096x128x256, .f32⟩
  | .hbm, ⟨116, _⟩ => ⟨S_, .f32⟩
  | .hbm, ⟨117, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_c_1 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_c_3 : Ref sig .tc := ⟨.hbm, 53, rfl⟩
abbrev main_call2_v13 : Ref sig .tc := ⟨.hbm, 54, rfl⟩
abbrev main_call2_v14 : Ref sig .tc := ⟨.hbm, 55, rfl⟩
abbrev main_call2_v15 : Ref sig .tc := ⟨.hbm, 56, rfl⟩
abbrev main_call2_cst : Ref sig .tc := ⟨.hbm, 57, rfl⟩
abbrev main_call2_v16 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_5 : Ref sig .tc := ⟨.hbm, 62, rfl⟩
abbrev main_v18 : Ref sig .tc := ⟨.hbm, 63, rfl⟩
abbrev main_v19 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_c_1 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_c_3 : Ref sig .tc := ⟨.hbm, 82, rfl⟩
abbrev main_call3_v13 : Ref sig .tc := ⟨.hbm, 83, rfl⟩
abbrev main_call3_v14 : Ref sig .tc := ⟨.hbm, 84, rfl⟩
abbrev main_call3_v15 : Ref sig .tc := ⟨.hbm, 85, rfl⟩
abbrev main_call3_cst : Ref sig .tc := ⟨.hbm, 86, rfl⟩
abbrev main_call3_v16 : Ref sig .tc := ⟨.hbm, 87, rfl⟩
abbrev main_v20 : Ref sig .tc := ⟨.hbm, 88, rfl⟩
abbrev main_v21 : Ref sig .tc := ⟨.hbm, 89, rfl⟩
abbrev main_cst_6 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_7 : Ref sig .tc := ⟨.hbm, 116, rfl⟩
abbrev main_v39 : Ref sig .tc := ⟨.hbm, 117, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S4096x256_S4096x1x256_0_2 : S4096x256.BroadcastsInDim S4096x1x256 (![0, 2] : Fin 2 → Fin S4096x1x256.rank)
  bcast_S4096x256_S4096x1x256x1_0_2 : S4096x256.BroadcastsInDim S4096x1x256x1 (![0, 2] : Fin 2 → Fin S4096x1x256x1.rank)
  bcast_S128x256x16_S1x128x256x16_1_2_3 : S128x256x16.BroadcastsInDim S1x128x256x16 (![1, 2, 3] : Fin 3 → Fin S1x128x256x16.rank)
  bcast_S_S4096x1x256x1 : S_.BroadcastsInDim S4096x1x256x1 (![] : Fin 0 → Fin S4096x1x256x1.rank)
  shapeCasts_S4096x1x256x1_S4096x256x1x1 : S4096x1x256x1.ShapeCasts S4096x256x1x1
  shapeCasts_S1x128x256x16_S128x256x16 : S1x128x256x16.ShapeCasts S128x256x16
  bcast_S_S4096x256x1x1 : S_.BroadcastsInDim S4096x256x1x1 (![] : Fin 0 → Fin S4096x256x1x1.rank)
  bcast_S1_S1x1x1x1_3 : S1.BroadcastsInDim S1x1x1x1 (![3] : Fin 1 → Fin S1x1x1x1.rank)
  bcast_S1x1x1x1_S4096x256x1x1_0_1_2_3 : S1x1x1x1.BroadcastsInDim S4096x256x1x1 (![0, 1, 2, 3] : Fin 4 → Fin S4096x256x1x1.rank)
  reducesTo_S4096x256x1x1_S4096x256x1_d3 : S4096x256x1x1.ReducesTo [3] S4096x256x1
  h_S_ : 0 < S_.numel
  bcast_S4096x256x1_S4096x128x256x1_0_2_3 : S4096x256x1.BroadcastsInDim S4096x128x256x1 (![0, 2, 3] : Fin 3 → Fin S4096x128x256x1.rank)
  bcast_S_S4096x128x256x1 : S_.BroadcastsInDim S4096x128x256x1 (![] : Fin 0 → Fin S4096x128x256x1.rank)
  shapeCasts_S4096x128x256x1_S4096x128x256 : S4096x128x256x1.ShapeCasts S4096x128x256
  bcast_S_S4096x1x256 : S_.BroadcastsInDim S4096x1x256 (![] : Fin 0 → Fin S4096x1x256.rank)
  bcast_S4096x1x256_S4096x128x256_0_1_2 : S4096x1x256.BroadcastsInDim S4096x128x256 (![0, 1, 2] : Fin 3 → Fin S4096x128x256.rank)
  bcast_S128x256_S1x128x256_1_2 : S128x256.BroadcastsInDim S1x128x256 (![1, 2] : Fin 2 → Fin S1x128x256.rank)
  bcast_S1x128x256_S4096x128x256_0_1_2 : S1x128x256.BroadcastsInDim S4096x128x256 (![0, 1, 2] : Fin 3 → Fin S4096x128x256.rank)
  reducesTo_S4096x128x256_S4096x128_d2 : S4096x128x256.ReducesTo [2] S4096x128
  gather_S128x256x16_S4096x256x1x1_S4096x128x256x1_1_2_1_1_2_3_12811_wf : GatherDims.WF S128x256x16 S4096x256x1x1 S4096x128x256x1 [1] [2] [1] [2] [1] 3 ![128, 1, 1]

variable [Facts₀]

def gather_S128x256x16_S4096x256x1x1_S4096x128x256x1_1_2_1_1_2_3_12811 : GatherDims S128x256x16 S4096x256x1x1 S4096x128x256x1 where
  offsetDims := [1]
  collapsedSliceDims := [2]
  operandBatchingDims := [1]
  startIndicesBatchingDims := [1]
  startIndexMap := [2]
  indexVectorDim := 3
  sliceSizes := ![128, 1, 1]
  wf := gather_S128x256x16_S4096x256x1x1_S4096x128x256x1_1_2_1_1_2_3_12811_wf

class Facts : Prop extends Facts₀ where

variable [Facts]
-- ==== Proof.KLoop.lean ====
/-
  The kernel body's result block as a recursion over the sixteen knots.

  The body computes the base product once, then adds one product per knot `g = 0, …, 15` to a value it
  carries in registers, and stores the carried value after the last knot. Here that stored block is
  named: `loopVal x0 x1 init n` is the carried value before knot `n`, starting from `init`, where knot `g`
  reads the slab `x1[g, :, :]` of the spline array; and what the body leaves in the output block is
  `loopVal x0 x1 (base product) 16`.
-/
import proofs.«125629_j21638045237976_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl

/-- The loop runs sixteen times. -/
theorem trips_eq : k0_t1_loop.trips = 16 := by decide

/-- Knot `k`'s slab of the spline array: the `[1, 128, 256]` block at row `k` of `[16, 128, 256]`. -/
def slab (x1 : Vec F S16x128x256 .bf16) (k : Fin k0_t1_loop.trips) : Vec F S1x128x256 .bf16 :=
  View.ld x1 (Rect.unit (s := S16x128x256) (k0_off1 k) S1x128x256.size (k0_off1_inb k))

/-- The carried value before knot `n`: knot `g < 16` adds its product to what it finds. -/
def loopVal (x0 : Vec F S1024x256 .f32) (x1 : Vec F S16x128x256 .bf16) (init : FVec F S128x1024 .f32) :
    ℕ → FVec F S128x1024 .f32
  | 0 => init
  | n + 1 =>
    if h : n < k0_t1_loop.trips then k0_pay2 x0 ⟨n, h⟩ (loopVal x0 x1 init n) (slab x1 ⟨n, h⟩)
    else loopVal x0 x1 init n

/-- One trip of the loop, on a whole spline buffer holding `x1`, yields the knot's payload of the carried
    value and the knot's slab. -/
theorem trip_eq (c : Dev nD) (i : grid0.Coords) (arg1 : Memref sig .tc .vmem S1024x256 .f32) (harg1 : arg1.IsWhole)
    (arg2 : Memref sig .tc .vmem S16x128x256 .bf16) (harg2 : arg2.IsWhole)
    (arg3 : Memref sig .tc .vmem S128x256 .bf16) (harg3 : arg3.IsWhole)
    (arg4 : Memref sig .tc .vmem S128x1024 .f32) (harg4 : arg4.IsWhole)
    (v0 : Vec F S1024x256 .f32) (x1 : Vec F S16x128x256 .bf16) (k : Fin k0_t1_loop.trips)
    (acc : FVec F S128x1024 .f32) :
    tripR_k0_t1 Variants.none c none i arg1 harg1 arg2 harg2 arg3 harg3 arg4 harg4 v0 (harg2.unread x1) k acc
      = k0_pay2 v0 k acc (slab x1 k) := by
  unfold tripR_k0_t1 trip_k0_t1
  dsimp only
  rw [View.readAt_eq_ld, harg2.read_unread]
  rfl

/-- The loop's carried value before trip `n` is `loopVal`. -/
theorem st_eq (c : Dev nD) (i : grid0.Coords) (arg1 : Memref sig .tc .vmem S1024x256 .f32) (harg1 : arg1.IsWhole)
    (arg2 : Memref sig .tc .vmem S16x128x256 .bf16) (harg2 : arg2.IsWhole)
    (arg3 : Memref sig .tc .vmem S128x256 .bf16) (harg3 : arg3.IsWhole)
    (arg4 : Memref sig .tc .vmem S128x1024 .f32) (harg4 : arg4.IsWhole)
    (v0 : Vec F S1024x256 .f32) (x1 : Vec F S16x128x256 .bf16) (init : FVec F S128x1024 .f32) :
    ∀ n : ℕ, st_k0_t1 Variants.none c none i arg1 harg1 arg2 harg2 arg3 harg3 arg4 harg4 v0 (harg2.unread x1) init n
      = loopVal v0 x1 init n
  | 0 => rfl
  | n + 1 => by
    rw [st_k0_t1.eq_2, loopVal]
    unfold st_k0_t1Step
    by_cases h : n < k0_t1_loop.trips
    · rw [dif_pos h, dif_pos h, trip_eq, st_eq c i arg1 harg1 arg2 harg2 arg3 harg3 arg4 harg4 v0 x1 init n]
    · rw [dif_neg h, dif_neg h, st_eq c i arg1 harg1 arg2 harg2 arg3 harg3 arg4 harg4 v0 x1 init n]

/-- What the body leaves in the output block: the carried value after the sixteenth knot, started from the
    base product. -/
theorem out_A (c : Dev nD) (i : grid0.Coords) (arg1 : Memref sig .tc .vmem S1024x256 .f32) (harg1 : arg1.IsWhole)
    (arg2 : Memref sig .tc .vmem S16x128x256 .bf16) (harg2 : arg2.IsWhole)
    (arg3 : Memref sig .tc .vmem S128x256 .bf16) (harg3 : arg3.IsWhole)
    (arg4 : Memref sig .tc .vmem S128x1024 .f32) (harg4 : arg4.IsWhole)
    (x0 : Vec F S1024x256 .f32) (x1 : Vec F S16x128x256 .bf16) (x2 : Vec F S128x256 .bf16) :
    out0_A_3 c i arg1 harg1 arg2 harg2 arg3 harg3 arg4 harg4 x0 x1 x2 = loopVal x0 x1 (k0_pay1 x0 x2) 16 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz2]
  simp only [View.readAt_eq_ld, harg1.read_unread, harg3.read_unread, View.ld_unit_zero (S := S1024x256) hz2,
    View.ld_unit_zero (S := S128x256) hz2]
  rw [st_eq]
  rfl

end Cert.KernelIdeal.KValue

end
-- ==== Proof.Spec.lean ====
/-
  The two spellings of one spline layer, as plain functions on the extended reals.

  An input `x[b, i]` is clamped to `[-2, 2]` and mapped affinely onto the knot axis `[0, 15]`
  (`t = (clamp x + 2) · 15/4`). Sixteen values `sv[o, i, 0 … 15]` per edge `(o, i)` are interpolated
  linearly at `t`, scaled by `ss[o, i]`, added to `bs[o, i] · silu (x[b, i])`, and summed over `i`.

  * `kernelVal` interpolates with the sixteen tent functions `hat g t = max 0 (1 - |t - g|)`:
    the spline term is `∑ g, ∑ i, (sv[o, i, g] · ss[o, i]) · hat g t`, a sum of sixteen
    matrix products, and the base term `∑ i, bs[o, i] · silu x` is a seventeenth.
  * `referenceVal` finds the knot to the left, `k = min 14 (max 0 ⌊t⌋)` (an integer word), the
    offset `α = t - k`, and blends the two neighbouring values: `(1 - α) · sv[o, i, k] + α · sv[o, i, k + 1]`.

  The float words are kept as the words the two programs print; `Law.lean` evaluates them.
-/
import Idealize.ShloMosaic.PureOps.Ideal
import Idealize.ShloMosaic.Lib.ValueIdx

noncomputable section

open scoped BigOperators

namespace Cert.Kan

open Idealize.ShloMosaic Idealize.ShloMosaic.ValueIdx

/-- The shapes of `x`, of the spline values, of the two scale arrays and of the result. -/
abbrev SX : Shape := ⟨2, ![4096, 256]⟩
abbrev SV : Shape := ⟨3, ![128, 256, 16]⟩
abbrev SW : Shape := ⟨2, ![128, 256]⟩
abbrev SO : Shape := ⟨2, ![4096, 128]⟩

/-- The float words of the two programs: `-2`, `2`, `3.75`, `4`, `15`, `1`, `0`. -/
abbrev wNeg2 : EReal := Ideal.ofBits .f32 0xC0000000#32
abbrev w2 : EReal := Ideal.ofBits .f32 0x40000000#32
abbrev w375 : EReal := Ideal.ofBits .f32 0x40700000#32
abbrev w4 : EReal := Ideal.ofBits .f32 0x40800000#32
abbrev w15 : EReal := Ideal.ofBits .f32 0x41700000#32
abbrev w1 : EReal := Ideal.ofBits .f32 0x3F800000#32
abbrev w0 : EReal := Ideal.ofBits .f32 0x00000000#32

/-- `x` clamped to `[-2, 2]`. -/
def clampX (x : EReal) : EReal := min w2 (max wNeg2 x)

/-- The knot coordinate as the kernel spells it: `(clamp x - (-2)) · 3.75`. -/
def knotK (x : EReal) : EReal := (clampX x - wNeg2) * w375

/-- The knot coordinate as the reference spells it: `(clamp x - (-2)) / 4 · 15`. -/
def knotR (x : EReal) : EReal := Ideal.div (clampX x - wNeg2) w4 * w15

/-- The absolute value, `max d (-d)`. -/
def absE (d : EReal) : EReal := max d (-d)

/-- The tent function centred at the knot `g`: `max 0 (1 - |t - g|)`. -/
def hat (g : ℕ) (t : EReal) : EReal := max w0 (w1 - absE (t - (((g : ℤ) : ℝ) : EReal)))

/-- `silu` with the logistic function as one operation, and spelt out as `1 / (1 + e⁻ˣ)`. -/
def siluK (x : EReal) : EReal := x * Ideal.logistic x
def siluR (x : EReal) : EReal := x * Ideal.div w1 (w1 + Ideal.exp (-x))

/-- The knot to the left of `t` as a 32-bit word: `⌊t⌋` converted to an integer, clamped to `[0, 14]`. -/
def leftWord (t : EReal) : BitVec 32 :=
  IntOp.minsi 14#32 (IntOp.maxsi 0#32 (Ideal.fptosi 32 (Ideal.liftRound Int.floor t)))

/-- A word read as a position on the knot axis: its signed value, clamped into `[0, 15]`. -/
def knotIdx (v : BitVec 32) : Fin 16 := ⟨min v.toInt.toNat 15, by omega⟩

/-- The offset of `t` from the knot to its left. -/
def alpha (t : EReal) : EReal := t - (((leftWord t).toInt : ℝ) : EReal)

/-- The layer with the tent functions (seventeen matrix products). -/
def kernelVal (x : SX.Idx → EReal) (sv : SV.Idx → EReal) (bs ss : SW.Idx → EReal) : SO.Idx → EReal := fun j =>
  (∑ i : Fin 256, bs (ix2 (j 1) i) * siluK (x (ix2 (j 0) i)))
    + ∑ g : Fin 16, ∑ i : Fin 256, (sv (ix3 (j 1) i g) * ss (ix2 (j 1) i)) * hat g.val (knotK (x (ix2 (j 0) i)))

/-- The layer with the two neighbouring knots blended. -/
def referenceVal (x : SX.Idx → EReal) (sv : SV.Idx → EReal) (bs ss : SW.Idx → EReal) : SO.Idx → EReal := fun j =>
  ∑ i : Fin 256,
    (bs (ix2 (j 1) i) * siluR (x (ix2 (j 0) i))
      + ss (ix2 (j 1) i)
        * ((w1 - alpha (knotR (x (ix2 (j 0) i)))) * sv (ix3 (j 1) i (knotIdx (leftWord (knotR (x (ix2 (j 0) i))))))
          + alpha (knotR (x (ix2 (j 0) i))) * sv (ix3 (j 1) i (knotIdx (leftWord (knotR (x (ix2 (j 0) i))) + 1#32)))))

end Cert.Kan

end
-- ==== Proof.KPay.lean ====
/-
  The body's result block at an entry, on the extended reals.

  With `x0` the `[1024, 256]` block of inputs, `x2` the `[128, 256]` base scales and `x1` the
  `[16, 128, 256]` scaled spline values, entry `(o, r)` of the `[128, 1024]` result block is

    ∑ i, x2[o, i] · silu (x0[r, i])  +  ∑ g < 16, ∑ i, x1[g, o, i] · hat g (knot (x0[r, i])) :

  each of the seventeen matrix products contracts the second axis of both operands and starts from the zero
  matrix, a change of float format is the identity, and the carried value only ever has a product added to it.
-/
import proofs.«125629_j21638045237976_2_alg».proof.Proof.KLoop
import proofs.«125629_j21638045237976_2_alg».proof.Proof.Spec
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.KValue

open Cert.KernelIdeal Cert.KernelIdeal.Gen

/-- The dimension numbers of every product of the body: `[128, 256] × [1024, 256] → [128, 1024]`, the second
    axis of each operand contracted. -/
abbrev DD : DotDims S128x256 S1024x256 S128x1024 := dot_S128x256_S1024x256_S128x1024_1_1_0_0_n_n

/-- A product of the body into the zero matrix, at entry `(o, p)`: the sum over `i` of left `(o, i)` times right `(p, i)`. -/
theorem dot_apply {φ₁ φ₂ : FTy} (l : FVec Ideal S128x256 φ₁) (r : FVec Ideal S1024x256 φ₂) (o : Fin 128) (p : Fin 1024) :
    matmul DD none l r (constant (F := Ideal) S128x1024 .f32 0x00000000#32) (ix2 o p)
      = ∑ i : Fin 256, l (ix2 o i) * r (ix2 p i) := by
  refine (Ideal.matmul_constant_zero_apply DD none l r (ix2 o p)).trans ?_
  rw [← Equiv.sum_comp (contrEquiv1 DD 256 rfl rfl).symm]
  refine Finset.sum_congr rfl fun i _ => ?_
  have hi := contrEquiv1_symm_val DD 256 rfl rfl i
  have el : DD.lhsIdx (ix2 o p) ((contrEquiv1 DD 256 rfl rfl).symm i) = ix2 o i := funext fun a => Fin.ext (by
    match a with
    | ⟨0, _⟩ => rfl
    | ⟨1, _⟩ => exact (DD.lhsIdx_val_of_single rfl _ _).trans hi)
  have er : DD.rhsIdx (ix2 o p) ((contrEquiv1 DD 256 rfl rfl).symm i) = ix2 p i := funext fun a => Fin.ext (by
    match a with
    | ⟨0, _⟩ => rfl
    | ⟨1, _⟩ => exact (DD.rhsIdx_val_of_single rfl _ _).trans hi)
  rw [el, er]

/-- The base product at an entry. -/
theorem pay1_apply (x0 : Vec Ideal S1024x256 .f32) (x2 : Vec Ideal S128x256 .bf16) (o : Fin 128) (r : Fin 1024) :
    k0_pay1 (F := Ideal) x0 x2 (ix2 o r) = ∑ i : Fin 256, x2 (ix2 o i) * Cert.Kan.siluK (x0 (ix2 r i)) := by
  unfold k0_pay1
  refine (dot_apply _ _ o r).trans ?_
  refine Finset.sum_congr rfl fun i _ => ?_
  rw [shapeCast_self]
  rfl

/-- The loop's counter at trip `k`, read as a signed integer, is `k`. -/
theorem iv_toInt : ∀ k : Fin k0_t1_loop.trips, (Scf.iv 0#32 1#32 k.val).toInt = (k.val : ℤ) := by decide +kernel

/-- Knot `k`'s payload at an entry: the carried value plus the knot's product. -/
theorem pay2_apply (x0 : Vec Ideal S1024x256 .f32) (k : Fin k0_t1_loop.trips) (acc : FVec Ideal S128x1024 .f32)
    (s : Vec Ideal S1x128x256 .bf16) (o : Fin 128) (r : Fin 1024) :
    k0_pay2 (F := Ideal) x0 k acc s (ix2 o r)
      = acc (ix2 o r) + ∑ i : Fin 256, s (ix3 (0 : Fin 1) o i) * Cert.Kan.hat k.val (Cert.Kan.knotK (x0 (ix2 r i))) := by
  unfold k0_pay2
  refine congrArg (acc (ix2 o r) + ·) ?_
  refine (dot_apply _ _ o r).trans ?_
  refine Finset.sum_congr rfl fun i _ => ?_
  rw [shapeCast_1ab_ab_apply]
  refine congrArg (s (ix3 (0 : Fin 1) o i) * ·) ?_
  show max _ (_ - max _ (-_)) = _
  unfold Cert.Kan.hat Cert.Kan.absE Cert.Kan.knotK Cert.Kan.clampX
  rw [← iv_toInt k]
  rfl

end Cert.KernelIdeal.KValue

end
-- ==== Proof.KBlock.lean ====
/-
  The body's result block in closed form.

  Unfolding the recursion over the knots: the carried value before knot `n` is the base product plus the
  products of the knots below `n`; after the sixteenth knot it is the base product plus all sixteen.
  Knot `g`'s slab of the spline array, read at `(0, o, i)`, is the array at `(g, o, i)`.
-/
import proofs.«125629_j21638045237976_2_alg».proof.Proof.KPay

noncomputable section

open scoped BigOperators
open Idealize.ShloMosaic Idealize.ShloMosaic.TcCoe Idealize.ShloMosaic.ValueIdx

namespace Cert.KernelIdeal.KValue

open Cert.KernelIdeal Cert.KernelIdeal.Gen

/-- Knot `k`'s slab at `(0, o, i)` is the spline array at `(k, o, i)`. -/
theorem slab_apply (x1 : Vec Ideal S16x128x256 .bf16) (k : Fin k0_t1_loop.trips) (o : Fin 128) (i : Fin 256) :
    slab (F := Ideal) x1 k (ix3 (0 : Fin 1) o i) = x1 (ix3 ⟨k.val, Nat.lt_of_lt_of_le k.isLt (Nat.le_of_eq trips_eq)⟩ o i) := by
  unfold slab
  show x1 _ = x1 _
  refine congrArg x1 (funext fun a => Fin.ext ?_)
  match a with
  | ⟨0, _⟩ => show k0_off1 k 0 + 1 * 0 = k.val; rw [k0_off1_eq]; rfl
  | ⟨1, _⟩ => show k0_off1 k 1 + 1 * o.val = o.val; rw [k0_off1_eq]; show 0 + 1 * o.val = o.val; omega
  | ⟨2, _⟩ => show k0_off1 k 2 + 1 * i.val = i.val; rw [k0_off1_eq]; show 0 + 1 * i.val = i.val; omega

/-- The spline array at a knot given as a natural number (zero past the last knot). -/
def atKnot (x1 : Vec Ideal S16x128x256 .bf16) (g : ℕ) (o : Fin 128) (i : Fin 256) : EReal :=
  if h : g < 16 then x1 (ix3 ⟨g, h⟩ o i) else 0

/-- The carried value before knot `n ≤ 16`, at an entry: the base product plus the products of the knots below `n`. -/
theorem loopVal_apply (x0 : Vec Ideal S1024x256 .f32) (x1 : Vec Ideal S16x128x256 .bf16) (x2 : Vec Ideal S128x256 .bf16)
    (o : Fin 128) (r : Fin 1024) : ∀ n : ℕ, n ≤ 16 →
    loopVal (F := Ideal) x0 x1 (k0_pay1 x0 x2) n (ix2 o r)
      = (∑ i : Fin 256, x2 (ix2 o i) * Cert.Kan.siluK (x0 (ix2 r i)))
        + ∑ g ∈ Finset.range n, ∑ i : Fin 256, atKnot x1 g o i * Cert.Kan.hat g (Cert.Kan.knotK (x0 (ix2 r i)))
  | 0, _ => by
    rw [loopVal, Finset.range_zero, Finset.sum_empty, add_zero, pay1_apply]
  | n + 1, h => by
    have hn : n < k0_t1_loop.trips := by rw [trips_eq]; omega
    rw [loopVal, dif_pos hn, pay2_apply, loopVal_apply x0 x1 x2 o r n (by omega), Finset.sum_range_succ, add_assoc]
    refine congrArg (_ + ·) (congrArg (_ + ·) ?_)
    refine Finset.sum_congr rfl fun i _ => ?_
    rw [slab_apply, atKnot, dif_pos (by omega : n < 16)]

/-- The stored block at an entry: the base product plus the sixteen knots' products. -/
theorem block_apply (x0 : Vec Ideal S1024x256 .f32) (x1 : Vec Ideal S16x128x256 .bf16) (x2 : Vec Ideal S128x256 .bf16)
    (o : Fin 128) (r : Fin 1024) :
    loopVal (F := Ideal) x0 x1 (k0_pay1 x0 x2) 16 (ix2 o r)
      = (∑ i : Fin 256, x2 (ix2 o i) * Cert.Kan.siluK (x0 (ix2 r i)))
        + ∑ g : Fin 16, ∑ i : Fin 256, x1 (ix3 g o i) * Cert.Kan.hat g.val (Cert.Kan.knotK (x0 (ix2 r i))) := by
  rw [loopVal_apply x0 x1 x2 o r 16 le_rfl,
    ← Fin.sum_univ_eq_sum_range (fun g => ∑ i : Fin 256, atKnot x1 g o i * Cert.Kan.hat g (Cert.Kan.knotK (x0 (ix2 r i)))) 16]
  refine congrArg (_ + ·) (Finset.sum_congr rfl fun g _ => Finset.sum_congr rfl fun i _ => ?_)
  rw [atKnot, dif_pos g.isLt]

end Cert.KernelIdeal.KValue

end
-- ==== Proof.KArrays.lean ====
/-
  The arrays the call finds, its blocks at a grid point, and what a point writes back.

  Before the call the host multiplies the spline values by the spline scales and moves the knot axis in front:
  the call's second operand is `sv'[g, o, i] = sv[o, i, g] · ss[o, i]`; its third is the base scales. Point `t`
  of the grid of four reads rows `1024 t … 1024 t + 1023` of `x` and both other operands whole, and writes
  columns `1024 t … 1024 t + 1023` of the `[128, 4096]` result: entry `(o, 1024 t + r)` of the result is the
  layer's value at `(1024 t + r, o)`.
-/
import proofs.«125629_j21638045237976_2_alg».proof.Proof.KBlock
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The four argument arrays on core `c`, as functions on their index sets: the inputs `x`, the spline values,
    the base scales and the spline scales. -/
abbrev aX (c : Dev nD) : S4096x256.Idx → EReal := m ((c : Thread nD τ).loc main_arg0)
abbrev aSV (c : Dev nD) : S128x256x16.Idx → EReal := m ((c : Thread nD τ).loc main_arg1)
abbrev aBS (c : Dev nD) : S128x256.Idx → EReal := m ((c : Thread nD τ).loc main_arg2)
abbrev aSS (c : Dev nD) : S128x256.Idx → EReal := m ((c : Thread nD τ).loc main_arg3)

/-- The call's second operand as the call finds it: `sv[o, i, g] · ss[o, i]` at `(g, o, i)`. -/
theorem V_v4_apply (c : Dev nD) (g : Fin 16) (o : Fin 128) (i : Fin 256) :
    (V m c main_v4 : S16x128x256.Idx → EReal) (ix3 g o i)
      = aSV m c (ix3 o i g) * aSS m c (ix2 o i) := by
  have e : (V m c main_v4 : S16x128x256.Idx → EReal)
      = (truncf .bf16 (transpose S16x128x256 [2, 0, 1]
          (mulf (aSV m c : FVec Ideal S128x256x16 .f32)
            (broadcastInDim S128x256x16 ![0, 1, 2] bcast_S128x256x1_S128x256x16_0_1_2
              (broadcastInDim S128x256x1 ![0, 1] bcast_S128x256_S128x256x1_0_1 (aSS m c : FVec Ideal S128x256 .f32))))
          transposes_S128x256x16_S16x128x256_2_0_1 : FVec Ideal S16x128x256 .f32) bitsLt_bf16_f32 : FVec Ideal S16x128x256 .bf16) := by
    show StableHlo.after hostOps0 (fun b => m (c, b)) (Proc.devRef .tc main_v4) = _
    after_results
  rw [e, truncf_apply,
    transpose_apply [2, 0, 1] _ _ (ix3 g o i) (ix3 o i g) (fun b => by
      match b with | ⟨0, _⟩ => rfl | ⟨1, _⟩ => rfl | ⟨2, _⟩ => rfl),
    mulf_apply,
    broadcastInDim_apply _ _ _ (ix3 o i g) (ix3 o i (0 : Fin 1)) (fun a => by
      match a with | ⟨0, _⟩ => rfl | ⟨1, _⟩ => rfl | ⟨2, _⟩ => rfl),
    broadcastInDim_apply _ _ _ (ix3 o i (0 : Fin 1)) (ix2 o i) (fun a => by
      match a with | ⟨0, _⟩ => rfl | ⟨1, _⟩ => rfl)]

/-- The call's third operand as the call finds it: the base scales. -/
theorem V_v5_apply (c : Dev nD) (j : S128x256.Idx) :
    (V m c main_v5 : S128x256.Idx → EReal) j = aBS m c j := by
  have e : (V m c main_v5 : S128x256.Idx → EReal)
      = (truncf .bf16 (aBS m c : FVec Ideal S128x256 .f32) bitsLt_bf16_f32 : FVec Ideal S128x256 .bf16) := by
    show StableHlo.after hostOps0 (fun b => m (c, b)) (Proc.devRef .tc main_v5) = _
    after_results
  rw [e, truncf_apply]

/-- The printed index maps over the grid: `x`'s block moves down with the point, the result's block moves
    right with it, the two other operands stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

theorem N_lt (t : Fin cfg0.N) : t.val < 4 := Nat.lt_of_lt_of_le t.isLt (Nat.le_of_eq (show cfg0.N = 4 from N_0))

/-- `x`'s block at point `t`, at `(r, i)`: `x` at `(1024 t + r, i)`. -/
theorem iblk0_apply (c : Dev nD) (t : Fin cfg0.N) (r : Fin 1024) (i : Fin 256) :
    (iblk m c 0 t : S1024x256.Idx → EReal) (ix2 r i)
      = aX m c (ix2 ⟨1024 * t.val + r.val, by have := N_lt t; omega⟩ i) := by
  unfold iblk
  rw [View.read_apply]
  show V m c main_arg0 _ = _
  rw [V_main_arg0]
  refine congrArg (aX m c) (funext fun a => Fin.ext ?_)
  obtain ⟨e0, e1, -⟩ := idx_facts t
  match a with
  | ⟨0, _⟩ => show win0_0.index t (0 : Fin 2) * 1024 + 1 * r.val = 1024 * t.val + r.val; rw [e0]; omega
  | ⟨1, _⟩ => show win0_0.index t (1 : Fin 2) * 256 + 1 * i.val = i.val; rw [e1]; omega

/-- The scaled spline values' block at any point is the whole array. -/
theorem iblk1_apply (c : Dev nD) (t : Fin cfg0.N) (g : Fin 16) (o : Fin 128) (i : Fin 256) :
    (iblk m c 1 t : S16x128x256.Idx → EReal) (ix3 g o i)
      = aSV m c (ix3 o i g) * aSS m c (ix2 o i) := by
  unfold iblk
  rw [View.read_apply]
  show V m c main_v4 _ = _
  refine Eq.trans (congrArg (V m c main_v4) (funext fun a => Fin.ext ?_)) (V_v4_apply m c g o i)
  obtain ⟨-, -, e2, e3, e4, -⟩ := idx_facts t
  match a with
  | ⟨0, _⟩ => show win0_1.index t (0 : Fin 3) * 16 + 1 * g.val = g.val; rw [e2]; omega
  | ⟨1, _⟩ => show win0_1.index t (1 : Fin 3) * 128 + 1 * o.val = o.val; rw [e3]; omega
  | ⟨2, _⟩ => show win0_1.index t (2 : Fin 3) * 256 + 1 * i.val = i.val; rw [e4]; omega

/-- The base scales' block at any point is the whole array. -/
theorem iblk2_apply (c : Dev nD) (t : Fin cfg0.N) (o : Fin 128) (i : Fin 256) :
    (iblk m c 2 t : S128x256.Idx → EReal) (ix2 o i) = aBS m c (ix2 o i) := by
  unfold iblk
  rw [View.read_apply]
  show V m c main_v5 _ = _
  refine Eq.trans (congrArg (V m c main_v5) (funext fun a => Fin.ext ?_)) (V_v5_apply m c (ix2 o i))
  obtain ⟨-, -, -, -, -, e5, e6, -⟩ := idx_facts t
  match a with
  | ⟨0, _⟩ => show win0_2.index t (0 : Fin 2) * 128 + 1 * o.val = o.val; rw [e5]; omega
  | ⟨1, _⟩ => show win0_2.index t (1 : Fin 2) * 256 + 1 * i.val = i.val; rw [e6]; omega

end Cert.KernelIdeal.KValue

end
-- ==== Proof.KFinal.lean ====
/-
  The idealized kernel's run, read: its result array is `kernelVal` of the argument arrays.

  Point `t` writes back columns `1024 t … 1024 t + 1023` of the call's `[128, 4096]` result, and the four points
  cover it, so the call leaves `R[o, b] = kernelVal (b, o)`; the host's transpose after the call turns it into
  the `[4096, 128]` result `kernelVal`.
-/
import proofs.«125629_j21638045237976_2_alg».proof.Proof.KArrays
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The layer's value on core `c`'s argument arrays. -/
abbrev layer (c : Dev nD) : S4096x128.Idx → EReal :=
  Cert.Kan.kernelVal (aX m c) (aSV m c) (aBS m c) (aSS m c)

/-- The call's `[128, 4096]` result: the layer's value, transposed. -/
def callResult (c : Dev nD) : S128x4096.Idx → EReal := fun j => layer m c (ix2 (j 1) (j 0))

/-- The result block's entry `(o, r)` at point `t` sits at `(o, 1024 t + r)` of the result array. -/
theorem out_emb (t : Fin cfg0.N) (o : Fin 128) (r : Fin 1024) :
    ((cfg0.win 3).blk t).view.emb (ix2 o r)
      = (ix2 o (⟨1024 * t.val + r.val, by have := N_lt t; omega⟩ : Fin 4096) : S128x4096.Idx) := by
  funext a
  apply Fin.ext
  obtain ⟨-, -, -, -, -, -, -, e7, e8⟩ := idx_facts t
  match a with
  | ⟨0, _⟩ => show win0_3.index t (0 : Fin 2) * 128 + 1 * o.val = o.val; rw [e7]; omega
  | ⟨1, _⟩ => show win0_3.index t (1 : Fin 2) * 1024 + 1 * r.val = 1024 * t.val + r.val; rw [e8]; omega

/-- What point `t` writes back is block `t` of the call's result. -/
theorem flushed_eq (c : Dev nD) (t : Fin cfg0.N) :
    (dats m 0 c).flushed 3 t = ((cfg0.win 3).blk t).view.read (Elt Ideal) (callResult m c) := by
  show (cfg0.win 3).cut (grid0.coords t) ((dats m 0 c).after 3 t) = _
  rw [after0_3]
  unfold outsAt0
  rw [out_A]
  funext y
  obtain ⟨o, r, rfl⟩ : ∃ (o : Fin 128) (r : Fin 1024), y = ix2 o r := ⟨y 0, y 1, eq_ix2 y⟩
  show loopVal (F := Ideal) (iblk m c 0 t) (iblk m c 1 t) (k0_pay1 (iblk m c 0 t) (iblk m c 2 t)) 16 (ix2 o r)
    = callResult m c (((cfg0.win 3).blk t).view.emb (ix2 o r))
  rw [out_emb]
  refine (block_apply (iblk m c 0 t) (iblk m c 1 t) (iblk m c 2 t) o r).trans ?_
  unfold callResult layer Cert.Kan.kernelVal
  refine congrArg₂ (· + ·) (Finset.sum_congr rfl fun i _ => ?_)
    (Finset.sum_congr rfl fun g _ => Finset.sum_congr rfl fun i _ => ?_)
  · rw [iblk2_apply, iblk0_apply]
  · rw [iblk1_apply, iblk0_apply]

/-- An index of the result array is in point `t`'s block iff each coordinate is in the block's range. -/
theorem mem_blk (t : Fin cfg0.N) (i : S128x4096.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v6).slice (win0_3.rect t)).set ↔ _
  rw [View.set_slice_whole, Rect.mem_set_unit]
  exact Iff.rfl

/-- Column `b` of the result array lies in the block of point `b / 1024`. -/
theorem cover (i : S128x4096.Idx) :
    ∃ t : Fin cfg0.N, (cfg0.win 3).flush t = true ∧ i ∈ ((cfg0.win 3).blk t).view.set := by
  have h0 : (i 0).val < 128 := (i 0).isLt
  have h1 : (i 1).val < 4096 := (i 1).isLt
  have hN : cfg0.N = 4 := N_0
  let t : Fin cfg0.N := ⟨(i 1).val / 1024, by rw [hN]; omega⟩
  have ht : t.val = (i 1).val / 1024 := rfl
  refine ⟨t, flush0_3 t, ?_⟩
  rw [mem_blk]
  obtain ⟨-, -, -, -, -, -, -, e7, e8⟩ := idx_facts t
  intro a
  match a with
  | ⟨0, _⟩ =>
    show win0_3.index t (0 : Fin 2) * 128 ≤ (i 0).val ∧ (i 0).val < win0_3.index t (0 : Fin 2) * 128 + 128
    rw [e7]; omega
  | ⟨1, _⟩ =>
    show win0_3.index t (1 : Fin 2) * 1024 ≤ (i 1).val ∧ (i 1).val < win0_3.index t (1 : Fin 2) * 1024 + 1024
    rw [e8, ht]; omega

/-- The call's result array after the run. -/
theorem final (c : Dev nD) : (dats m 0 c).arrAt 3 cfg0.N = callResult m c :=
  (dats m 0 c).arrAt_eq_of_cover 3 (callResult m c) (fun t _ => flushed_eq m c t) cover

/-- The program's result: the call's result transposed back, the layer's value. -/
theorem tail_eq (c : Dev nD) :
    Pipeline.afterTail₀ cfgs (dats m) 0 (V0 m) [hostOps1] c main_v7 = layer m c := by
  unfold Pipeline.afterTail₀
  show StableHlo.after hostOps1 _ (Proc.devRef .tc main_v7) = _
  after_results
  rw [(Pipeline.withArrays_arr spec0 launch0.win.arr_inj c _ _ 3).trans (final m c)]
  funext j
  obtain ⟨b, o, rfl⟩ : ∃ (b : Fin 4096) (o : Fin 128), j = ix2 b o := ⟨j 0, j 1, eq_ix2 j⟩
  rw [transpose_ix2_apply]
  rfl

/-- The idealized kernel's run: the result array at the layer's value, the arguments unchanged. -/
theorem run : θ_run defs (onTc (τ := τ) (main (F := Ideal))) ⟨m, fun _ => 0, ρ⟩ fun r => ∀ c : Dev nD,
      r.2.mem ((c.tc : Thread nD τ).loc main_v7) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefStages.lean ====
/-
  The reference's run, read in stages.

  The reference is a straight line of 114 host operations. The line is cut where few values are still needed —
  and at every re-laying of an array, which is a stage of its own — and after each stage the values that later
  stages read are named by the per-operation stages `val_<buffer>` of the argument arrays:

    1.  the knot coordinate `t` (clamp, shift, divide by 4, times 15);
    2.  the left knot as a word, the offset `α` broadcast over the outputs, the index array, the spline values broadcast;
    3.  (a–e) the values at the left knot: a negative index wrapped, the arrays re-laid, the gather, the range mask, the select;
    4.  (a–e) the values at the right knot: the index plus one first, then the same;
    5.  the blend `(1 - α) · left + α · right`;
    6.  `silu x`, the two scaled terms, their sum over the inputs.

  Each stage is evaluated over an arbitrary valuation of the buffers, so nothing of an earlier stage is unfolded in a
  later one; a buffer a stage does not write keeps its contents. Chaining the stages from the launch contents gives
  the whole line's result at the result buffer, `val_main_v39` of the arguments, and with it the run.
-/
import proofs.«125629_j21638045237976_2_alg».proof.Proof.RefOps
import proofs.«125629_j21638045237976_2_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Two lines of operations one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The typed references' transports are the identity -/

theorem tb_main_cst (h1 : (main_cst : Ref sig .tc).ty = ⟨S_, .f32⟩) (h2 : (main_cst : Ref sig .tc).space ≠ .host) (h3 : (main_cst : Ref sig .tc).isScoped = false) (v : (⟨S_, .f32⟩ : BufTy).Contents (Elt F)) :
    (TRef.of (T := ⟨S_, .f32⟩) main_cst h1 h2 h3).toBuf v = v := rfl
theorem ob_main_cst (h1 : (main_cst : Ref sig .tc).ty = ⟨S_, .f32⟩) (h2 : (main_cst : Ref sig .tc).space ≠ .host) (h3 : (main_cst : Ref sig .tc).isScoped = false) (v : (main_cst : Ref sig .tc).ty.Contents (Elt F)) :
    (TRef.of (T := ⟨S_, .f32⟩) main_cst h1 h2 h3).ofBuf v = v := rfl
theorem tb_main_call0_v0 (h1 : (main_call0_v0 : Ref sig .tc).ty = ⟨S_, .f32⟩) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).toBuf v = v := rfl
theorem ob_main_call0_v0 (h1 : (main_call0_v0 : Ref sig .tc).ty = ⟨S_, .f32⟩) (h2 : (main_call0_v0 : Ref sig .tc).space ≠ .host) (h3 : (main_call0_v0 : Ref sig .tc).isScoped = false) (v : (main_call0_v0 : Ref sig .tc).ty.Contents (Elt F)) :
    (TRef.of (T := ⟨S_, .f32⟩) main_call0_v0 h1 h2 h3).ofBuf v = v := rfl
theorem tb_main_call0_v1 (h1 : (main_call0_v1 : Ref sig .tc).ty = ⟨S4096x256, .f32⟩) (h2 : (main_call0_v1 : Ref sig .tc).space ≠ .host) (h3 : (main_call0_v1 : Ref sig .tc).isScoped = false) (v : (⟨S4096x256, .f32⟩ : BufTy).Contents (Elt F)) :
    (TRef.of (T := ⟨S4096x256, .f32⟩) main_call0_v1 h1 h2 h3).toBuf v = v := rfl
theorem ob_main_call0_v1 (h1 : (main_call0_v1 : Ref sig .tc).ty = ⟨S4096x256, .f32⟩) (h2 : (main_call0_v1 : Ref sig .tc).space ≠ .host) (h3 : (main_call0_v1 : Ref sig .tc).isScoped = false) (v : (main_call0_v1 : Ref sig .tc).ty.Contents (Elt F)) :
    (TRef.of (T := ⟨S4096x256, .f32⟩) main_call0_v1 h1 h2 h3).ofBuf v = v := rfl
theorem tb_main_arg0 (h1 : (main_arg0 : Ref sig .tc).ty = ⟨S4096x256, .f32⟩) (h2 : (main_arg0 : Ref sig .tc).space ≠ .host) (h3 : (main_arg0 : Ref sig .tc).isScoped = false) (v : (⟨S4096x256, .f32⟩ : BufTy).Contents (Elt F)) :
    (TRef.of (T := ⟨S4096x256, .f32⟩) main_arg0 h1 h2 h3).toBuf v = v := rfl
theorem ob_main_arg0 (h1 : (main_arg0 : Ref sig .tc).ty = ⟨S4096x256, .f32⟩) (h2 : (main_arg0 : Ref sig .tc).space ≠ .host) (h3 : (main_arg0 : Ref sig .tc).isScoped = false) (v : (main_arg0 : Ref sig .tc).ty.Contents (Elt F)) :
    (TRef.of (T := ⟨S4096x256, .f32⟩) main_arg0 h1 h2 h3).ofBuf v = v := rfl
theorem tb_main_call0_v2 (h1 : (main_call0_v2 : Ref sig .tc).ty = ⟨S4096x256, .f32⟩) (h2 : (main_call0_v2 : Ref sig .tc).space ≠ .host) (h3 : (main_call0_v2 : Ref sig .tc).isScoped = false) (v : (⟨S4096x256, .f32⟩ : BufTy).Contents (Elt F)) :
    (TRef.of (T := ⟨S4096x256, .f32⟩) main_call0_v2 h1 h2 h3).toBuf v = v := rfl
theorem ob_main_call0_v2 (h1 : (main_call0_v2 : Ref sig .tc).ty = ⟨S4096x256, .f32⟩) (h2 : (main_call0_v2 : Ref sig .tc).space ≠ .host) (h3 : (main_call0_v2 : Ref sig .tc).isScoped = false) (v : (main_call0_v2 : Ref sig .tc).ty.Contents (Elt F)) :
    (TRef.of (T := ⟨S4096x256, .f32⟩) main_call0_v2 h1 h2 h3).ofBuf v = v := rfl
theorem tb_main_cst_0 (h1 : (main_cst_0 : Ref sig .tc).ty = ⟨S_, .f32⟩) (h2 : (main_cst_0 : Ref sig .tc).space ≠ .host) (h3 : (main_cst_0 : Ref sig .tc).isScoped = false) (v : (⟨S_, .f32⟩ : BufTy).Contents (Elt F)) :
    (TRef.of (T := ⟨S_, .f32⟩) main_cst_0 h1 h2 h3).toBuf v = v := rfl
theorem ob_main_cst_0 (h1 : (main_cst_0 : Ref sig .tc).ty = ⟨S_, .f32⟩) (h2 : (main_cst_0 : Ref sig .tc).space ≠ .host) (h3 : (main_cst_0 : Ref sig .tc).isScoped = false) (v : (main_cst_0 : Ref sig .tc).ty.Contents (Elt F)) :
    (TRef.of (T := ⟨S_, .f32⟩) main_cst_0 h1 h2 h3).ofBuf v = v := rfl
theorem tb_main_call0_v3 (h1 : (main_call0_v3 : Ref sig .tc).ty = ⟨S_, .f32⟩) (h2 : (main_call0_v3 : Ref sig .tc).space ≠ .host) (h3 : (main_call0_v3 : Ref sig .tc).isScoped = false) (v : (⟨S_, .f32⟩ : BufTy).Contents (Elt F)) :
    (TRef.of (T := ⟨S_, .f32⟩) main_call0_v3 h1 h2 h3).toBuf v = v := rfl
theorem ob_main_call0_v3 (h1 : (main_call0_v3 : Ref sig .tc).ty = ⟨S_, .f32⟩) (h2 : (main_call0_v3 : Ref sig .tc).space ≠ .host) (h3 : (main_call0_v3 : Ref sig .tc).isScoped = false) (v : (main_call0_v3 : Ref sig .tc).ty.Contents (Elt F)) :
    (TRef.of (T := ⟨S_, .f32⟩) main_call0_v3 h1 h2 h3).ofBuf v = v := rfl
theorem tb_main_call0_v4 (h1 : (main_call0_v4 : Ref sig .tc).ty = ⟨S4096x256, .f32⟩) (h2 : (main_call0_v4 : Ref sig .tc).space ≠ .host) (h3 : (main_call0_v4 : Ref sig .tc).isScoped = false) (v : (⟨S4096x256, .f32⟩ : BufTy).Contents (Elt F)) :
    (TRef.of (T := ⟨S4096x256, .f32⟩) main_call0_v4 h1 h2 h3).toBuf v = v := rfl
theorem ob_main_call0_v4 (h1 : (main_call0_v4 : Ref sig .tc).ty = ⟨S4096x256, .f32⟩) (h2 : (main_call0_v4 : Ref sig .tc).space ≠ .host) (h3 : (main_call0_v4 : Ref sig .tc).isScoped = false) (v : (main_call0_v4 : Ref sig .tc).ty.Contents (Elt F)) :
    (TRef.of (T := ⟨S4096x256, .f32⟩) main_call0_v4 h1 h2 h3).ofBuf v = v := rfl
theorem tb_main_v0 (h1 : (main_v0 : Ref sig .tc).ty = ⟨S4096x256, .f32⟩) (h2 : (main_v0 : Ref sig .tc).space ≠ .host) (h3 : (main_v0 : Ref sig .tc).isScoped = false) (v : (⟨S4096x256, .f32⟩ : BufTy).Contents (Elt F)) :
    (TRef.of (T := ⟨S4096x256, .f32⟩) main_v0 h1 h2 h3).toBuf v = v := rfl
theorem ob_main_v0 (h1 : (main_v0 : Ref sig .tc).ty = ⟨S4096x256, .f32⟩) (h2 : (main_v0 : Ref sig .tc).space ≠ .host) (h3 : (main_v0 : Ref sig .tc).isScoped = false) (v : (main_v0 : Ref sig .tc).ty.Contents (Elt F)) :
    (TRef.of (T := ⟨S4096x256, .f32⟩) main_v0 h1 h2 h3).ofBuf v = v := rfl
theorem tb_main_c (h1 : (main_c : Ref sig .tc).ty = ⟨S_, .i32⟩) (h2 : (main_c : Ref sig .tc).space ≠ .host) (h3 : (main_c : Ref sig .tc).isScoped = false) (v : (⟨S_, .i32⟩ : BufTy).Contents (Elt F)) :
    (TRef.of (T := ⟨S_, .i32⟩) main_c h1 h2 h3).toBuf v = v := rfl
theorem ob_main_c (h1 : (main_c : Ref sig .tc).ty = ⟨S_, .i32⟩) (h2 : (main_c : Ref sig .tc).space ≠ .host) (h3 : (main_c : Ref sig .tc).isScoped = false) (v : (main_c : Ref sig .tc).ty.Contents (Elt F)) :
    (TRef.of (T := ⟨S_, .i32⟩) main_c h1 h2 h3).ofBuf v = v := rfl
theorem tb_main_call1_v0 (h1 : (main_call1_v0 : Ref sig .tc).ty = ⟨S_, .i32⟩) (h2 : (main_call1_v0 : Ref sig .tc).space ≠ .host) (h3 : (main_call1_v0 : Ref sig .tc).isScoped = false) (v : (⟨S_, .i32⟩ : BufTy).Contents (Elt F)) :
    (TRef.of (T := ⟨S_, .i32⟩) main_call1_v0 h1 h2 h3).toBuf v = v := rfl
theorem ob_main_call1_v0 (h1 : (main_call1_v0 : Ref sig .tc).ty = ⟨S_, .i32⟩) (h2 : (main_call1_v0 : Ref sig .tc).space ≠ .host) (h3 : (main_call1_v0 : Ref sig .tc).isScoped = false) (v : (main_call1_v0 : Ref sig .tc).ty.Contents (Elt F)) :
    (TRef.of (T := ⟨S_, .i32⟩) main_call1_v0 h1 h2 h3).ofBuf v = v := rfl
theorem tb_main_call1_v1 (h1 : (main_call1_v1 : Ref sig .tc).ty = ⟨S4096x256, .i32⟩) (h2 : (main_call1_v1 : Ref sig .tc).space ≠ .host) (h3 : (main_call1_v1 : Ref sig .tc).isScoped = false) (v : (⟨S4096x256, .i32⟩ : BufTy).Contents (Elt F)) :
    (TRef.of (T := ⟨S4096x256, .i32⟩) main_call1_v1 h1 h2 h3).toBuf v = v := rfl
theorem ob_main_call1_v1 (h1 : (main_call1_v1 : Ref sig .tc).ty = ⟨S4096x256, .i32⟩) (h2 : (main_call1_v1 : Ref sig .tc).space ≠ .host) (h3 : (main_call1_v1 : Ref sig .tc).isScoped = false) (v : (main_call1_v1 : Ref sig .tc).ty.Contents (Elt F)) :
    (TRef.of (T := ⟨S4096x256, .i32⟩) main_call1_v1 h1 h2 h3).ofBuf v = v := rfl
theorem tb_main_v8 (h1 : (main_v8 : Ref sig .tc).ty = ⟨S4096x256, .i32⟩) (h2 : (main_v8 : Ref sig .tc).space ≠ .host) (h3 : (main_v8 : Ref sig .tc).isScoped = false) (v : (⟨S4096x256, .i32⟩ : BufTy).Contents (Elt F)) :
    (TRef.of (T := ⟨S4096x256, .i32⟩) main_v8 h1 h2 h3).toBuf v = v := rfl
theorem ob_main_v8 (h1 : (main_v8 : Ref sig .tc).ty = ⟨S4096x256, .i32⟩) (h2 : (main_v8 : Ref sig .tc).space ≠ .host) (h3 : (main_v8 : Ref sig .tc).isScoped = false) (v : (main_v8 : Ref sig .tc).ty.Contents (Elt F)) :
    (TRef.of (T := ⟨S4096x256, .i32⟩) main_v8 h1 h2 h3).ofBuf v = v := rfl
theorem tb_main_call1_v2 (h1 : (main_call1_v2 : Ref sig .tc).ty = ⟨S4096x256, .i32⟩) (h2 : (main_call1_v2 : Ref sig .tc).space ≠ .host) (h3 : (main_call1_v2 : Ref sig .tc).isScoped = false) (v : (⟨S4096x256, .i32⟩ : BufTy).Contents (Elt F)) :
    (TRef.of (T := ⟨S4096x256, .i32⟩) main_call1_v2 h1 h2 h3).toBuf v = v := rfl
theorem ob_main_call1_v2 (h1 : (main_call1_v2 : Ref sig .tc).ty = ⟨S4096x256, .i32⟩) (h2 : (main_call1_v2 : Ref sig .tc).space ≠ .host) (h3 : (main_call1_v2 : Ref sig .tc).isScoped = false) (v : (main_call1_v2 : Ref sig .tc).ty.Contents (Elt F)) :
    (TRef.of (T := ⟨S4096x256, .i32⟩) main_call1_v2 h1 h2 h3).ofBuf v = v := rfl
theorem tb_main_c_4 (h1 : (main_c_4 : Ref sig .tc).ty = ⟨S_, .i32⟩) (h2 : (main_c_4 : Ref sig .tc).space ≠ .host) (h3 : (main_c_4 : Ref sig .tc).isScoped = false) (v : (⟨S_, .i32⟩ : BufTy).Contents (Elt F)) :
    (TRef.of (T := ⟨S_, .i32⟩) main_c_4 h1 h2 h3).toBuf v = v := rfl
theorem ob_main_c_4 (h1 : (main_c_4 : Ref sig .tc).ty = ⟨S_, .i32⟩) (h2 : (main_c_4 : Ref sig .tc).space ≠ .host) (h3 : (main_c_4 : Ref sig .tc).isScoped = false) (v : (main_c_4 : Ref sig .tc).ty.Contents (Elt F)) :
    (TRef.of (T := ⟨S_, .i32⟩) main_c_4 h1 h2 h3).ofBuf v = v := rfl
theorem tb_main_call1_v3 (h1 : (main_call1_v3 : Ref sig .tc).ty = ⟨S_, .i32⟩) (h2 : (main_call1_v3 : Ref sig .tc).space ≠ .host) (h3 : (main_call1_v3 : Ref sig .tc).isScoped = false) (v : (⟨S_, .i32⟩ : BufTy).Contents (Elt F)) :
    (TRef.of (T := ⟨S_, .i32⟩) main_call1_v3 h1 h2 h3).toBuf v = v := rfl
theorem ob_main_call1_v3 (h1 : (main_call1_v3 : Ref sig .tc).ty = ⟨S_, .i32⟩) (h2 : (main_call1_v3 : Ref sig .tc).space ≠ .host) (h3 : (main_call1_v3 : Ref sig .tc).isScoped = false) (v : (main_call1_v3 : Ref sig .tc).ty.Contents (Elt F)) :
    (TRef.of (T := ⟨S_, .i32⟩) main_call1_v3 h1 h2 h3).ofBuf v = v := rfl
theorem tb_main_call1_v4 (h1 : (main_call1_v4 : Ref sig .tc).ty = ⟨S4096x256, .i32⟩) (h2 : (main_call1_v4 : Ref sig .tc).space ≠ .host) (h3 : (main_call1_v4 : Ref sig .tc).isScoped = false) (v : (⟨S4096x256, .i32⟩ : BufTy).Contents (Elt F)) :
    (TRef.of (T := ⟨S4096x256, .i32⟩) main_call1_v4 h1 h2 h3).toBuf v = v := rfl
theorem ob_main_call1_v4 (h1 : (main_call1_v4 : Ref sig .tc).ty = ⟨S4096x256, .i32⟩) (h2 : (main_call1_v4 : Ref sig .tc).space ≠ .host) (h3 : (main_call1_v4 : Ref sig .tc).isScoped = false) (v : (main_call1_v4 : Ref sig .tc).ty.Contents (Elt F)) :
    (TRef.of (T := ⟨S4096x256, .i32⟩) main_call1_v4 h1 h2 h3).ofBuf v = v := rfl
theorem tb_main_v9 (h1 : (main_v9 : Ref sig .tc).ty = ⟨S4096x256, .i32⟩) (h2 : (main_v9 : Ref sig .tc).space ≠ .host) (h3 : (main_v9 : Ref sig .tc).isScoped = false) (v : (⟨S4096x256, .i32⟩ : BufTy).Contents (Elt F)) :
    (TRef.of (T := ⟨S4096x256, .i32⟩) main_v9 h1 h2 h3).toBuf v = v := rfl
theorem ob_main_v9 (h1 : (main_v9 : Ref sig .tc).ty = ⟨S4096x256, .i32⟩) (h2 : (main_v9 : Ref sig .tc).space ≠ .host) (h3 : (main_v9 : Ref sig .tc).isScoped = false) (v : (main_v9 : Ref sig .tc).ty.Contents (Elt F)) :
    (TRef.of (T := ⟨S4096x256, .i32⟩) main_v9 h1 h2 h3).ofBuf v = v := rfl
theorem tb_main_call2_c (h1 : (main_call2_c : Ref sig .tc).ty = ⟨S_, .i32⟩) (h2 : (main_call2_c : Ref sig .tc).space ≠ .host) (h3 : (main_call2_c : Ref sig .tc).isScoped = false) (v : (⟨S_, .i32⟩ : BufTy).Contents (Elt F)) :
    (TRef.of (T := ⟨S_, .i32⟩) main_call2_c h1 h2 h3).toBuf v = v := rfl
theorem ob_main_call2_c (h1 : (main_call2_c : Ref sig .tc).ty = ⟨S_, .i32⟩) (h2 : (main_call2_c : Ref sig .tc).space ≠ .host) (h3 : (main_call2_c : Ref sig .tc).isScoped = false) (v : (main_call2_c : Ref sig .tc).ty.Contents (Elt F)) :
    (TRef.of (T := ⟨S_, .i32⟩) main_call2_c h1 h2 h3).ofBuf v = v := rfl
theorem tb_main_call2_v0 (h1 : (main_call2_v0 : Ref sig .tc).ty = ⟨S4096x1x256x1, .i32⟩) (h2 : (main_call2_v0 : Ref sig .tc).space ≠ .host) (h3 : (main_call2_v0 : Ref sig .tc).isScoped = false) (v : (⟨S4096x1x256x1, .i32⟩ : BufTy).Contents (Elt F)) :
    (TRef.of (T := ⟨S4096x1x256x1, .i32⟩) main_call2_v0 h1 h2 h3).toBuf v = v := rfl
theorem ob_main_call2_v0 (h1 : (main_call2_v0 : Ref sig .tc).ty = ⟨S4096x1x256x1, .i32⟩) (h2 : (main_call2_v0 : Ref sig .tc).space ≠ .host) (h3 : (main_call2_v0 : Ref sig .tc).isScoped = false) (v : (main_call2_v0 : Ref sig .tc).ty.Contents (Elt F)) :
    (TRef.of (T := ⟨S4096x1x256x1, .i32⟩) main_call2_v0 h1 h2 h3).ofBuf v = v := rfl
theorem tb_main_v13 (h1 : (main_v13 : Ref sig .tc).ty = ⟨S4096x1x256x1, .i32⟩) (h2 : (main_v13 : Ref sig .tc).space ≠ .host) (h3 : (main_v13 : Ref sig .tc).isScoped = false) (v : (⟨S4096x1x256x1, .i32⟩ : BufTy).Contents (Elt F)) :
    (TRef.of (T := ⟨S4096x1x256x1, .i32⟩) main_v13 h1 h2 h3).toBuf v = v := rfl
theorem ob_main_v13 (h1 : (main_v13 : Ref sig .tc).ty = ⟨S4096x1x256x1, .i32⟩) (h2 : (main_v13 : Ref sig .tc).space ≠ .host) (h3 : (main_v13 : Ref sig .tc).isScoped = false) (v : (main_v13 : Ref sig .tc).ty.Contents (Elt F)) :
    (TRef.of (T := ⟨S4096x1x256x1, .i32⟩) main_v13 h1 h2 h3).ofBuf v = v := rfl
theorem tb_main_call2_v1 (h1 : (main_call2_v1 : Ref sig .tc).ty = ⟨S4096x1x256x1, .i1⟩) (h2 : (main_call2_v1 : Ref sig .tc).space ≠ .host) (h3 : (main_call2_v1 : Ref sig .tc).isScoped = false) (v : (⟨S4096x1x256x1, .i1⟩ : BufTy).Contents (Elt F)) :
    (TRef.of (T := ⟨S4096x1x256x1, .i1⟩) main_call2_v1 h1 h2 h3).toBuf v = v := rfl
theorem ob_main_call2_v1 (h1 : (main_call2_v1 : Ref sig .tc).ty = ⟨S4096x1x256x1, .i1⟩) (h2 : (main_call2_v1 : Ref sig .tc).space ≠ .host) (h3 : (main_call2_v1 : Ref sig .tc).isScoped = false) (v : (main_call2_v1 : Ref sig .tc).ty.Contents (Elt F)) :
    (TRef.of (T := ⟨S4096x1x256x1, .i1⟩) main_call2_v1 h1 h2 h3).ofBuf v = v := rfl
theorem tb_main_call2_c_0 (h1 : (main_call2_c_0 : Ref sig .tc).ty = ⟨S_, .i32⟩) (h2 : (main_call2_c_0 : Ref sig .tc).space ≠ .host) (h3 : (main_call2_c_0 : Ref sig .tc).isScoped = false) (v : (⟨S_, .i32⟩ : BufTy).Contents (Elt F)) :
    (TRef.of (T := ⟨S_, .i32⟩) main_call2_c_0 h1 h2 h3).toBuf v = v := rfl
theorem ob_main_call2_c_0 (h1 : (main_call2_c_0 : Ref sig .tc).ty = ⟨S_, .i32⟩) (h2 : (main_call2_c_0 : Ref sig .tc).space ≠ .host) (h3 : (main_call2_c_0 : Ref sig .tc).isScoped = false) (v : (main_call2_c_0 : Ref sig .tc).ty.Contents (Elt F)) :
    (TRef.of (T := ⟨S_, .i32⟩) main_call2_c_0 h1 h2 h3).ofBuf v = v := rfl
theorem tb_main_call2_v2 (h1 : (main_call2_v2 : Ref sig .tc).ty = ⟨S4096x1x256x1, .i32⟩) (h2 : (main_call2_v2 : Ref sig .tc).space ≠ .host) (h3 : (main_call2_v2 : Ref sig .tc).isScoped = false) (v : (⟨S4096x1x256x1, .i32⟩ : BufTy).Contents (Elt F)) :
    (TRef.of (T := ⟨S4096x1x256x1, .i32⟩) main_call2_v2 h1 h2 h3).toBuf v = v := rfl
theorem ob_main_call2_v2 (h1 : (main_call2_v2 : Ref sig .tc).ty = ⟨S4096x1x256x1, .i32⟩) (h2 : (main_call2_v2 : Ref sig .tc).space ≠ .host) (h3 : (main_call2_v2 : Ref sig .tc).isScoped = false) (v : (main_call2_v2 : Ref sig .tc).ty.Contents (Elt F)) :
    (TRef.of (T := ⟨S4096x1x256x1, .i32⟩) main_call2_v2 h1 h2 h3).ofBuf v = v := rfl
theorem tb_main_call2_v3 (h1 : (main_call2_v3 : Ref sig .tc).ty = ⟨S4096x1x256x1, .i32⟩) (h2 : (main_call2_v3 : Ref sig .tc).space ≠ .host) (h3 : (main_call2_v3 : Ref sig .tc).isScoped = false) (v : (⟨S4096x1x256x1, .i32⟩ : BufTy).Contents (Elt F)) :
    (TRef.of (T := ⟨S4096x1x256x1, .i32⟩) main_call2_v3 h1 h2 h3).toBuf v = v := rfl
theorem ob_main_call2_v3 (h1 : (main_call2_v3 : Ref sig .tc).ty = ⟨S4096x1x256x1, .i32⟩) (h2 : (main_call2_v3 : Ref sig .tc).space ≠ .host) (h3 : (main_call2_v3 : Ref sig .tc).isScoped = false) (v : (main_call2_v3 : Ref sig .tc).ty.Contents (Elt F)) :
    (TRef.of (T := ⟨S4096x1x256x1, .i32⟩) main_call2_v3 h1 h2 h3).ofBuf v = v := rfl
theorem tb_main_call2_v4 (h1 : (main_call2_v4 : Ref sig .tc).ty = ⟨S4096x1x256x1, .i32⟩) (h2 : (main_call2_v4 : Ref sig .tc).space ≠ .host) (h3 : (main_call2_v4 : Ref sig .tc).isScoped = false) (v : (⟨S4096x1x256x1, .i32⟩ : BufTy).Contents (Elt F)) :
    (TRef.of (T := ⟨S4096x1x256x1, .i32⟩) main_call2_v4 h1 h2 h3).toBuf v = v := rfl
theorem ob_main_call2_v4 (h1 : (main_call2_v4 : Ref sig .tc).ty = ⟨S4096x1x256x1, .i32⟩) (h2 : (main_call2_v4 : Ref sig .tc).space ≠ .host) (h3 : (main_call2_v4 : Ref sig .tc).isScoped = false) (v : (main_call2_v4 : Ref sig .tc).ty.Contents (Elt F)) :
    (TRef.of (T := ⟨S4096x1x256x1, .i32⟩) main_call2_v4 h1 h2 h3).ofBuf v = v := rfl
theorem tb_main_call2_v5 (h1 : (main_call2_v5 : Ref sig .tc).ty = ⟨S4096x256x1x1, .i32⟩) (h2 : (main_call2_v5 : Ref sig .tc).space ≠ .host) (h3 : (main_call2_v5 : Ref sig .tc).isScoped = false) (v : (⟨S4096x256x1x1, .i32⟩ : BufTy).Contents (Elt F)) :
    (TRef.of (T := ⟨S4096x256x1x1, .i32⟩) main_call2_v5 h1 h2 h3).toBuf v = v := rfl
theorem ob_main_call2_v5 (h1 : (main_call2_v5 : Ref sig .tc).ty = ⟨S4096x256x1x1, .i32⟩) (h2 : (main_call2_v5 : Ref sig .tc).space ≠ .host) (h3 : (main_call2_v5 : Ref sig .tc).isScoped = false) (v : (main_call2_v5 : Ref sig .tc).ty.Contents (Elt F)) :
    (TRef.of (T := ⟨S4096x256x1x1, .i32⟩) main_call2_v5 h1 h2 h3).ofBuf v = v := rfl
theorem tb_main_v14 (h1 : (main_v14 : Ref sig .tc).ty = ⟨S1x128x256x16, .f32⟩) (h2 : (main_v14 : Ref sig .tc).space ≠ .host) (h3 : (main_v14 : Ref sig .tc).isScoped = false) (v : (⟨S1x128x256x16, .f32⟩ : BufTy).Contents (Elt F)) :
    (TRef.of (T := ⟨S1x128x256x16, .f32⟩) main_v14 h1 h2 h3).toBuf v = v := rfl
theorem ob_main_v14 (h1 : (main_v14 : Ref sig .tc).ty = ⟨S1x128x256x16, .f32⟩) (h2 : (main_v14 : Ref sig .tc).space ≠ .host) (h3 : (main_v14 : Ref sig .tc).isScoped = false) (v : (main_v14 : Ref sig .tc).ty.Contents (Elt F)) :
    (TRef.of (T := ⟨S1x128x256x16, .f32⟩) main_v14 h1 h2 h3).ofBuf v = v := rfl
theorem tb_main_call2_v6 (h1 : (main_call2_v6 : Ref sig .tc).ty = ⟨S128x256x16, .f32⟩) (h2 : (main_call2_v6 : Ref sig .tc).space ≠ .host) (h3 : (main_call2_v6 : Ref sig .tc).isScoped = false) (v : (⟨S128x256x16, .f32⟩ : BufTy).Contents (Elt F)) :
    (TRef.of (T := ⟨S128x256x16, .f32⟩) main_call2_v6 h1 h2 h3).toBuf v = v := rfl
theorem ob_main_call2_v6 (h1 : (main_call2_v6 : Ref sig .tc).ty = ⟨S128x256x16, .f32⟩) (h2 : (main_call2_v6 : Ref sig .tc).space ≠ .host) (h3 : (main_call2_v6 : Ref sig .tc).isScoped = false) (v : (main_call2_v6 : Ref sig .tc).ty.Contents (Elt F)) :
    (TRef.of (T := ⟨S128x256x16, .f32⟩) main_call2_v6 h1 h2 h3).ofBuf v = v := rfl
theorem tb_main_call2_c_1 (h1 : (main_call2_c_1 : Ref sig .tc).ty = ⟨S1, .i32⟩) (h2 : (main_call2_c_1 : Ref sig .tc).space ≠ .host) (h3 : (main_call2_c_1 : Ref sig .tc).isScoped = false) (v : (⟨S1, .i32⟩ : BufTy).Contents (Elt F)) :
    (TRef.of (T := ⟨S1, .i32⟩) main_call2_c_1 h1 h2 h3).toBuf v = v := rfl
theorem ob_main_call2_c_1 (h1 : (main_call2_c_1 : Ref sig .tc).ty = ⟨S1, .i32⟩) (h2 : (main_call2_c_1 : Ref sig .tc).space ≠ .host) (h3 : (main_call2_c_1 : Ref sig .tc).isScoped = false) (v : (main_call2_c_1 : Ref sig .tc).ty.Contents (Elt F)) :
    (TRef.of (T := ⟨S1, .i32⟩) main_call2_c_1 h1 h2 h3).ofBuf v = v := rfl
theorem tb_main_call2_c_2 (h1 : (main_call2_c_2 : Ref sig .tc).ty = ⟨S_, .i32⟩) (h2 : (main_call2_c_2 : Ref sig .tc).space ≠ .host) (h3 : (main_call2_c_2 : Ref sig .tc).isScoped = false) (v : (⟨S_, .i32⟩ : BufTy).Contents (Elt F)) :
    (TRef.of (T := ⟨S_, .i32⟩) main_call2_c_2 h1 h2 h3).toBuf v = v := rfl
theorem ob_main_call2_c_2 (h1 : (main_call2_c_2 : Ref sig .tc).ty = ⟨S_, .i32⟩) (h2 : (main_call2_c_2 : Ref sig .tc).space ≠ .host) (h3 : (main_call2_c_2 : Ref sig .tc).isScoped = false) (v : (main_call2_c_2 : Ref sig .tc).ty.Contents (Elt F)) :
    (TRef.of (T := ⟨S_, .i32⟩) main_call2_c_2 h1 h2 h3).ofBuf v = v := rfl
theorem tb_main_call2_v7 (h1 : (main_call2_v7 : Ref sig .tc).ty = ⟨S4096x256x1x1, .i32⟩) (h2 : (main_call2_v7 : Ref sig .tc).space ≠ .host) (h3 : (main_call2_v7 : Ref sig .tc).isScoped = false) (v : (⟨S4096x256x1x1, .i32⟩ : BufTy).Contents (Elt F)) :
    (TRef.of (T := ⟨S4096x256x1x1, .i32⟩) main_call2_v7 h1 h2 h3).toBuf v = v := rfl
theorem ob_main_call2_v7 (h1 : (main_call2_v7 : Ref sig .tc).ty = ⟨S4096x256x1x1, .i32⟩) (h2 : (main_call2_v7 : Ref sig .tc).space ≠ .host) (h3 : (main_call2_v7 : Ref sig .tc).isScoped = false) (v : (main_call2_v7 : Ref sig .tc).ty.Contents (Elt F)) :
    (TRef.of (T := ⟨S4096x256x1x1, .i32⟩) main_call2_v7 h1 h2 h3).ofBuf v = v := rfl
theorem tb_main_call2_v8 (h1 : (main_call2_v8 : Ref sig .tc).ty = ⟨S4096x256x1x1, .i1⟩) (h2 : (main_call2_v8 : Ref sig .tc).space ≠ .host) (h3 : (main_call2_v8 : Ref sig .tc).isScoped = false) (v : (⟨S4096x256x1x1, .i1⟩ : BufTy).Contents (Elt F)) :
    (TRef.of (T := ⟨S4096x256x1x1, .i1⟩) main_call2_v8 h1 h2 h3).toBuf v = v := rfl
theorem ob_main_call2_v8 (h1 : (main_call2_v8 : Ref sig .tc).ty = ⟨S4096x256x1x1, .i1⟩) (h2 : (main_call2_v8 : Ref sig .tc).space ≠ .host) (h3 : (main_call2_v8 : Ref sig .tc).isScoped = false) (v : (main_call2_v8 : Ref sig .tc).ty.Contents (Elt F)) :
    (TRef.of (T := ⟨S4096x256x1x1, .i1⟩) main_call2_v8 h1 h2 h3).ofBuf v = v := rfl
theorem tb_main_call2_v9 (h1 : (main_call2_v9 : Ref sig .tc).ty = ⟨S1x1x1x1, .i32⟩) (h2 : (main_call2_v9 : Ref sig .tc).space ≠ .host) (h3 : (main_call2_v9 : Ref sig .tc).isScoped = false) (v : (⟨S1x1x1x1, .i32⟩ : BufTy).Contents (Elt F)) :
    (TRef.of (T := ⟨S1x1x1x1, .i32⟩) main_call2_v9 h1 h2 h3).toBuf v = v := rfl
theorem ob_main_call2_v9 (h1 : (main_call2_v9 : Ref sig .tc).ty = ⟨S1x1x1x1, .i32⟩) (h2 : (main_call2_v9 : Ref sig .tc).space ≠ .host) (h3 : (main_call2_v9 : Ref sig .tc).isScoped = false) (v : (main_call2_v9 : Ref sig .tc).ty.Contents (Elt F)) :
    (TRef.of (T := ⟨S1x1x1x1, .i32⟩) main_call2_v9 h1 h2 h3).ofBuf v = v := rfl
theorem tb_main_call2_v10 (h1 : (main_call2_v10 : Ref sig .tc).ty = ⟨S4096x256x1x1, .i32⟩) (h2 : (main_call2_v10 : Ref sig .tc).space ≠ .host) (h3 : (main_call2_v10 : Ref sig .tc).isScoped = false) (v : (⟨S4096x256x1x1, .i32⟩ : BufTy).Contents (Elt F)) :
    (TRef.of (T := ⟨S4096x256x1x1, .i32⟩) main_call2_v10 h1 h2 h3).toBuf v = v := rfl
theorem ob_main_call2_v10 (h1 : (main_call2_v10 : Ref sig .tc).ty = ⟨S4096x256x1x1, .i32⟩) (h2 : (main_call2_v10 : Ref sig .tc).space ≠ .host) (h3 : (main_call2_v10 : Ref sig .tc).isScoped = false) (v : (main_call2_v10 : Ref sig .tc).ty.Contents (Elt F)) :
    (TRef.of (T := ⟨S4096x256x1x1, .i32⟩) main_call2_v10 h1 h2 h3).ofBuf v = v := rfl
theorem tb_main_call2_v11 (h1 : (main_call2_v11 : Ref sig .tc).ty = ⟨S4096x256x1x1, .i1⟩) (h2 : (main_call2_v11 : Ref sig .tc).space ≠ .host) (h3 : (main_call2_v11 : Ref sig .tc).isScoped = false) (v : (⟨S4096x256x1x1, .i1⟩ : BufTy).Contents (Elt F)) :
    (TRef.of (T := ⟨S4096x256x1x1, .i1⟩) main_call2_v11 h1 h2 h3).toBuf v = v := rfl
theorem ob_main_call2_v11 (h1 : (main_call2_v11 : Ref sig .tc).ty = ⟨S4096x256x1x1, .i1⟩) (h2 : (main_call2_v11 : Ref sig .tc).space ≠ .host) (h3 : (main_call2_v11 : Ref sig .tc).isScoped = false) (v : (main_call2_v11 : Ref sig .tc).ty.Contents (Elt F)) :
    (TRef.of (T := ⟨S4096x256x1x1, .i1⟩) main_call2_v11 h1 h2 h3).ofBuf v = v := rfl
theorem tb_main_call2_v12 (h1 : (main_call2_v12 : Ref sig .tc).ty = ⟨S4096x256x1x1, .i1⟩) (h2 : (main_call2_v12 : Ref sig .tc).space ≠ .host) (h3 : (main_call2_v12 : Ref sig .tc).isScoped = false) (v : (⟨S4096x256x1x1, .i1⟩ : BufTy).Contents (Elt F)) :
    (TRef.of (T := ⟨S4096x256x1x1, .i1⟩) main_call2_v12 h1 h2 h3).toBuf v = v := rfl
theorem ob_main_call2_v12 (h1 : (main_call2_v12 : Ref sig .tc).ty = ⟨S4096x256x1x1, .i1⟩) (h2 : (main_call2_v12 : Ref sig .tc).space ≠ .host) (h3 : (main_call2_v12 : Ref sig .tc).isScoped = false) (v : (main_call2_v12 : Ref sig .tc).ty.Contents (Elt F)) :
    (TRef.of (T := ⟨S4096x256x1x1, .i1⟩) main_call2_v12 h1 h2 h3).ofBuf v = v := rfl
theorem tb_main_call2_c_3 (h1 : (main_call2_c_3 : Ref sig .tc).ty = ⟨S_, .i1⟩) (h2 : (main_call2_c_3 : Ref sig .tc).space ≠ .host) (h3 : (main_call2_c_3 : Ref sig .tc).isScoped = false) (v : (⟨S_, .i1⟩ : BufTy).Contents (Elt F)) :
    (TRef.of (T := ⟨S_, .i1⟩) main_call2_c_3 h1 h2 h3).toBuf v = v := rfl
theorem ob_main_call2_c_3 (h1 : (main_call2_c_3 : Ref sig .tc).ty = ⟨S_, .i1⟩) (h2 : (main_call2_c_3 : Ref sig .tc).space ≠ .host) (h3 : (main_call2_c_3 : Ref sig .tc).isScoped = false) (v : (main_call2_c_3 : Ref sig .tc).ty.Contents (Elt F)) :
    (TRef.of (T := ⟨S_, .i1⟩) main_call2_c_3 h1 h2 h3).ofBuf v = v := rfl
theorem tb_main_call2_v13 (h1 : (main_call2_v13 : Ref sig .tc).ty = ⟨S4096x256x1, .i1⟩) (h2 : (main_call2_v13 : Ref sig .tc).space ≠ .host) (h3 : (main_call2_v13 : Ref sig .tc).isScoped = false) (v : (⟨S4096x256x1, .i1⟩ : BufTy).Contents (Elt F)) :
    (TRef.of (T := ⟨S4096x256x1, .i1⟩) main_call2_v13 h1 h2 h3).toBuf v = v := rfl
theorem ob_main_call2_v13 (h1 : (main_call2_v13 : Ref sig .tc).ty = ⟨S4096x256x1, .i1⟩) (h2 : (main_call2_v13 : Ref sig .tc).space ≠ .host) (h3 : (main_call2_v13 : Ref sig .tc).isScoped = false) (v : (main_call2_v13 : Ref sig .tc).ty.Contents (Elt F)) :
    (TRef.of (T := ⟨S4096x256x1, .i1⟩) main_call2_v13 h1 h2 h3).ofBuf v = v := rfl
theorem tb_main_call2_v14 (h1 : (main_call2_v14 : Ref sig .tc).ty = ⟨S4096x128x256x1, .f32⟩) (h2 : (main_call2_v14 : Ref sig .tc).space ≠ .host) (h3 : (main_call2_v14 : Ref sig .tc).isScoped = false) (v : (⟨S4096x128x256x1, .f32⟩ : BufTy).Contents (Elt F)) :
    (TRef.of (T := ⟨S4096x128x256x1, .f32⟩) main_call2_v14 h1 h2 h3).toBuf v = v := rfl
theorem ob_main_call2_v14 (h1 : (main_call2_v14 : Ref sig .tc).ty = ⟨S4096x128x256x1, .f32⟩) (h2 : (main_call2_v14 : Ref sig .tc).space ≠ .host) (h3 : (main_call2_v14 : Ref sig .tc).isScoped = false) (v : (main_call2_v14 : Ref sig .tc).ty.Contents (Elt F)) :
    (TRef.of (T := ⟨S4096x128x256x1, .f32⟩) main_call2_v14 h1 h2 h3).ofBuf v = v := rfl
theorem tb_main_call2_v15 (h1 : (main_call2_v15 : Ref sig .tc).ty = ⟨S4096x128x256x1, .i1⟩) (h2 : (main_call2_v15 : Ref sig .tc).space ≠ .host) (h3 : (main_call2_v15 : Ref sig .tc).isScoped = false) (v : (⟨S4096x128x256x1, .i1⟩ : BufTy).Contents (Elt F)) :
    (TRef.of (T := ⟨S4096x128x256x1, .i1⟩) main_call2_v15 h1 h2 h3).toBuf v = v := rfl
theorem ob_main_call2_v15 (h1 : (main_call2_v15 : Ref sig .tc).ty = ⟨S4096x128x256x1, .i1⟩) (h2 : (main_call2_v15 : Ref sig .tc).space ≠ .host) (h3 : (main_call2_v15 : Ref sig .tc).isScoped = false) (v : (main_call2_v15 : Ref sig .tc).ty.Contents (Elt F)) :
    (TRef.of (T := ⟨S4096x128x256x1, .i1⟩) main_call2_v15 h1 h2 h3).ofBuf v = v := rfl
theorem tb_main_call2_cst (h1 : (main_call2_cst : Ref sig .tc).ty = ⟨S_, .f32⟩) (h2 : (main_call2_cst : Ref sig .tc).space ≠ .host) (h3 : (main_call2_cst : Ref sig .tc).isScoped = false) (v : (⟨S_, .f32⟩ : BufTy).Contents (Elt F)) :
    (TRef.of (T := ⟨S_, .f32⟩) main_call2_cst h1 h2 h3).toBuf v = v := rfl
theorem ob_main_call2_cst (h1 : (main_call2_cst : Ref sig .tc).ty = ⟨S_, .f32⟩) (h2 : (main_call2_cst : Ref sig .tc).space ≠ .host) (h3 : (main_call2_cst : Ref sig .tc).isScoped = false) (v : (main_call2_cst : Ref sig .tc).ty.Contents (Elt F)) :
    (TRef.of (T := ⟨S_, .f32⟩) main_call2_cst h1 h2 h3).ofBuf v = v := rfl
theorem tb_main_call2_v16 (h1 : (main_call2_v16 : Ref sig .tc).ty = ⟨S4096x128x256x1, .f32⟩) (h2 : (main_call2_v16 : Ref sig .tc).space ≠ .host) (h3 : (main_call2_v16 : Ref sig .tc).isScoped = false) (v : (⟨S4096x128x256x1, .f32⟩ : BufTy).Contents (Elt F)) :
    (TRef.of (T := ⟨S4096x128x256x1, .f32⟩) main_call2_v16 h1 h2 h3).toBuf v = v := rfl
theorem ob_main_call2_v16 (h1 : (main_call2_v16 : Ref sig .tc).ty = ⟨S4096x128x256x1, .f32⟩) (h2 : (main_call2_v16 : Ref sig .tc).space ≠ .host) (h3 : (main_call2_v16 : Ref sig .tc).isScoped = false) (v : (main_call2_v16 : Ref sig .tc).ty.Contents (Elt F)) :
    (TRef.of (T := ⟨S4096x128x256x1, .f32⟩) main_call2_v16 h1 h2 h3).ofBuf v = v := rfl
theorem tb_main_v15 (h1 : (main_v15 : Ref sig .tc).ty = ⟨S4096x128x256x1, .f32⟩) (h2 : (main_v15 : Ref sig .tc).space ≠ .host) (h3 : (main_v15 : Ref sig .tc).isScoped = false) (v : (⟨S4096x128x256x1, .f32⟩ : BufTy).Contents (Elt F)) :
    (TRef.of (T := ⟨S4096x128x256x1, .f32⟩) main_v15 h1 h2 h3).toBuf v = v := rfl
theorem ob_main_v15 (h1 : (main_v15 : Ref sig .tc).ty = ⟨S4096x128x256x1, .f32⟩) (h2 : (main_v15 : Ref sig .tc).space ≠ .host) (h3 : (main_v15 : Ref sig .tc).isScoped = false) (v : (main_v15 : Ref sig .tc).ty.Contents (Elt F)) :
    (TRef.of (T := ⟨S4096x128x256x1, .f32⟩) main_v15 h1 h2 h3).ofBuf v = v := rfl
theorem tb_main_call3_c (h1 : (main_call3_c : Ref sig .tc).ty = ⟨S_, .i32⟩) (h2 : (main_call3_c : Ref sig .tc).space ≠ .host) (h3 : (main_call3_c : Ref sig .tc).isScoped = false) (v : (⟨S_, .i32⟩ : BufTy).Contents (Elt F)) :
    (TRef.of (T := ⟨S_, .i32⟩) main_call3_c h1 h2 h3).toBuf v = v := rfl
theorem ob_main_call3_c (h1 : (main_call3_c : Ref sig .tc).ty = ⟨S_, .i32⟩) (h2 : (main_call3_c : Ref sig .tc).space ≠ .host) (h3 : (main_call3_c : Ref sig .tc).isScoped = false) (v : (main_call3_c : Ref sig .tc).ty.Contents (Elt F)) :
    (TRef.of (T := ⟨S_, .i32⟩) main_call3_c h1 h2 h3).ofBuf v = v := rfl
theorem tb_main_call3_v0 (h1 : (main_call3_v0 : Ref sig .tc).ty = ⟨S4096x1x256x1, .i32⟩) (h2 : (main_call3_v0 : Ref sig .tc).space ≠ .host) (h3 : (main_call3_v0 : Ref sig .tc).isScoped = false) (v : (⟨S4096x1x256x1, .i32⟩ : BufTy).Contents (Elt F)) :
    (TRef.of (T := ⟨S4096x1x256x1, .i32⟩) main_call3_v0 h1 h2 h3).toBuf v = v := rfl
theorem ob_main_call3_v0 (h1 : (main_call3_v0 : Ref sig .tc).ty = ⟨S4096x1x256x1, .i32⟩) (h2 : (main_call3_v0 : Ref sig .tc).space ≠ .host) (h3 : (main_call3_v0 : Ref sig .tc).isScoped = false) (v : (main_call3_v0 : Ref sig .tc).ty.Contents (Elt F)) :
    (TRef.of (T := ⟨S4096x1x256x1, .i32⟩) main_call3_v0 h1 h2 h3).ofBuf v = v := rfl
theorem tb_main_v19 (h1 : (main_v19 : Ref sig .tc).ty = ⟨S4096x1x256x1, .i32⟩) (h2 : (main_v19 : Ref sig .tc).space ≠ .host) (h3 : (main_v19 : Ref sig .tc).isScoped = false) (v : (⟨S4096x1x256x1, .i32⟩ : BufTy).Contents (Elt F)) :
    (TRef.of (T := ⟨S4096x1x256x1, .i32⟩) main_v19 h1 h2 h3).toBuf v = v := rfl
theorem ob_main_v19 (h1 : (main_v19 : Ref sig .tc).ty = ⟨S4096x1x256x1, .i32⟩) (h2 : (main_v19 : Ref sig .tc).space ≠ .host) (h3 : (main_v19 : Ref sig .tc).isScoped = false) (v : (main_v19 : Ref sig .tc).ty.Contents (Elt F)) :
    (TRef.of (T := ⟨S4096x1x256x1, .i32⟩) main_v19 h1 h2 h3).ofBuf v = v := rfl
theorem tb_main_call3_v1 (h1 : (main_call3_v1 : Ref sig .tc).ty = ⟨S4096x1x256x1, .i1⟩) (h2 : (main_call3_v1 : Ref sig .tc).space ≠ .host) (h3 : (main_call3_v1 : Ref sig .tc).isScoped = false) (v : (⟨S4096x1x256x1, .i1⟩ : BufTy).Contents (Elt F)) :
    (TRef.of (T := ⟨S4096x1x256x1, .i1⟩) main_call3_v1 h1 h2 h3).toBuf v = v := rfl
theorem ob_main_call3_v1 (h1 : (main_call3_v1 : Ref sig .tc).ty = ⟨S4096x1x256x1, .i1⟩) (h2 : (main_call3_v1 : Ref sig .tc).space ≠ .host) (h3 : (main_call3_v1 : Ref sig .tc).isScoped = false) (v : (main_call3_v1 : Ref sig .tc).ty.Contents (Elt F)) :
    (TRef.of (T := ⟨S4096x1x256x1, .i1⟩) main_call3_v1 h1 h2 h3).ofBuf v = v := rfl
theorem tb_main_call3_c_0 (h1 : (main_call3_c_0 : Ref sig .tc).ty = ⟨S_, .i32⟩) (h2 : (main_call3_c_0 : Ref sig .tc).space ≠ .host) (h3 : (main_call3_c_0 : Ref sig .tc).isScoped = false) (v : (⟨S_, .i32⟩ : BufTy).Contents (Elt F)) :
    (TRef.of (T := ⟨S_, .i32⟩) main_call3_c_0 h1 h2 h3).toBuf v = v := rfl
theorem ob_main_call3_c_0 (h1 : (main_call3_c_0 : Ref sig .tc).ty = ⟨S_, .i32⟩) (h2 : (main_call3_c_0 : Ref sig .tc).space ≠ .host) (h3 : (main_call3_c_0 : Ref sig .tc).isScoped = false) (v : (main_call3_c_0 : Ref sig .tc).ty.Contents (Elt F)) :
    (TRef.of (T := ⟨S_, .i32⟩) main_call3_c_0 h1 h2 h3).ofBuf v = v := rfl
theorem tb_main_call3_v2 (h1 : (main_call3_v2 : Ref sig .tc).ty = ⟨S4096x1x256x1, .i32⟩) (h2 : (main_call3_v2 : Ref sig .tc).space ≠ .host) (h3 : (main_call3_v2 : Ref sig .tc).isScoped = false) (v : (⟨S4096x1x256x1, .i32⟩ : BufTy).Contents (Elt F)) :
    (TRef.of (T := ⟨S4096x1x256x1, .i32⟩) main_call3_v2 h1 h2 h3).toBuf v = v := rfl
theorem ob_main_call3_v2 (h1 : (main_call3_v2 : Ref sig .tc).ty = ⟨S4096x1x256x1, .i32⟩) (h2 : (main_call3_v2 : Ref sig .tc).space ≠ .host) (h3 : (main_call3_v2 : Ref sig .tc).isScoped = false) (v : (main_call3_v2 : Ref sig .tc).ty.Contents (Elt F)) :
    (TRef.of (T := ⟨S4096x1x256x1, .i32⟩) main_call3_v2 h1 h2 h3).ofBuf v = v := rfl
theorem tb_main_call3_v3 (h1 : (main_call3_v3 : Ref sig .tc).ty = ⟨S4096x1x256x1, .i32⟩) (h2 : (main_call3_v3 : Ref sig .tc).space ≠ .host) (h3 : (main_call3_v3 : Ref sig .tc).isScoped = false) (v : (⟨S4096x1x256x1, .i32⟩ : BufTy).Contents (Elt F)) :
    (TRef.of (T := ⟨S4096x1x256x1, .i32⟩) main_call3_v3 h1 h2 h3).toBuf v = v := rfl
theorem ob_main_call3_v3 (h1 : (main_call3_v3 : Ref sig .tc).ty = ⟨S4096x1x256x1, .i32⟩) (h2 : (main_call3_v3 : Ref sig .tc).space ≠ .host) (h3 : (main_call3_v3 : Ref sig .tc).isScoped = false) (v : (main_call3_v3 : Ref sig .tc).ty.Contents (Elt F)) :
    (TRef.of (T := ⟨S4096x1x256x1, .i32⟩) main_call3_v3 h1 h2 h3).ofBuf v = v := rfl
theorem tb_main_call3_v4 (h1 : (main_call3_v4 : Ref sig .tc).ty = ⟨S4096x1x256x1, .i32⟩) (h2 : (main_call3_v4 : Ref sig .tc).space ≠ .host) (h3 : (main_call3_v4 : Ref sig .tc).isScoped = false) (v : (⟨S4096x1x256x1, .i32⟩ : BufTy).Contents (Elt F)) :
    (TRef.of (T := ⟨S4096x1x256x1, .i32⟩) main_call3_v4 h1 h2 h3).toBuf v = v := rfl
theorem ob_main_call3_v4 (h1 : (main_call3_v4 : Ref sig .tc).ty = ⟨S4096x1x256x1, .i32⟩) (h2 : (main_call3_v4 : Ref sig .tc).space ≠ .host) (h3 : (main_call3_v4 : Ref sig .tc).isScoped = false) (v : (main_call3_v4 : Ref sig .tc).ty.Contents (Elt F)) :
    (TRef.of (T := ⟨S4096x1x256x1, .i32⟩) main_call3_v4 h1 h2 h3).ofBuf v = v := rfl
theorem tb_main_call3_v5 (h1 : (main_call3_v5 : Ref sig .tc).ty = ⟨S4096x256x1x1, .i32⟩) (h2 : (main_call3_v5 : Ref sig .tc).space ≠ .host) (h3 : (main_call3_v5 : Ref sig .tc).isScoped = false) (v : (⟨S4096x256x1x1, .i32⟩ : BufTy).Contents (Elt F)) :
    (TRef.of (T := ⟨S4096x256x1x1, .i32⟩) main_call3_v5 h1 h2 h3).toBuf v = v := rfl
theorem ob_main_call3_v5 (h1 : (main_call3_v5 : Ref sig .tc).ty = ⟨S4096x256x1x1, .i32⟩) (h2 : (main_call3_v5 : Ref sig .tc).space ≠ .host) (h3 : (main_call3_v5 : Ref sig .tc).isScoped = false) (v : (main_call3_v5 : Ref sig .tc).ty.Contents (Elt F)) :
    (TRef.of (T := ⟨S4096x256x1x1, .i32⟩) main_call3_v5 h1 h2 h3).ofBuf v = v := rfl
theorem tb_main_v17 (h1 : (main_v17 : Ref sig .tc).ty = ⟨S1x128x256x16, .f32⟩) (h2 : (main_v17 : Ref sig .tc).space ≠ .host) (h3 : (main_v17 : Ref sig .tc).isScoped = false) (v : (⟨S1x128x256x16, .f32⟩ : BufTy).Contents (Elt F)) :
    (TRef.of (T := ⟨S1x128x256x16, .f32⟩) main_v17 h1 h2 h3).toBuf v = v := rfl
theorem ob_main_v17 (h1 : (main_v17 : Ref sig .tc).ty = ⟨S1x128x256x16, .f32⟩) (h2 : (main_v17 : Ref sig .tc).space ≠ .host) (h3 : (main_v17 : Ref sig .tc).isScoped = false) (v : (main_v17 : Ref sig .tc).ty.Contents (Elt F)) :
    (TRef.of (T := ⟨S1x128x256x16, .f32⟩) main_v17 h1 h2 h3).ofBuf v = v := rfl
theorem tb_main_call3_v6 (h1 : (main_call3_v6 : Ref sig .tc).ty = ⟨S128x256x16, .f32⟩) (h2 : (main_call3_v6 : Ref sig .tc).space ≠ .host) (h3 : (main_call3_v6 : Ref sig .tc).isScoped = false) (v : (⟨S128x256x16, .f32⟩ : BufTy).Contents (Elt F)) :
    (TRef.of (T := ⟨S128x256x16, .f32⟩) main_call3_v6 h1 h2 h3).toBuf v = v := rfl
theorem ob_main_call3_v6 (h1 : (main_call3_v6 : Ref sig .tc).ty = ⟨S128x256x16, .f32⟩) (h2 : (main_call3_v6 : Ref sig .tc).space ≠ .host) (h3 : (main_call3_v6 : Ref sig .tc).isScoped = false) (v : (main_call3_v6 : Ref sig .tc).ty.Contents (Elt F)) :
    (TRef.of (T := ⟨S128x256x16, .f32⟩) main_call3_v6 h1 h2 h3).ofBuf v = v := rfl
theorem tb_main_call3_c_1 (h1 : (main_call3_c_1 : Ref sig .tc).ty = ⟨S1, .i32⟩) (h2 : (main_call3_c_1 : Ref sig .tc).space ≠ .host) (h3 : (main_call3_c_1 : Ref sig .tc).isScoped = false) (v : (⟨S1, .i32⟩ : BufTy).Contents (Elt F)) :
    (TRef.of (T := ⟨S1, .i32⟩) main_call3_c_1 h1 h2 h3).toBuf v = v := rfl
theorem ob_main_call3_c_1 (h1 : (main_call3_c_1 : Ref sig .tc).ty = ⟨S1, .i32⟩) (h2 : (main_call3_c_1 : Ref sig .tc).space ≠ .host) (h3 : (main_call3_c_1 : Ref sig .tc).isScoped = false) (v : (main_call3_c_1 : Ref sig .tc).ty.Contents (Elt F)) :
    (TRef.of (T := ⟨S1, .i32⟩) main_call3_c_1 h1 h2 h3).ofBuf v = v := rfl
theorem tb_main_call3_c_2 (h1 : (main_call3_c_2 : Ref sig .tc).ty = ⟨S_, .i32⟩) (h2 : (main_call3_c_2 : Ref sig .tc).space ≠ .host) (h3 : (main_call3_c_2 : Ref sig .tc).isScoped = false) (v : (⟨S_, .i32⟩ : BufTy).Contents (Elt F)) :
    (TRef.of (T := ⟨S_, .i32⟩) main_call3_c_2 h1 h2 h3).toBuf v = v := rfl
theorem ob_main_call3_c_2 (h1 : (main_call3_c_2 : Ref sig .tc).ty = ⟨S_, .i32⟩) (h2 : (main_call3_c_2 : Ref sig .tc).space ≠ .host) (h3 : (main_call3_c_2 : Ref sig .tc).isScoped = false) (v : (main_call3_c_2 : Ref sig .tc).ty.Contents (Elt F)) :
    (TRef.of (T := ⟨S_, .i32⟩) main_call3_c_2 h1 h2 h3).ofBuf v = v := rfl
theorem tb_main_call3_v7 (h1 : (main_call3_v7 : Ref sig .tc).ty = ⟨S4096x256x1x1, .i32⟩) (h2 : (main_call3_v7 : Ref sig .tc).space ≠ .host) (h3 : (main_call3_v7 : Ref sig .tc).isScoped = false) (v : (⟨S4096x256x1x1, .i32⟩ : BufTy).Contents (Elt F)) :
    (TRef.of (T := ⟨S4096x256x1x1, .i32⟩) main_call3_v7 h1 h2 h3).toBuf v = v := rfl
theorem ob_main_call3_v7 (h1 : (main_call3_v7 : Ref sig .tc).ty = ⟨S4096x256x1x1, .i32⟩) (h2 : (main_call3_v7 : Ref sig .tc).space ≠ .host) (h3 : (main_call3_v7 : Ref sig .tc).isScoped = false) (v : (main_call3_v7 : Ref sig .tc).ty.Contents (Elt F)) :
    (TRef.of (T := ⟨S4096x256x1x1, .i32⟩) main_call3_v7 h1 h2 h3).ofBuf v = v := rfl
theorem tb_main_call3_v8 (h1 : (main_call3_v8 : Ref sig .tc).ty = ⟨S4096x256x1x1, .i1⟩) (h2 : (main_call3_v8 : Ref sig .tc).space ≠ .host) (h3 : (main_call3_v8 : Ref sig .tc).isScoped = false) (v : (⟨S4096x256x1x1, .i1⟩ : BufTy).Contents (Elt F)) :
    (TRef.of (T := ⟨S4096x256x1x1, .i1⟩) main_call3_v8 h1 h2 h3).toBuf v = v := rfl
theorem ob_main_call3_v8 (h1 : (main_call3_v8 : Ref sig .tc).ty = ⟨S4096x256x1x1, .i1⟩) (h2 : (main_call3_v8 : Ref sig .tc).space ≠ .host) (h3 : (main_call3_v8 : Ref sig .tc).isScoped = false) (v : (main_call3_v8 : Ref sig .tc).ty.Contents (Elt F)) :
    (TRef.of (T := ⟨S4096x256x1x1, .i1⟩) main_call3_v8 h1 h2 h3).ofBuf v = v := rfl
theorem tb_main_call3_v9 (h1 : (main_call3_v9 : Ref sig .tc).ty = ⟨S1x1x1x1, .i32⟩) (h2 : (main_call3_v9 : Ref sig .tc).space ≠ .host) (h3 : (main_call3_v9 : Ref sig .tc).isScoped = false) (v : (⟨S1x1x1x1, .i32⟩ : BufTy).Contents (Elt F)) :
    (TRef.of (T := ⟨S1x1x1x1, .i32⟩) main_call3_v9 h1 h2 h3).toBuf v = v := rfl
theorem ob_main_call3_v9 (h1 : (main_call3_v9 : Ref sig .tc).ty = ⟨S1x1x1x1, .i32⟩) (h2 : (main_call3_v9 : Ref sig .tc).space ≠ .host) (h3 : (main_call3_v9 : Ref sig .tc).isScoped = false) (v : (main_call3_v9 : Ref sig .tc).ty.Contents (Elt F)) :
    (TRef.of (T := ⟨S1x1x1x1, .i32⟩) main_call3_v9 h1 h2 h3).ofBuf v = v := rfl
theorem tb_main_call3_v10 (h1 : (main_call3_v10 : Ref sig .tc).ty = ⟨S4096x256x1x1, .i32⟩) (h2 : (main_call3_v10 : Ref sig .tc).space ≠ .host) (h3 : (main_call3_v10 : Ref sig .tc).isScoped = false) (v : (⟨S4096x256x1x1, .i32⟩ : BufTy).Contents (Elt F)) :
    (TRef.of (T := ⟨S4096x256x1x1, .i32⟩) main_call3_v10 h1 h2 h3).toBuf v = v := rfl
theorem ob_main_call3_v10 (h1 : (main_call3_v10 : Ref sig .tc).ty = ⟨S4096x256x1x1, .i32⟩) (h2 : (main_call3_v10 : Ref sig .tc).space ≠ .host) (h3 : (main_call3_v10 : Ref sig .tc).isScoped = false) (v : (main_call3_v10 : Ref sig .tc).ty.Contents (Elt F)) :
    (TRef.of (T := ⟨S4096x256x1x1, .i32⟩) main_call3_v10 h1 h2 h3).ofBuf v = v := rfl
theorem tb_main_call3_v11 (h1 : (main_call3_v11 : Ref sig .tc).ty = ⟨S4096x256x1x1, .i1⟩) (h2 : (main_call3_v11 : Ref sig .tc).space ≠ .host) (h3 : (main_call3_v11 : Ref sig .tc).isScoped = false) (v : (⟨S4096x256x1x1, .i1⟩ : BufTy).Contents (Elt F)) :
    (TRef.of (T := ⟨S4096x256x1x1, .i1⟩) main_call3_v11 h1 h2 h3).toBuf v = v := rfl
theorem ob_main_call3_v11 (h1 : (main_call3_v11 : Ref sig .tc).ty = ⟨S4096x256x1x1, .i1⟩) (h2 : (main_call3_v11 : Ref sig .tc).space ≠ .host) (h3 : (main_call3_v11 : Ref sig .tc).isScoped = false) (v : (main_call3_v11 : Ref sig .tc).ty.Contents (Elt F)) :
    (TRef.of (T := ⟨S4096x256x1x1, .i1⟩) main_call3_v11 h1 h2 h3).ofBuf v = v := rfl
theorem tb_main_call3_v12 (h1 : (main_call3_v12 : Ref sig .tc).ty = ⟨S4096x256x1x1, .i1⟩) (h2 : (main_call3_v12 : Ref sig .tc).space ≠ .host) (h3 : (main_call3_v12 : Ref sig .tc).isScoped = false) (v : (⟨S4096x256x1x1, .i1⟩ : BufTy).Contents (Elt F)) :
    (TRef.of (T := ⟨S4096x256x1x1, .i1⟩) main_call3_v12 h1 h2 h3).toBuf v = v := rfl
theorem ob_main_call3_v12 (h1 : (main_call3_v12 : Ref sig .tc).ty = ⟨S4096x256x1x1, .i1⟩) (h2 : (main_call3_v12 : Ref sig .tc).space ≠ .host) (h3 : (main_call3_v12 : Ref sig .tc).isScoped = false) (v : (main_call3_v12 : Ref sig .tc).ty.Contents (Elt F)) :
    (TRef.of (T := ⟨S4096x256x1x1, .i1⟩) main_call3_v12 h1 h2 h3).ofBuf v = v := rfl
theorem tb_main_call3_c_3 (h1 : (main_call3_c_3 : Ref sig .tc).ty = ⟨S_, .i1⟩) (h2 : (main_call3_c_3 : Ref sig .tc).space ≠ .host) (h3 : (main_call3_c_3 : Ref sig .tc).isScoped = false) (v : (⟨S_, .i1⟩ : BufTy).Contents (Elt F)) :
    (TRef.of (T := ⟨S_, .i1⟩) main_call3_c_3 h1 h2 h3).toBuf v = v := rfl
theorem ob_main_call3_c_3 (h1 : (main_call3_c_3 : Ref sig .tc).ty = ⟨S_, .i1⟩) (h2 : (main_call3_c_3 : Ref sig .tc).space ≠ .host) (h3 : (main_call3_c_3 : Ref sig .tc).isScoped = false) (v : (main_call3_c_3 : Ref sig .tc).ty.Contents (Elt F)) :
    (TRef.of (T := ⟨S_, .i1⟩) main_call3_c_3 h1 h2 h3).ofBuf v = v := rfl
theorem tb_main_call3_v13 (h1 : (main_call3_v13 : Ref sig .tc).ty = ⟨S4096x256x1, .i1⟩) (h2 : (main_call3_v13 : Ref sig .tc).space ≠ .host) (h3 : (main_call3_v13 : Ref sig .tc).isScoped = false) (v : (⟨S4096x256x1, .i1⟩ : BufTy).Contents (Elt F)) :
    (TRef.of (T := ⟨S4096x256x1, .i1⟩) main_call3_v13 h1 h2 h3).toBuf v = v := rfl
theorem ob_main_call3_v13 (h1 : (main_call3_v13 : Ref sig .tc).ty = ⟨S4096x256x1, .i1⟩) (h2 : (main_call3_v13 : Ref sig .tc).space ≠ .host) (h3 : (main_call3_v13 : Ref sig .tc).isScoped = false) (v : (main_call3_v13 : Ref sig .tc).ty.Contents (Elt F)) :
    (TRef.of (T := ⟨S4096x256x1, .i1⟩) main_call3_v13 h1 h2 h3).ofBuf v = v := rfl
theorem tb_main_call3_v14 (h1 : (main_call3_v14 : Ref sig .tc).ty = ⟨S4096x128x256x1, .f32⟩) (h2 : (main_call3_v14 : Ref sig .tc).space ≠ .host) (h3 : (main_call3_v14 : Ref sig .tc).isScoped = false) (v : (⟨S4096x128x256x1, .f32⟩ : BufTy).Contents (Elt F)) :
    (TRef.of (T := ⟨S4096x128x256x1, .f32⟩) main_call3_v14 h1 h2 h3).toBuf v = v := rfl
theorem ob_main_call3_v14 (h1 : (main_call3_v14 : Ref sig .tc).ty = ⟨S4096x128x256x1, .f32⟩) (h2 : (main_call3_v14 : Ref sig .tc).space ≠ .host) (h3 : (main_call3_v14 : Ref sig .tc).isScoped = false) (v : (main_call3_v14 : Ref sig .tc).ty.Contents (Elt F)) :
    (TRef.of (T := ⟨S4096x128x256x1, .f32⟩) main_call3_v14 h1 h2 h3).ofBuf v = v := rfl
theorem tb_main_call3_v15 (h1 : (main_call3_v15 : Ref sig .tc).ty = ⟨S4096x128x256x1, .i1⟩) (h2 : (main_call3_v15 : Ref sig .tc).space ≠ .host) (h3 : (main_call3_v15 : Ref sig .tc).isScoped = false) (v : (⟨S4096x128x256x1, .i1⟩ : BufTy).Contents (Elt F)) :
    (TRef.of (T := ⟨S4096x128x256x1, .i1⟩) main_call3_v15 h1 h2 h3).toBuf v = v := rfl
theorem ob_main_call3_v15 (h1 : (main_call3_v15 : Ref sig .tc).ty = ⟨S4096x128x256x1, .i1⟩) (h2 : (main_call3_v15 : Ref sig .tc).space ≠ .host) (h3 : (main_call3_v15 : Ref sig .tc).isScoped = false) (v : (main_call3_v15 : Ref sig .tc).ty.Contents (Elt F)) :
    (TRef.of (T := ⟨S4096x128x256x1, .i1⟩) main_call3_v15 h1 h2 h3).ofBuf v = v := rfl
theorem tb_main_call3_cst (h1 : (main_call3_cst : Ref sig .tc).ty = ⟨S_, .f32⟩) (h2 : (main_call3_cst : Ref sig .tc).space ≠ .host) (h3 : (main_call3_cst : Ref sig .tc).isScoped = false) (v : (⟨S_, .f32⟩ : BufTy).Contents (Elt F)) :
    (TRef.of (T := ⟨S_, .f32⟩) main_call3_cst h1 h2 h3).toBuf v = v := rfl
theorem ob_main_call3_cst (h1 : (main_call3_cst : Ref sig .tc).ty = ⟨S_, .f32⟩) (h2 : (main_call3_cst : Ref sig .tc).space ≠ .host) (h3 : (main_call3_cst : Ref sig .tc).isScoped = false) (v : (main_call3_cst : Ref sig .tc).ty.Contents (Elt F)) :
    (TRef.of (T := ⟨S_, .f32⟩) main_call3_cst h1 h2 h3).ofBuf v = v := rfl
theorem tb_main_call3_v16 (h1 : (main_call3_v16 : Ref sig .tc).ty = ⟨S4096x128x256x1, .f32⟩) (h2 : (main_call3_v16 : Ref sig .tc).space ≠ .host) (h3 : (main_call3_v16 : Ref sig .tc).isScoped = false) (v : (⟨S4096x128x256x1, .f32⟩ : BufTy).Contents (Elt F)) :
    (TRef.of (T := ⟨S4096x128x256x1, .f32⟩) main_call3_v16 h1 h2 h3).toBuf v = v := rfl
theorem ob_main_call3_v16 (h1 : (main_call3_v16 : Ref sig .tc).ty = ⟨S4096x128x256x1, .f32⟩) (h2 : (main_call3_v16 : Ref sig .tc).space ≠ .host) (h3 : (main_call3_v16 : Ref sig .tc).isScoped = false) (v : (main_call3_v16 : Ref sig .tc).ty.Contents (Elt F)) :
    (TRef.of (T := ⟨S4096x128x256x1, .f32⟩) main_call3_v16 h1 h2 h3).ofBuf v = v := rfl
theorem tb_main_v20 (h1 : (main_v20 : Ref sig .tc).ty = ⟨S4096x128x256x1, .f32⟩) (h2 : (main_v20 : Ref sig .tc).space ≠ .host) (h3 : (main_v20 : Ref sig .tc).isScoped = false) (v : (⟨S4096x128x256x1, .f32⟩ : BufTy).Contents (Elt F)) :
    (TRef.of (T := ⟨S4096x128x256x1, .f32⟩) main_v20 h1 h2 h3).toBuf v = v := rfl
theorem ob_main_v20 (h1 : (main_v20 : Ref sig .tc).ty = ⟨S4096x128x256x1, .f32⟩) (h2 : (main_v20 : Ref sig .tc).space ≠ .host) (h3 : (main_v20 : Ref sig .tc).isScoped = false) (v : (main_v20 : Ref sig .tc).ty.Contents (Elt F)) :
    (TRef.of (T := ⟨S4096x128x256x1, .f32⟩) main_v20 h1 h2 h3).ofBuf v = v := rfl
theorem tb_main_call4_v0 (h1 : (main_call4_v0 : Ref sig .tc).ty = ⟨S4096x256, .f32⟩) (h2 : (main_call4_v0 : Ref sig .tc).space ≠ .host) (h3 : (main_call4_v0 : Ref sig .tc).isScoped = false) (v : (⟨S4096x256, .f32⟩ : BufTy).Contents (Elt F)) :
    (TRef.of (T := ⟨S4096x256, .f32⟩) main_call4_v0 h1 h2 h3).toBuf v = v := rfl
theorem ob_main_call4_v0 (h1 : (main_call4_v0 : Ref sig .tc).ty = ⟨S4096x256, .f32⟩) (h2 : (main_call4_v0 : Ref sig .tc).space ≠ .host) (h3 : (main_call4_v0 : Ref sig .tc).isScoped = false) (v : (main_call4_v0 : Ref sig .tc).ty.Contents (Elt F)) :
    (TRef.of (T := ⟨S4096x256, .f32⟩) main_call4_v0 h1 h2 h3).ofBuf v = v := rfl
theorem tb_main_call4_v1 (h1 : (main_call4_v1 : Ref sig .tc).ty = ⟨S4096x256, .f32⟩) (h2 : (main_call4_v1 : Ref sig .tc).space ≠ .host) (h3 : (main_call4_v1 : Ref sig .tc).isScoped = false) (v : (⟨S4096x256, .f32⟩ : BufTy).Contents (Elt F)) :
    (TRef.of (T := ⟨S4096x256, .f32⟩) main_call4_v1 h1 h2 h3).toBuf v = v := rfl
theorem ob_main_call4_v1 (h1 : (main_call4_v1 : Ref sig .tc).ty = ⟨S4096x256, .f32⟩) (h2 : (main_call4_v1 : Ref sig .tc).space ≠ .host) (h3 : (main_call4_v1 : Ref sig .tc).isScoped = false) (v : (main_call4_v1 : Ref sig .tc).ty.Contents (Elt F)) :
    (TRef.of (T := ⟨S4096x256, .f32⟩) main_call4_v1 h1 h2 h3).ofBuf v = v := rfl
theorem tb_main_call4_cst (h1 : (main_call4_cst : Ref sig .tc).ty = ⟨S_, .f32⟩) (h2 : (main_call4_cst : Ref sig .tc).space ≠ .host) (h3 : (main_call4_cst : Ref sig .tc).isScoped = false) (v : (⟨S_, .f32⟩ : BufTy).Contents (Elt F)) :
    (TRef.of (T := ⟨S_, .f32⟩) main_call4_cst h1 h2 h3).toBuf v = v := rfl
theorem ob_main_call4_cst (h1 : (main_call4_cst : Ref sig .tc).ty = ⟨S_, .f32⟩) (h2 : (main_call4_cst : Ref sig .tc).space ≠ .host) (h3 : (main_call4_cst : Ref sig .tc).isScoped = false) (v : (main_call4_cst : Ref sig .tc).ty.Contents (Elt F)) :
    (TRef.of (T := ⟨S_, .f32⟩) main_call4_cst h1 h2 h3).ofBuf v = v := rfl
theorem tb_main_call4_v2 (h1 : (main_call4_v2 : Ref sig .tc).ty = ⟨S4096x256, .f32⟩) (h2 : (main_call4_v2 : Ref sig .tc).space ≠ .host) (h3 : (main_call4_v2 : Ref sig .tc).isScoped = false) (v : (⟨S4096x256, .f32⟩ : BufTy).Contents (Elt F)) :
    (TRef.of (T := ⟨S4096x256, .f32⟩) main_call4_v2 h1 h2 h3).toBuf v = v := rfl
theorem ob_main_call4_v2 (h1 : (main_call4_v2 : Ref sig .tc).ty = ⟨S4096x256, .f32⟩) (h2 : (main_call4_v2 : Ref sig .tc).space ≠ .host) (h3 : (main_call4_v2 : Ref sig .tc).isScoped = false) (v : (main_call4_v2 : Ref sig .tc).ty.Contents (Elt F)) :
    (TRef.of (T := ⟨S4096x256, .f32⟩) main_call4_v2 h1 h2 h3).ofBuf v = v := rfl
theorem tb_main_call4_v3 (h1 : (main_call4_v3 : Ref sig .tc).ty = ⟨S4096x256, .f32⟩) (h2 : (main_call4_v3 : Ref sig .tc).space ≠ .host) (h3 : (main_call4_v3 : Ref sig .tc).isScoped = false) (v : (⟨S4096x256, .f32⟩ : BufTy).Contents (Elt F)) :
    (TRef.of (T := ⟨S4096x256, .f32⟩) main_call4_v3 h1 h2 h3).toBuf v = v := rfl
theorem ob_main_call4_v3 (h1 : (main_call4_v3 : Ref sig .tc).ty = ⟨S4096x256, .f32⟩) (h2 : (main_call4_v3 : Ref sig .tc).space ≠ .host) (h3 : (main_call4_v3 : Ref sig .tc).isScoped = false) (v : (main_call4_v3 : Ref sig .tc).ty.Contents (Elt F)) :
    (TRef.of (T := ⟨S4096x256, .f32⟩) main_call4_v3 h1 h2 h3).ofBuf v = v := rfl
theorem tb_main_call4_cst_0 (h1 : (main_call4_cst_0 : Ref sig .tc).ty = ⟨S_, .f32⟩) (h2 : (main_call4_cst_0 : Ref sig .tc).space ≠ .host) (h3 : (main_call4_cst_0 : Ref sig .tc).isScoped = false) (v : (⟨S_, .f32⟩ : BufTy).Contents (Elt F)) :
    (TRef.of (T := ⟨S_, .f32⟩) main_call4_cst_0 h1 h2 h3).toBuf v = v := rfl
theorem ob_main_call4_cst_0 (h1 : (main_call4_cst_0 : Ref sig .tc).ty = ⟨S_, .f32⟩) (h2 : (main_call4_cst_0 : Ref sig .tc).space ≠ .host) (h3 : (main_call4_cst_0 : Ref sig .tc).isScoped = false) (v : (main_call4_cst_0 : Ref sig .tc).ty.Contents (Elt F)) :
    (TRef.of (T := ⟨S_, .f32⟩) main_call4_cst_0 h1 h2 h3).ofBuf v = v := rfl
theorem tb_main_call4_v4 (h1 : (main_call4_v4 : Ref sig .tc).ty = ⟨S4096x256, .f32⟩) (h2 : (main_call4_v4 : Ref sig .tc).space ≠ .host) (h3 : (main_call4_v4 : Ref sig .tc).isScoped = false) (v : (⟨S4096x256, .f32⟩ : BufTy).Contents (Elt F)) :
    (TRef.of (T := ⟨S4096x256, .f32⟩) main_call4_v4 h1 h2 h3).toBuf v = v := rfl
theorem ob_main_call4_v4 (h1 : (main_call4_v4 : Ref sig .tc).ty = ⟨S4096x256, .f32⟩) (h2 : (main_call4_v4 : Ref sig .tc).space ≠ .host) (h3 : (main_call4_v4 : Ref sig .tc).isScoped = false) (v : (main_call4_v4 : Ref sig .tc).ty.Contents (Elt F)) :
    (TRef.of (T := ⟨S4096x256, .f32⟩) main_call4_v4 h1 h2 h3).ofBuf v = v := rfl
theorem tb_main_call4_v5 (h1 : (main_call4_v5 : Ref sig .tc).ty = ⟨S4096x256, .f32⟩) (h2 : (main_call4_v5 : Ref sig .tc).space ≠ .host) (h3 : (main_call4_v5 : Ref sig .tc).isScoped = false) (v : (⟨S4096x256, .f32⟩ : BufTy).Contents (Elt F)) :
    (TRef.of (T := ⟨S4096x256, .f32⟩) main_call4_v5 h1 h2 h3).toBuf v = v := rfl
theorem ob_main_call4_v5 (h1 : (main_call4_v5 : Ref sig .tc).ty = ⟨S4096x256, .f32⟩) (h2 : (main_call4_v5 : Ref sig .tc).space ≠ .host) (h3 : (main_call4_v5 : Ref sig .tc).isScoped = false) (v : (main_call4_v5 : Ref sig .tc).ty.Contents (Elt F)) :
    (TRef.of (T := ⟨S4096x256, .f32⟩) main_call4_v5 h1 h2 h3).ofBuf v = v := rfl
theorem tb_main_v29 (h1 : (main_v29 : Ref sig .tc).ty = ⟨S4096x256, .f32⟩) (h2 : (main_v29 : Ref sig .tc).space ≠ .host) (h3 : (main_v29 : Ref sig .tc).isScoped = false) (v : (⟨S4096x256, .f32⟩ : BufTy).Contents (Elt F)) :
    (TRef.of (T := ⟨S4096x256, .f32⟩) main_v29 h1 h2 h3).toBuf v = v := rfl
theorem ob_main_v29 (h1 : (main_v29 : Ref sig .tc).ty = ⟨S4096x256, .f32⟩) (h2 : (main_v29 : Ref sig .tc).space ≠ .host) (h3 : (main_v29 : Ref sig .tc).isScoped = false) (v : (main_v29 : Ref sig .tc).ty.Contents (Elt F)) :
    (TRef.of (T := ⟨S4096x256, .f32⟩) main_v29 h1 h2 h3).ofBuf v = v := rfl

/-! ## The stages of the line -/

/-- Stage 1: the knot coordinate. -/
abbrev ops1 : List (HloOp τ sig (Elt F)) :=
  [ nullary main_cst (constant S_ .f32 0xC0000000#32),
    nullary main_cst_0 (constant S_ .f32 0x40000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096x256, .f32⟩) main_call0_v1) (broadcastInDim S4096x256 ![] bcast_S_S4096x256),
    TRef.binary (TRef.of (T := ⟨S4096x256, .f32⟩) main_call0_v1) (TRef.of (T := ⟨S4096x256, .f32⟩) main_arg0) (TRef.of (T := ⟨S4096x256, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S4096x256, .f32⟩) main_call0_v4) (broadcastInDim S4096x256 ![] bcast_S_S4096x256),
    TRef.binary (TRef.of (T := ⟨S4096x256, .f32⟩) main_call0_v4) (TRef.of (T := ⟨S4096x256, .f32⟩) main_call0_v2) (TRef.of (T := ⟨S4096x256, .f32⟩) main_v0) minimumf,
    nullary main_cst_1 (constant S_ .f32 0xC0000000#32),
    unary main_cst_1 main_v1 (broadcastInDim S4096x256 ![] bcast_S_S4096x256 : (⟨S_, .f32⟩ : BufTy).Contents (Elt F) → (⟨S4096x256, .f32⟩ : BufTy).Contents (Elt F)),
    binary main_v0 main_v1 main_v2 (subf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x40800000#32),
    unary main_cst_2 main_v3 (broadcastInDim S4096x256 ![] bcast_S_S4096x256 : (⟨S_, .f32⟩ : BufTy).Contents (Elt F) → (⟨S4096x256, .f32⟩ : BufTy).Contents (Elt F)),
    binary main_v2 main_v3 main_v4 (Host.divf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x41700000#32),
    unary main_cst_3 main_v5 (broadcastInDim S4096x256 ![] bcast_S_S4096x256 : (⟨S_, .f32⟩ : BufTy).Contents (Elt F) → (⟨S4096x256, .f32⟩ : BufTy).Contents (Elt F)),
    binary main_v4 main_v5 main_v6 (mulf : (⟨S4096x256, .f32⟩ : BufTy).Contents (Elt F) → (⟨S4096x256, .f32⟩ : BufTy).Contents (Elt F) → (⟨S4096x256, .f32⟩ : BufTy).Contents (Elt F)) ]

/-- Stage 2: the offset broadcast over the outputs, the left knot's index array, the spline values with a leading unit axis. -/
abbrev ops2 : List (HloOp τ sig (Elt F)) :=
  [ unary main_v6 main_v7 (Host.floor : (⟨S4096x256, .f32⟩ : BufTy).Contents (Elt F) → (⟨S4096x256, .f32⟩ : BufTy).Contents (Elt F)),
    unary main_v7 main_v8 (fptosi 32 : (⟨S4096x256, .f32⟩ : BufTy).Contents (Elt F) → (⟨S4096x256, .i32⟩ : BufTy).Contents (Elt F)),
    nullary main_c (constantI S_ 32 0#32),
    nullary main_c_4 (constantI S_ 32 14#32),
    TRef.unary (TRef.of (T := ⟨S_, .i32⟩) main_c) (TRef.of (T := ⟨S_, .i32⟩) main_call1_v0) id,
    TRef.unary (TRef.of (T := ⟨S_, .i32⟩) main_call1_v0) (TRef.of (T := ⟨S4096x256, .i32⟩) main_call1_v1) (broadcastInDim S4096x256 ![] bcast_S_S4096x256),
    TRef.binary (TRef.of (T := ⟨S4096x256, .i32⟩) main_call1_v1) (TRef.of (T := ⟨S4096x256, .i32⟩) main_v8) (TRef.of (T := ⟨S4096x256, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S4096x256, .i32⟩) main_call1_v4) (broadcastInDim S4096x256 ![] bcast_S_S4096x256),
    TRef.binary (TRef.of (T := ⟨S4096x256, .i32⟩) main_call1_v4) (TRef.of (T := ⟨S4096x256, .i32⟩) main_call1_v2) (TRef.of (T := ⟨S4096x256, .i32⟩) main_v9) minsi,
    unary main_v9 main_v10 (sitofp .f32 : (⟨S4096x256, .i32⟩ : BufTy).Contents (Elt F) → (⟨S4096x256, .f32⟩ : BufTy).Contents (Elt F)),
    binary main_v6 main_v10 main_v11 (subf : (⟨S4096x256, .f32⟩ : BufTy).Contents (Elt F) → (⟨S4096x256, .f32⟩ : BufTy).Contents (Elt F) → (⟨S4096x256, .f32⟩ : BufTy).Contents (Elt F)),
    unary main_v11 main_v12 (broadcastInDim S4096x1x256 ![0, 2] bcast_S4096x256_S4096x1x256_0_2 : (⟨S4096x256, .f32⟩ : BufTy).Contents (Elt F) → (⟨S4096x1x256, .f32⟩ : BufTy).Contents (Elt F)),
    unary main_v9 main_v13 (broadcastInDim S4096x1x256x1 ![0, 2] bcast_S4096x256_S4096x1x256x1_0_2 : (⟨S4096x256, .i32⟩ : BufTy).Contents (Elt F) → (⟨S4096x1x256x1, .i32⟩ : BufTy).Contents (Elt F)),
    unary main_arg1 main_v14 (broadcastInDim S1x128x256x16 ![1, 2, 3] bcast_S128x256x16_S1x128x256x16_1_2_3 : (⟨S128x256x16, .f32⟩ : BufTy).Contents (Elt F) → (⟨S1x128x256x16, .f32⟩ : BufTy).Contents (Elt F)) ]

/-- Stage 3a: the left index with a negative value wrapped. -/
abbrev ops3a : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4096x1x256x1, .i32⟩) main_call2_v0) (broadcastInDim S4096x1x256x1 ![] bcast_S_S4096x1x256x1),
    TRef.binary (TRef.of (T := ⟨S4096x1x256x1, .i32⟩) main_v13) (TRef.of (T := ⟨S4096x1x256x1, .i32⟩) main_call2_v0) (TRef.of (T := ⟨S4096x1x256x1, .i1⟩) main_call2_v1) (cmpi .slt),
    TRef.nullary (TRef.of (T := ⟨S_, .i32⟩) main_call2_c_0) (constantI S_ 32 16#32),
    TRef.unary (TRef.of (T := ⟨S_, .i32⟩) main_call2_c_0) (TRef.of (T := ⟨S4096x1x256x1, .i32⟩) main_call2_v2) (broadcastInDim S4096x1x256x1 ![] bcast_S_S4096x1x256x1),
    TRef.binary (TRef.of (T := ⟨S4096x1x256x1, .i32⟩) main_v13) (TRef.of (T := ⟨S4096x1x256x1, .i32⟩) main_call2_v2) (TRef.of (T := ⟨S4096x1x256x1, .i32⟩) main_call2_v3) addi,
    TRef.ternary (TRef.of (T := ⟨S4096x1x256x1, .i1⟩) main_call2_v1) (TRef.of (T := ⟨S4096x1x256x1, .i32⟩) main_call2_v3) (TRef.of (T := ⟨S4096x1x256x1, .i32⟩) main_v13) (TRef.of (T := ⟨S4096x1x256x1, .i32⟩) main_call2_v4) select ]

/-- Stage 3b: that index array re-laid. -/
abbrev ops3b : List (HloOp τ sig (Elt F)) :=
  [ TRef.reshape (TRef.of (T := ⟨S4096x1x256x1, .i32⟩) main_call2_v4) (TRef.of (T := ⟨S4096x256x1x1, .i32⟩) main_call2_v5) rfl shapeCasts_S4096x1x256x1_S4096x256x1x1 ]

/-- Stage 3c: the spline values without the unit axis. -/
abbrev ops3c : List (HloOp τ sig (Elt F)) :=
  [ TRef.reshape (TRef.of (T := ⟨S1x128x256x16, .f32⟩) main_v14) (TRef.of (T := ⟨S128x256x16, .f32⟩) main_call2_v6) rfl shapeCasts_S1x128x256x16_S128x256x16 ]

/-- Stage 3d: the two range tests of the index and their conjunction. -/
abbrev ops3d : List (HloOp τ sig (Elt F)) :=
  [ TRef.nullary (TRef.of (T := ⟨S1, .i32⟩) main_call2_c_1) (constantI S1 32 15#32),
    TRef.nullary (TRef.of (T := ⟨S_, .i32⟩) main_call2_c_2) (constantI S_ 32 0#32),
    TRef.unary (TRef.of (T := ⟨S_, .i32⟩) main_call2_c_2) (TRef.of (T := ⟨S4096x256x1x1, .i32⟩) main_call2_v7) (broadcastInDim S4096x256x1x1 ![] bcast_S_S4096x256x1x1),
    TRef.binary (TRef.of (T := ⟨S4096x256x1x1, .i32⟩) main_call2_v5) (TRef.of (T := ⟨S4096x256x1x1, .i32⟩) main_call2_v7) (TRef.of (T := ⟨S4096x256x1x1, .i1⟩) main_call2_v8) (cmpi .sge),
    TRef.unary (TRef.of (T := ⟨S1, .i32⟩) main_call2_c_1) (TRef.of (T := ⟨S1x1x1x1, .i32⟩) main_call2_v9) (broadcastInDim S1x1x1x1 ![3] bcast_S1_S1x1x1x1_3),
    TRef.unary (TRef.of (T := ⟨S1x1x1x1, .i32⟩) main_call2_v9) (TRef.of (T := ⟨S4096x256x1x1, .i32⟩) main_call2_v10) (broadcastInDim S4096x256x1x1 ![0, 1, 2, 3] bcast_S1x1x1x1_S4096x256x1x1_0_1_2_3),
    TRef.binary (TRef.of (T := ⟨S4096x256x1x1, .i32⟩) main_call2_v5) (TRef.of (T := ⟨S4096x256x1x1, .i32⟩) main_call2_v10) (TRef.of (T := ⟨S4096x256x1x1, .i1⟩) main_call2_v11) (cmpi .sle),
    TRef.binary (TRef.of (T := ⟨S4096x256x1x1, .i1⟩) main_call2_v8) (TRef.of (T := ⟨S4096x256x1x1, .i1⟩) main_call2_v11) (TRef.of (T := ⟨S4096x256x1x1, .i1⟩) main_call2_v12) andi ]

/-- Stage 3r: the conjunction reduced over the unit axis. -/
abbrev ops3r : List (HloOp τ sig (Elt F)) :=
  [ TRef.nullary (TRef.of (T := ⟨S_, .i1⟩) main_call2_c_3) (constantI S_ 1 1#1),
    TRef.binary (TRef.of (T := ⟨S4096x256x1x1, .i1⟩) main_call2_v12) (TRef.of (T := ⟨S_, .i1⟩) main_call2_c_3) (TRef.of (T := ⟨S4096x256x1, .i1⟩) main_call2_v13) (fun x v => Host.reduce IntOp.andi x v reducesTo_S4096x256x1x1_S4096x256x1_d3 h_S_) ]

/-- Stage 3g: the gather. -/
abbrev ops3g : List (HloOp τ sig (Elt F)) :=
  [ TRef.binary (TRef.of (T := ⟨S128x256x16, .f32⟩) main_call2_v6) (TRef.of (T := ⟨S4096x256x1x1, .i32⟩) main_call2_v5) (TRef.of (T := ⟨S4096x128x256x1, .f32⟩) main_call2_v14) (fun x i => Host.gather gather_S128x256x16_S4096x256x1x1_S4096x128x256x1_1_2_1_1_2_3_12811 x i) ]

/-- Stage 3s: the mask broadcast and the select against the filler. -/
abbrev ops3s : List (HloOp τ sig (Elt F)) :=
  [ TRef.unary (TRef.of (T := ⟨S4096x256x1, .i1⟩) main_call2_v13) (TRef.of (T := ⟨S4096x128x256x1, .i1⟩) main_call2_v15) (broadcastInDim S4096x128x256x1 ![0, 2, 3] bcast_S4096x256x1_S4096x128x256x1_0_2_3),
    TRef.nullary (TRef.of (T := ⟨S_, .f32⟩) main_call2_cst) (constant S_ .f32 0x7FC00000#32),
    TRef.unary (TRef.of (T := ⟨S_, .f32⟩) main_call2_cst) (TRef.of (T := ⟨S4096x128x256x1, .f32⟩) main_call2_v16) (broadcastInDim S4096x128x256x1 ![] bcast_S_S4096x128x256x1),
    TRef.ternary (TRef.of (T := ⟨S4096x128x256x1, .i1⟩) main_call2_v15) (TRef.of (T := ⟨S4096x128x256x1, .f32⟩) main_call2_v14) (TRef.of (T := ⟨S4096x128x256x1, .f32⟩) main_call2_v16) (TRef.of (T := ⟨S4096x128x256x1, .f32⟩) main_v15) select ]

/-- Stage 3e: the left values re-laid. -/
abbrev ops3e : List (HloOp τ sig (Elt F)) :=
  [ reshape main_v15 main_v16 rfl shapeCasts_S4096x128x256x1_S4096x128x256 ]

/-- Stage 4a: the spline values with a unit axis again, and the right index, left plus one. -/
abbrev ops4a : List (HloOp τ sig (Elt F)) :=
  [ unary main_arg1 main_v17 (broadcastInDim S1x128x256x16 ![1, 2, 3] bcast_S128x256x16_S1x128x256x16_1_2_3 : (⟨S128x256x16, .f32⟩ : BufTy).Contents (Elt F) → (⟨S1x128x256x16, .f32⟩ : BufTy).Contents (Elt F)),
    nullary main_c_5 (constantI S_ 32 1#32),
    unary main_c_5 main_v18 (broadcastInDim S4096x1x256x1 ![] bcast_S_S4096x1x256x1 : (⟨S_, .i32⟩ : BufTy).Contents (Elt F) → (⟨S4096x1x256x1, .i32⟩ : BufTy).Contents (Elt F)),
    binary main_v13 main_v18 main_v19 (addi : (⟨S4096x1x256x1, .i32⟩ : BufTy).Contents (Elt F) → (⟨S4096x1x256x1, .i32⟩ : BufTy).Contents (Elt F) → (⟨S4096x1x256x1, .i32⟩ : BufTy).Contents (Elt F)) ]

/-- Stage 4w: the right index with a negative value wrapped. -/
abbrev ops4w : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4096x1x256x1, .i32⟩) main_call3_v0) (broadcastInDim S4096x1x256x1 ![] bcast_S_S4096x1x256x1),
    TRef.binary (TRef.of (T := ⟨S4096x1x256x1, .i32⟩) main_v19) (TRef.of (T := ⟨S4096x1x256x1, .i32⟩) main_call3_v0) (TRef.of (T := ⟨S4096x1x256x1, .i1⟩) main_call3_v1) (cmpi .slt),
    TRef.nullary (TRef.of (T := ⟨S_, .i32⟩) main_call3_c_0) (constantI S_ 32 16#32),
    TRef.unary (TRef.of (T := ⟨S_, .i32⟩) main_call3_c_0) (TRef.of (T := ⟨S4096x1x256x1, .i32⟩) main_call3_v2) (broadcastInDim S4096x1x256x1 ![] bcast_S_S4096x1x256x1),
    TRef.binary (TRef.of (T := ⟨S4096x1x256x1, .i32⟩) main_v19) (TRef.of (T := ⟨S4096x1x256x1, .i32⟩) main_call3_v2) (TRef.of (T := ⟨S4096x1x256x1, .i32⟩) main_call3_v3) addi,
    TRef.ternary (TRef.of (T := ⟨S4096x1x256x1, .i1⟩) main_call3_v1) (TRef.of (T := ⟨S4096x1x256x1, .i32⟩) main_call3_v3) (TRef.of (T := ⟨S4096x1x256x1, .i32⟩) main_v19) (TRef.of (T := ⟨S4096x1x256x1, .i32⟩) main_call3_v4) select ]

/-- Stage 4b: that index array re-laid. -/
abbrev ops4b : List (HloOp τ sig (Elt F)) :=
  [ TRef.reshape (TRef.of (T := ⟨S4096x1x256x1, .i32⟩) main_call3_v4) (TRef.of (T := ⟨S4096x256x1x1, .i32⟩) main_call3_v5) rfl shapeCasts_S4096x1x256x1_S4096x256x1x1 ]

/-- Stage 4c: the spline values without the unit axis. -/
abbrev ops4c : List (HloOp τ sig (Elt F)) :=
  [ TRef.reshape (TRef.of (T := ⟨S1x128x256x16, .f32⟩) main_v17) (TRef.of (T := ⟨S128x256x16, .f32⟩) main_call3_v6) rfl shapeCasts_S1x128x256x16_S128x256x16 ]

/-- Stage 4d: the two range tests of the index and their conjunction. -/
abbrev ops4d : List (HloOp τ sig (Elt F)) :=
  [ TRef.nullary (TRef.of (T := ⟨S1, .i32⟩) main_call3_c_1) (constantI S1 32 15#32),
    TRef.nullary (TRef.of (T := ⟨S_, .i32⟩) main_call3_c_2) (constantI S_ 32 0#32),
    TRef.unary (TRef.of (T := ⟨S_, .i32⟩) main_call3_c_2) (TRef.of (T := ⟨S4096x256x1x1, .i32⟩) main_call3_v7) (broadcastInDim S4096x256x1x1 ![] bcast_S_S4096x256x1x1),
    TRef.binary (TRef.of (T := ⟨S4096x256x1x1, .i32⟩) main_call3_v5) (TRef.of (T := ⟨S4096x256x1x1, .i32⟩) main_call3_v7) (TRef.of (T := ⟨S4096x256x1x1, .i1⟩) main_call3_v8) (cmpi .sge),
    TRef.unary (TRef.of (T := ⟨S1, .i32⟩) main_call3_c_1) (TRef.of (T := ⟨S1x1x1x1, .i32⟩) main_call3_v9) (broadcastInDim S1x1x1x1 ![3] bcast_S1_S1x1x1x1_3),
    TRef.unary (TRef.of (T := ⟨S1x1x1x1, .i32⟩) main_call3_v9) (TRef.of (T := ⟨S4096x256x1x1, .i32⟩) main_call3_v10) (broadcastInDim S4096x256x1x1 ![0, 1, 2, 3] bcast_S1x1x1x1_S4096x256x1x1_0_1_2_3),
    TRef.binary (TRef.of (T := ⟨S4096x256x1x1, .i32⟩) main_call3_v5) (TRef.of (T := ⟨S4096x256x1x1, .i32⟩) main_call3_v10) (TRef.of (T := ⟨S4096x256x1x1, .i1⟩) main_call3_v11) (cmpi .sle),
    TRef.binary (TRef.of (T := ⟨S4096x256x1x1, .i1⟩) main_call3_v8) (TRef.of (T := ⟨S4096x256x1x1, .i1⟩) main_call3_v11) (TRef.of (T := ⟨S4096x256x1x1, .i1⟩) main_call3_v12) andi ]

/-- Stage 4r: the conjunction reduced over the unit axis. -/
abbrev ops4r : List (HloOp τ sig (Elt F)) :=
  [ TRef.nullary (TRef.of (T := ⟨S_, .i1⟩) main_call3_c_3) (constantI S_ 1 1#1),
    TRef.binary (TRef.of (T := ⟨S4096x256x1x1, .i1⟩) main_call3_v12) (TRef.of (T := ⟨S_, .i1⟩) main_call3_c_3) (TRef.of (T := ⟨S4096x256x1, .i1⟩) main_call3_v13) (fun x v => Host.reduce IntOp.andi x v reducesTo_S4096x256x1x1_S4096x256x1_d3 h_S_) ]

/-- Stage 4g: the gather. -/
abbrev ops4g : List (HloOp τ sig (Elt F)) :=
  [ TRef.binary (TRef.of (T := ⟨S128x256x16, .f32⟩) main_call3_v6) (TRef.of (T := ⟨S4096x256x1x1, .i32⟩) main_call3_v5) (TRef.of (T := ⟨S4096x128x256x1, .f32⟩) main_call3_v14) (fun x i => Host.gather gather_S128x256x16_S4096x256x1x1_S4096x128x256x1_1_2_1_1_2_3_12811 x i) ]

/-- Stage 4s: the mask broadcast and the select against the filler. -/
abbrev ops4s : List (HloOp τ sig (Elt F)) :=
  [ TRef.unary (TRef.of (T := ⟨S4096x256x1, .i1⟩) main_call3_v13) (TRef.of (T := ⟨S4096x128x256x1, .i1⟩) main_call3_v15) (broadcastInDim S4096x128x256x1 ![0, 2, 3] bcast_S4096x256x1_S4096x128x256x1_0_2_3),
    TRef.nullary (TRef.of (T := ⟨S_, .f32⟩) main_call3_cst) (constant S_ .f32 0x7FC00000#32),
    TRef.unary (TRef.of (T := ⟨S_, .f32⟩) main_call3_cst) (TRef.of (T := ⟨S4096x128x256x1, .f32⟩) main_call3_v16) (broadcastInDim S4096x128x256x1 ![] bcast_S_S4096x128x256x1),
    TRef.ternary (TRef.of (T := ⟨S4096x128x256x1, .i1⟩) main_call3_v15) (TRef.of (T := ⟨S4096x128x256x1, .f32⟩) main_call3_v14) (TRef.of (T := ⟨S4096x128x256x1, .f32⟩) main_call3_v16) (TRef.of (T := ⟨S4096x128x256x1, .f32⟩) main_v20) select ]

/-- Stage 4e: the right values re-laid. -/
abbrev ops4e : List (HloOp τ sig (Elt F)) :=
  [ reshape main_v20 main_v21 rfl shapeCasts_S4096x128x256x1_S4096x128x256 ]

/-- Stage 5: the blend. -/
abbrev ops5 : List (HloOp τ sig (Elt F)) :=
  [ nullary main_cst_6 (constant S_ .f32 0x3F800000#32),
    unary main_cst_6 main_v22 (broadcastInDim S4096x1x256 ![] bcast_S_S4096x1x256 : (⟨S_, .f32⟩ : BufTy).Contents (Elt F) → (⟨S4096x1x256, .f32⟩ : BufTy).Contents (Elt F)),
    binary main_v22 main_v12 main_v23 (subf : (⟨S4096x1x256, .f32⟩ : BufTy).Contents (Elt F) → (⟨S4096x1x256, .f32⟩ : BufTy).Contents (Elt F) → (⟨S4096x1x256, .f32⟩ : BufTy).Contents (Elt F)),
    unary main_v23 main_v24 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v24 main_v16 main_v25 (mulf : (⟨S4096x128x256, .f32⟩ : BufTy).Contents (Elt F) → (⟨S4096x128x256, .f32⟩ : BufTy).Contents (Elt F) → (⟨S4096x128x256, .f32⟩ : BufTy).Contents (Elt F)),
    unary main_v12 main_v26 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v26 main_v21 main_v27 (mulf : (⟨S4096x128x256, .f32⟩ : BufTy).Contents (Elt F) → (⟨S4096x128x256, .f32⟩ : BufTy).Contents (Elt F) → (⟨S4096x128x256, .f32⟩ : BufTy).Contents (Elt F)),
    binary main_v25 main_v27 main_v28 (addf : (⟨S4096x128x256, .f32⟩ : BufTy).Contents (Elt F) → (⟨S4096x128x256, .f32⟩ : BufTy).Contents (Elt F) → (⟨S4096x128x256, .f32⟩ : BufTy).Contents (Elt F)) ]

/-- Stage 6: silu, the two scaled terms and their sum over the inputs: the result. -/
abbrev ops6 : List (HloOp τ sig (Elt F)) :=
  [ TRef.unary (TRef.of (T := ⟨S4096x256, .f32⟩) main_arg0) (TRef.of (T := ⟨S4096x256, .f32⟩) main_call4_v0) Host.negf,
    TRef.unary (TRef.of (T := ⟨S4096x256, .f32⟩) main_call4_v0) (TRef.of (T := ⟨S4096x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x256, .f32⟩) main_call4_v2) (broadcastInDim S4096x256 ![] bcast_S_S4096x256),
    TRef.binary (TRef.of (T := ⟨S4096x256, .f32⟩) main_call4_v2) (TRef.of (T := ⟨S4096x256, .f32⟩) main_call4_v1) (TRef.of (T := ⟨S4096x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x256, .f32⟩) main_call4_v4) (broadcastInDim S4096x256 ![] bcast_S_S4096x256),
    TRef.binary (TRef.of (T := ⟨S4096x256, .f32⟩) main_call4_v4) (TRef.of (T := ⟨S4096x256, .f32⟩) main_call4_v3) (TRef.of (T := ⟨S4096x256, .f32⟩) main_call4_v5) Host.divf,
    TRef.binary (TRef.of (T := ⟨S4096x256, .f32⟩) main_arg0) (TRef.of (T := ⟨S4096x256, .f32⟩) main_call4_v5) (TRef.of (T := ⟨S4096x256, .f32⟩) main_v29) mulf,
    unary main_v29 main_v30 (broadcastInDim S4096x1x256 ![0, 2] bcast_S4096x256_S4096x1x256_0_2 : (⟨S4096x256, .f32⟩ : BufTy).Contents (Elt F) → (⟨S4096x1x256, .f32⟩ : BufTy).Contents (Elt F)),
    unary main_arg2 main_v31 (broadcastInDim S1x128x256 ![1, 2] bcast_S128x256_S1x128x256_1_2 : (⟨S128x256, .f32⟩ : BufTy).Contents (Elt F) → (⟨S1x128x256, .f32⟩ : BufTy).Contents (Elt F)),
    unary main_v31 main_v32 (broadcastInDim S4096x128x256 ![0, 1, 2] bcast_S1x128x256_S4096x128x256_0_1_2 : (⟨S1x128x256, .f32⟩ : BufTy).Contents (Elt F) → (⟨S4096x128x256, .f32⟩ : BufTy).Contents (Elt F)),
    unary main_v30 main_v33 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v32 main_v33 main_v34 (mulf : (⟨S4096x128x256, .f32⟩ : BufTy).Contents (Elt F) → (⟨S4096x128x256, .f32⟩ : BufTy).Contents (Elt F) → (⟨S4096x128x256, .f32⟩ : BufTy).Contents (Elt F)),
    unary main_arg3 main_v35 (broadcastInDim S1x128x256 ![1, 2] bcast_S128x256_S1x128x256_1_2 : (⟨S128x256, .f32⟩ : BufTy).Contents (Elt F) → (⟨S1x128x256, .f32⟩ : BufTy).Contents (Elt F)),
    unary main_v35 main_v36 (broadcastInDim S4096x128x256 ![0, 1, 2] bcast_S1x128x256_S4096x128x256_0_1_2 : (⟨S1x128x256, .f32⟩ : BufTy).Contents (Elt F) → (⟨S4096x128x256, .f32⟩ : BufTy).Contents (Elt F)),
    binary main_v36 main_v28 main_v37 (mulf : (⟨S4096x128x256, .f32⟩ : BufTy).Contents (Elt F) → (⟨S4096x128x256, .f32⟩ : BufTy).Contents (Elt F) → (⟨S4096x128x256, .f32⟩ : BufTy).Contents (Elt F)),
    binary main_v34 main_v37 main_v38 (addf : (⟨S4096x128x256, .f32⟩ : BufTy).Contents (Elt F) → (⟨S4096x128x256, .f32⟩ : BufTy).Contents (Elt F) → (⟨S4096x128x256, .f32⟩ : BufTy).Contents (Elt F)),
    nullary main_cst_7 (constant S_ .f32 0x00000000#32),
    binary main_v38 main_cst_7 main_v39 ((fun x v => Host.reduceAdd x v reducesTo_S4096x128x256_S4096x128_d2 h_S_) : (⟨S4096x128x256, .f32⟩ : BufTy).Contents (Elt F) → (⟨S_, .f32⟩ : BufTy).Contents (Elt F) → (⟨S4096x128, .f32⟩ : BufTy).Contents (Elt F)) ]

set_option maxHeartbeats 4000000 in
/-- The line is its stages in order. -/
theorem ops_eq : (Cert.ReferenceIdeal.ValueP.ops : List (HloOp τ sig (Elt F))) = ops1 ++ ops2 ++ ops3a ++ ops3b ++ ops3c ++ ops3d ++ ops3r ++ ops3g ++ ops3s ++ ops3e ++ ops4a ++ ops4w ++ ops4b ++ ops4c ++ ops4d ++ ops4r ++ ops4g ++ ops4s ++ ops4e ++ ops5 ++ ops6 := by
  simp only [ops1, ops2, ops3a, ops3b, ops3c, ops3d, ops3r, ops3g, ops3s, ops3e, ops4a, ops4w, ops4b, ops4c, ops4d, ops4r, ops4g, ops4s, ops4e, ops5, ops6, List.cons_append, List.nil_append]

/-! ## What each stage leaves: from the named values it reads, the named values it writes -/

set_option maxHeartbeats 2000000 in
theorem stage1_main_v6 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_arg0 : W (Proc.devRef .tc main_arg0) = x0) :
    after ops1 W (Proc.devRef .tc main_v6) = val_main_v6 (F := F) x0 := by
  subst h_main_arg0
  after_results_simp
  try simp only [tb_main_cst, ob_main_cst, tb_main_call0_v0, ob_main_call0_v0, tb_main_call0_v1, ob_main_call0_v1, tb_main_arg0, ob_main_arg0, tb_main_call0_v2, ob_main_call0_v2, tb_main_cst_0, ob_main_cst_0, tb_main_call0_v3, ob_main_call0_v3, tb_main_call0_v4, ob_main_call0_v4, tb_main_v0, ob_main_v0]
  rfl

set_option maxHeartbeats 2000000 in
theorem stage2_main_v12 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v6 : W (Proc.devRef .tc main_v6) = val_main_v6 (F := F) x0) (h_main_arg1 : W (Proc.devRef .tc main_arg1) = x1) :
    after ops2 W (Proc.devRef .tc main_v12) = val_main_v12 (F := F) x0 := by
  subst h_main_arg1
  after_results_simp
  try simp only [tb_main_c, ob_main_c, tb_main_call1_v0, ob_main_call1_v0, tb_main_call1_v1, ob_main_call1_v1, tb_main_v8, ob_main_v8, tb_main_call1_v2, ob_main_call1_v2, tb_main_c_4, ob_main_c_4, tb_main_call1_v3, ob_main_call1_v3, tb_main_call1_v4, ob_main_call1_v4, tb_main_v9, ob_main_v9]
  try rw [h_main_v6]
  rfl

set_option maxHeartbeats 2000000 in
theorem stage2_main_v13 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v6 : W (Proc.devRef .tc main_v6) = val_main_v6 (F := F) x0) (h_main_arg1 : W (Proc.devRef .tc main_arg1) = x1) :
    after ops2 W (Proc.devRef .tc main_v13) = val_main_v13 (F := F) x0 := by
  subst h_main_arg1
  after_results_simp
  try simp only [tb_main_c, ob_main_c, tb_main_call1_v0, ob_main_call1_v0, tb_main_call1_v1, ob_main_call1_v1, tb_main_v8, ob_main_v8, tb_main_call1_v2, ob_main_call1_v2, tb_main_c_4, ob_main_c_4, tb_main_call1_v3, ob_main_call1_v3, tb_main_call1_v4, ob_main_call1_v4, tb_main_v9, ob_main_v9]
  try rw [h_main_v6]
  rfl

set_option maxHeartbeats 2000000 in
theorem stage2_main_v14 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v6 : W (Proc.devRef .tc main_v6) = val_main_v6 (F := F) x0) (h_main_arg1 : W (Proc.devRef .tc main_arg1) = x1) :
    after ops2 W (Proc.devRef .tc main_v14) = val_main_v14 (F := F) x1 := by
  subst h_main_arg1
  after_results_simp
  try simp only [tb_main_c, ob_main_c, tb_main_call1_v0, ob_main_call1_v0, tb_main_call1_v1, ob_main_call1_v1, tb_main_v8, ob_main_v8, tb_main_call1_v2, ob_main_call1_v2, tb_main_c_4, ob_main_c_4, tb_main_call1_v3, ob_main_call1_v3, tb_main_call1_v4, ob_main_call1_v4, tb_main_v9, ob_main_v9]
  try rw [h_main_v6]
  rfl

set_option maxHeartbeats 2000000 in
theorem stage3a_main_call2_v4 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v13 : W (Proc.devRef .tc main_v13) = val_main_v13 (F := F) x0) :
    after ops3a W (Proc.devRef .tc main_call2_v4) = val_main_call2_v4 (F := F) x0 := by
  after_results_simp
  try simp only [tb_main_call2_c, ob_main_call2_c, tb_main_call2_v0, ob_main_call2_v0, tb_main_v13, ob_main_v13, tb_main_call2_v1, ob_main_call2_v1, tb_main_call2_c_0, ob_main_call2_c_0, tb_main_call2_v2, ob_main_call2_v2, tb_main_call2_v3, ob_main_call2_v3, tb_main_call2_v4, ob_main_call2_v4]
  try rw [h_main_v13]
  rfl

set_option maxHeartbeats 2000000 in
theorem stage3b_main_call2_v5 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call2_v4 : W (Proc.devRef .tc main_call2_v4) = val_main_call2_v4 (F := F) x0) :
    after ops3b W (Proc.devRef .tc main_call2_v5) = val_main_call2_v5 (F := F) x0 := by
  after_results_simp
  try simp only [tb_main_call2_v4, ob_main_call2_v4, tb_main_call2_v5, ob_main_call2_v5]
  try rw [h_main_call2_v4]
  rfl

set_option maxHeartbeats 2000000 in
theorem stage3c_main_call2_v6 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v14 : W (Proc.devRef .tc main_v14) = val_main_v14 (F := F) x1) :
    after ops3c W (Proc.devRef .tc main_call2_v6) = val_main_call2_v6 (F := F) x1 := by
  after_results_simp
  try simp only [tb_main_v14, ob_main_v14, tb_main_call2_v6, ob_main_call2_v6]
  try rw [h_main_v14]
  rfl

set_option maxHeartbeats 2000000 in
theorem stage3d_main_call2_v12 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call2_v5 : W (Proc.devRef .tc main_call2_v5) = val_main_call2_v5 (F := F) x0) :
    after ops3d W (Proc.devRef .tc main_call2_v12) = val_main_call2_v12 (F := F) x0 := by
  after_results_simp
  try simp only [tb_main_call2_c_1, ob_main_call2_c_1, tb_main_call2_c_2, ob_main_call2_c_2, tb_main_call2_v7, ob_main_call2_v7, tb_main_call2_v5, ob_main_call2_v5, tb_main_call2_v8, ob_main_call2_v8, tb_main_call2_v9, ob_main_call2_v9, tb_main_call2_v10, ob_main_call2_v10, tb_main_call2_v11, ob_main_call2_v11, tb_main_call2_v12, ob_main_call2_v12]
  try rw [h_main_call2_v5]
  rfl

set_option maxHeartbeats 2000000 in
theorem stage3r_main_call2_v13 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call2_v12 : W (Proc.devRef .tc main_call2_v12) = val_main_call2_v12 (F := F) x0) :
    after ops3r W (Proc.devRef .tc main_call2_v13) = val_main_call2_v13 (F := F) x0 := by
  after_results_simp
  try simp only [tb_main_call2_c_3, ob_main_call2_c_3, tb_main_call2_v12, ob_main_call2_v12, tb_main_call2_v13, ob_main_call2_v13]
  try rw [h_main_call2_v12]
  rfl

set_option maxHeartbeats 2000000 in
theorem stage3g_main_call2_v14 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call2_v6 : W (Proc.devRef .tc main_call2_v6) = val_main_call2_v6 (F := F) x1) (h_main_call2_v5 : W (Proc.devRef .tc main_call2_v5) = val_main_call2_v5 (F := F) x0) :
    after ops3g W (Proc.devRef .tc main_call2_v14) = val_main_call2_v14 (F := F) x0 x1 := by
  after_results_simp
  try simp only [tb_main_call2_v6, ob_main_call2_v6, tb_main_call2_v5, ob_main_call2_v5, tb_main_call2_v14, ob_main_call2_v14]
  try rw [h_main_call2_v6]
  try rw [h_main_call2_v5]
  rfl

set_option maxHeartbeats 2000000 in
theorem stage3s_main_v15 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call2_v13 : W (Proc.devRef .tc main_call2_v13) = val_main_call2_v13 (F := F) x0) (h_main_call2_v14 : W (Proc.devRef .tc main_call2_v14) = val_main_call2_v14 (F := F) x0 x1) :
    after ops3s W (Proc.devRef .tc main_v15) = val_main_v15 (F := F) x0 x1 := by
  after_results_simp
  try simp only [tb_main_call2_v13, ob_main_call2_v13, tb_main_call2_v15, ob_main_call2_v15, tb_main_call2_cst, ob_main_call2_cst, tb_main_call2_v16, ob_main_call2_v16, tb_main_call2_v14, ob_main_call2_v14, tb_main_v15, ob_main_v15]
  try rw [h_main_call2_v13]
  try rw [h_main_call2_v14]
  rfl

set_option maxHeartbeats 2000000 in
theorem stage3e_main_v16 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v15 : W (Proc.devRef .tc main_v15) = val_main_v15 (F := F) x0 x1) :
    after ops3e W (Proc.devRef .tc main_v16) = val_main_v16 (F := F) x0 x1 := by
  after_results_simp
  try rw [h_main_v15]
  rfl

set_option maxHeartbeats 2000000 in
theorem stage4a_main_v17 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_arg1 : W (Proc.devRef .tc main_arg1) = x1) (h_main_v13 : W (Proc.devRef .tc main_v13) = val_main_v13 (F := F) x0) :
    after ops4a W (Proc.devRef .tc main_v17) = val_main_v17 (F := F) x1 := by
  subst h_main_arg1
  after_results_simp
  try rw [h_main_v13]
  rfl

set_option maxHeartbeats 2000000 in
theorem stage4a_main_v19 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_arg1 : W (Proc.devRef .tc main_arg1) = x1) (h_main_v13 : W (Proc.devRef .tc main_v13) = val_main_v13 (F := F) x0) :
    after ops4a W (Proc.devRef .tc main_v19) = val_main_v19 (F := F) x0 := by
  subst h_main_arg1
  after_results_simp
  try rw [h_main_v13]
  rfl

set_option maxHeartbeats 2000000 in
theorem stage4w_main_call3_v4 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v19 : W (Proc.devRef .tc main_v19) = val_main_v19 (F := F) x0) :
    after ops4w W (Proc.devRef .tc main_call3_v4) = val_main_call3_v4 (F := F) x0 := by
  after_results_simp
  try simp only [tb_main_call3_c, ob_main_call3_c, tb_main_call3_v0, ob_main_call3_v0, tb_main_v19, ob_main_v19, tb_main_call3_v1, ob_main_call3_v1, tb_main_call3_c_0, ob_main_call3_c_0, tb_main_call3_v2, ob_main_call3_v2, tb_main_call3_v3, ob_main_call3_v3, tb_main_call3_v4, ob_main_call3_v4]
  try rw [h_main_v19]
  rfl

set_option maxHeartbeats 2000000 in
theorem stage4b_main_call3_v5 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call3_v4 : W (Proc.devRef .tc main_call3_v4) = val_main_call3_v4 (F := F) x0) :
    after ops4b W (Proc.devRef .tc main_call3_v5) = val_main_call3_v5 (F := F) x0 := by
  after_results_simp
  try simp only [tb_main_call3_v4, ob_main_call3_v4, tb_main_call3_v5, ob_main_call3_v5]
  try rw [h_main_call3_v4]
  rfl

set_option maxHeartbeats 2000000 in
theorem stage4c_main_call3_v6 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v17 : W (Proc.devRef .tc main_v17) = val_main_v17 (F := F) x1) :
    after ops4c W (Proc.devRef .tc main_call3_v6) = val_main_call3_v6 (F := F) x1 := by
  after_results_simp
  try simp only [tb_main_v17, ob_main_v17, tb_main_call3_v6, ob_main_call3_v6]
  try rw [h_main_v17]
  rfl

set_option maxHeartbeats 2000000 in
theorem stage4d_main_call3_v12 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call3_v5 : W (Proc.devRef .tc main_call3_v5) = val_main_call3_v5 (F := F) x0) :
    after ops4d W (Proc.devRef .tc main_call3_v12) = val_main_call3_v12 (F := F) x0 := by
  after_results_simp
  try simp only [tb_main_call3_c_1, ob_main_call3_c_1, tb_main_call3_c_2, ob_main_call3_c_2, tb_main_call3_v7, ob_main_call3_v7, tb_main_call3_v5, ob_main_call3_v5, tb_main_call3_v8, ob_main_call3_v8, tb_main_call3_v9, ob_main_call3_v9, tb_main_call3_v10, ob_main_call3_v10, tb_main_call3_v11, ob_main_call3_v11, tb_main_call3_v12, ob_main_call3_v12]
  try rw [h_main_call3_v5]
  rfl

set_option maxHeartbeats 2000000 in
theorem stage4r_main_call3_v13 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call3_v12 : W (Proc.devRef .tc main_call3_v12) = val_main_call3_v12 (F := F) x0) :
    after ops4r W (Proc.devRef .tc main_call3_v13) = val_main_call3_v13 (F := F) x0 := by
  after_results_simp
  try simp only [tb_main_call3_c_3, ob_main_call3_c_3, tb_main_call3_v12, ob_main_call3_v12, tb_main_call3_v13, ob_main_call3_v13]
  try rw [h_main_call3_v12]
  rfl

set_option maxHeartbeats 2000000 in
theorem stage4g_main_call3_v14 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call3_v6 : W (Proc.devRef .tc main_call3_v6) = val_main_call3_v6 (F := F) x1) (h_main_call3_v5 : W (Proc.devRef .tc main_call3_v5) = val_main_call3_v5 (F := F) x0) :
    after ops4g W (Proc.devRef .tc main_call3_v14) = val_main_call3_v14 (F := F) x0 x1 := by
  after_results_simp
  try simp only [tb_main_call3_v6, ob_main_call3_v6, tb_main_call3_v5, ob_main_call3_v5, tb_main_call3_v14, ob_main_call3_v14]
  try rw [h_main_call3_v6]
  try rw [h_main_call3_v5]
  rfl

set_option maxHeartbeats 2000000 in
theorem stage4s_main_v20 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_call3_v13 : W (Proc.devRef .tc main_call3_v13) = val_main_call3_v13 (F := F) x0) (h_main_call3_v14 : W (Proc.devRef .tc main_call3_v14) = val_main_call3_v14 (F := F) x0 x1) :
    after ops4s W (Proc.devRef .tc main_v20) = val_main_v20 (F := F) x0 x1 := by
  after_results_simp
  try simp only [tb_main_call3_v13, ob_main_call3_v13, tb_main_call3_v15, ob_main_call3_v15, tb_main_call3_cst, ob_main_call3_cst, tb_main_call3_v16, ob_main_call3_v16, tb_main_call3_v14, ob_main_call3_v14, tb_main_v20, ob_main_v20]
  try rw [h_main_call3_v13]
  try rw [h_main_call3_v14]
  rfl

set_option maxHeartbeats 2000000 in
theorem stage4e_main_v21 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v20 : W (Proc.devRef .tc main_v20) = val_main_v20 (F := F) x0 x1) :
    after ops4e W (Proc.devRef .tc main_v21) = val_main_v21 (F := F) x0 x1 := by
  after_results_simp
  try rw [h_main_v20]
  rfl

set_option maxHeartbeats 2000000 in
theorem stage5_main_v28 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_v12 : W (Proc.devRef .tc main_v12) = val_main_v12 (F := F) x0) (h_main_v16 : W (Proc.devRef .tc main_v16) = val_main_v16 (F := F) x0 x1) (h_main_v21 : W (Proc.devRef .tc main_v21) = val_main_v21 (F := F) x0 x1) :
    after ops5 W (Proc.devRef .tc main_v28) = val_main_v28 (F := F) x0 x1 := by
  after_results_simp
  try rw [h_main_v12]
  try rw [h_main_v16]
  try rw [h_main_v21]
  rfl

set_option maxHeartbeats 2000000 in
theorem stage6_main_v39 (W : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (h_main_arg0 : W (Proc.devRef .tc main_arg0) = x0) (h_main_arg2 : W (Proc.devRef .tc main_arg2) = x2) (h_main_arg3 : W (Proc.devRef .tc main_arg3) = x3) (h_main_v28 : W (Proc.devRef .tc main_v28) = val_main_v28 (F := F) x0 x1) :
    after ops6 W (Proc.devRef .tc main_v39) = val_main_v39 (F := F) x0 x1 x2 x3 := by
  subst h_main_arg0
  subst h_main_arg2
  subst h_main_arg3
  after_results_simp
  try simp only [tb_main_arg0, ob_main_arg0, tb_main_call4_v0, ob_main_call4_v0, tb_main_call4_v1, ob_main_call4_v1, tb_main_call4_cst, ob_main_call4_cst, tb_main_call4_v2, ob_main_call4_v2, tb_main_call4_v3, ob_main_call4_v3, tb_main_call4_cst_0, ob_main_call4_cst_0, tb_main_call4_v4, ob_main_call4_v4, tb_main_call4_v5, ob_main_call4_v5, tb_main_v29, ob_main_v29]
  try rw [h_main_v28]
  rfl

/-! ## What each stage keeps: a buffer it does not write -/

theorem keep1_main_arg0 (W : Valuation τ sig (Elt F)) : after ops1 W (Proc.devRef .tc main_arg0) = W (Proc.devRef .tc main_arg0) := by after_results_simp
theorem keep1_main_arg1 (W : Valuation τ sig (Elt F)) : after ops1 W (Proc.devRef .tc main_arg1) = W (Proc.devRef .tc main_arg1) := by after_results_simp
theorem keep1_main_arg2 (W : Valuation τ sig (Elt F)) : after ops1 W (Proc.devRef .tc main_arg2) = W (Proc.devRef .tc main_arg2) := by after_results_simp
theorem keep1_main_arg3 (W : Valuation τ sig (Elt F)) : after ops1 W (Proc.devRef .tc main_arg3) = W (Proc.devRef .tc main_arg3) := by after_results_simp
theorem keep2_main_arg0 (W : Valuation τ sig (Elt F)) : after ops2 W (Proc.devRef .tc main_arg0) = W (Proc.devRef .tc main_arg0) := by after_results_simp
theorem keep2_main_arg1 (W : Valuation τ sig (Elt F)) : after ops2 W (Proc.devRef .tc main_arg1) = W (Proc.devRef .tc main_arg1) := by after_results_simp
theorem keep2_main_arg2 (W : Valuation τ sig (Elt F)) : after ops2 W (Proc.devRef .tc main_arg2) = W (Proc.devRef .tc main_arg2) := by after_results_simp
theorem keep2_main_arg3 (W : Valuation τ sig (Elt F)) : after ops2 W (Proc.devRef .tc main_arg3) = W (Proc.devRef .tc main_arg3) := by after_results_simp
theorem keep3a_main_v12 (W : Valuation τ sig (Elt F)) : after ops3a W (Proc.devRef .tc main_v12) = W (Proc.devRef .tc main_v12) := by after_results_simp
theorem keep3a_main_v13 (W : Valuation τ sig (Elt F)) : after ops3a W (Proc.devRef .tc main_v13) = W (Proc.devRef .tc main_v13) := by after_results_simp
theorem keep3a_main_v14 (W : Valuation τ sig (Elt F)) : after ops3a W (Proc.devRef .tc main_v14) = W (Proc.devRef .tc main_v14) := by after_results_simp
theorem keep3a_main_arg0 (W : Valuation τ sig (Elt F)) : after ops3a W (Proc.devRef .tc main_arg0) = W (Proc.devRef .tc main_arg0) := by after_results_simp
theorem keep3a_main_arg1 (W : Valuation τ sig (Elt F)) : after ops3a W (Proc.devRef .tc main_arg1) = W (Proc.devRef .tc main_arg1) := by after_results_simp
theorem keep3a_main_arg2 (W : Valuation τ sig (Elt F)) : after ops3a W (Proc.devRef .tc main_arg2) = W (Proc.devRef .tc main_arg2) := by after_results_simp
theorem keep3a_main_arg3 (W : Valuation τ sig (Elt F)) : after ops3a W (Proc.devRef .tc main_arg3) = W (Proc.devRef .tc main_arg3) := by after_results_simp
theorem keep3b_main_v12 (W : Valuation τ sig (Elt F)) : after ops3b W (Proc.devRef .tc main_v12) = W (Proc.devRef .tc main_v12) := by after_results_simp
theorem keep3b_main_v13 (W : Valuation τ sig (Elt F)) : after ops3b W (Proc.devRef .tc main_v13) = W (Proc.devRef .tc main_v13) := by after_results_simp
theorem keep3b_main_v14 (W : Valuation τ sig (Elt F)) : after ops3b W (Proc.devRef .tc main_v14) = W (Proc.devRef .tc main_v14) := by after_results_simp
theorem keep3b_main_arg0 (W : Valuation τ sig (Elt F)) : after ops3b W (Proc.devRef .tc main_arg0) = W (Proc.devRef .tc main_arg0) := by after_results_simp
theorem keep3b_main_arg1 (W : Valuation τ sig (Elt F)) : after ops3b W (Proc.devRef .tc main_arg1) = W (Proc.devRef .tc main_arg1) := by after_results_simp
theorem keep3b_main_arg2 (W : Valuation τ sig (Elt F)) : after ops3b W (Proc.devRef .tc main_arg2) = W (Proc.devRef .tc main_arg2) := by after_results_simp
theorem keep3b_main_arg3 (W : Valuation τ sig (Elt F)) : after ops3b W (Proc.devRef .tc main_arg3) = W (Proc.devRef .tc main_arg3) := by after_results_simp
theorem keep3c_main_call2_v5 (W : Valuation τ sig (Elt F)) : after ops3c W (Proc.devRef .tc main_call2_v5) = W (Proc.devRef .tc main_call2_v5) := by after_results_simp
theorem keep3c_main_v12 (W : Valuation τ sig (Elt F)) : after ops3c W (Proc.devRef .tc main_v12) = W (Proc.devRef .tc main_v12) := by after_results_simp
theorem keep3c_main_v13 (W : Valuation τ sig (Elt F)) : after ops3c W (Proc.devRef .tc main_v13) = W (Proc.devRef .tc main_v13) := by after_results_simp
theorem keep3c_main_arg0 (W : Valuation τ sig (Elt F)) : after ops3c W (Proc.devRef .tc main_arg0) = W (Proc.devRef .tc main_arg0) := by after_results_simp
theorem keep3c_main_arg1 (W : Valuation τ sig (Elt F)) : after ops3c W (Proc.devRef .tc main_arg1) = W (Proc.devRef .tc main_arg1) := by after_results_simp
theorem keep3c_main_arg2 (W : Valuation τ sig (Elt F)) : after ops3c W (Proc.devRef .tc main_arg2) = W (Proc.devRef .tc main_arg2) := by after_results_simp
theorem keep3c_main_arg3 (W : Valuation τ sig (Elt F)) : after ops3c W (Proc.devRef .tc main_arg3) = W (Proc.devRef .tc main_arg3) := by after_results_simp
theorem keep3d_main_call2_v6 (W : Valuation τ sig (Elt F)) : after ops3d W (Proc.devRef .tc main_call2_v6) = W (Proc.devRef .tc main_call2_v6) := by after_results_simp
theorem keep3d_main_call2_v5 (W : Valuation τ sig (Elt F)) : after ops3d W (Proc.devRef .tc main_call2_v5) = W (Proc.devRef .tc main_call2_v5) := by after_results_simp
theorem keep3d_main_v12 (W : Valuation τ sig (Elt F)) : after ops3d W (Proc.devRef .tc main_v12) = W (Proc.devRef .tc main_v12) := by after_results_simp
theorem keep3d_main_v13 (W : Valuation τ sig (Elt F)) : after ops3d W (Proc.devRef .tc main_v13) = W (Proc.devRef .tc main_v13) := by after_results_simp
theorem keep3d_main_arg0 (W : Valuation τ sig (Elt F)) : after ops3d W (Proc.devRef .tc main_arg0) = W (Proc.devRef .tc main_arg0) := by after_results_simp
theorem keep3d_main_arg1 (W : Valuation τ sig (Elt F)) : after ops3d W (Proc.devRef .tc main_arg1) = W (Proc.devRef .tc main_arg1) := by after_results_simp
theorem keep3d_main_arg2 (W : Valuation τ sig (Elt F)) : after ops3d W (Proc.devRef .tc main_arg2) = W (Proc.devRef .tc main_arg2) := by after_results_simp
theorem keep3d_main_arg3 (W : Valuation τ sig (Elt F)) : after ops3d W (Proc.devRef .tc main_arg3) = W (Proc.devRef .tc main_arg3) := by after_results_simp
theorem keep3r_main_call2_v6 (W : Valuation τ sig (Elt F)) : after ops3r W (Proc.devRef .tc main_call2_v6) = W (Proc.devRef .tc main_call2_v6) := by after_results_simp
theorem keep3r_main_call2_v5 (W : Valuation τ sig (Elt F)) : after ops3r W (Proc.devRef .tc main_call2_v5) = W (Proc.devRef .tc main_call2_v5) := by after_results_simp
theorem keep3r_main_v12 (W : Valuation τ sig (Elt F)) : after ops3r W (Proc.devRef .tc main_v12) = W (Proc.devRef .tc main_v12) := by after_results_simp
theorem keep3r_main_v13 (W : Valuation τ sig (Elt F)) : after ops3r W (Proc.devRef .tc main_v13) = W (Proc.devRef .tc main_v13) := by after_results_simp
theorem keep3r_main_arg0 (W : Valuation τ sig (Elt F)) : after ops3r W (Proc.devRef .tc main_arg0) = W (Proc.devRef .tc main_arg0) := by after_results_simp
theorem keep3r_main_arg1 (W : Valuation τ sig (Elt F)) : after ops3r W (Proc.devRef .tc main_arg1) = W (Proc.devRef .tc main_arg1) := by after_results_simp
theorem keep3r_main_arg2 (W : Valuation τ sig (Elt F)) : after ops3r W (Proc.devRef .tc main_arg2) = W (Proc.devRef .tc main_arg2) := by after_results_simp
theorem keep3r_main_arg3 (W : Valuation τ sig (Elt F)) : after ops3r W (Proc.devRef .tc main_arg3) = W (Proc.devRef .tc main_arg3) := by after_results_simp
theorem keep3g_main_call2_v13 (W : Valuation τ sig (Elt F)) : after ops3g W (Proc.devRef .tc main_call2_v13) = W (Proc.devRef .tc main_call2_v13) := by after_results_simp
theorem keep3g_main_v12 (W : Valuation τ sig (Elt F)) : after ops3g W (Proc.devRef .tc main_v12) = W (Proc.devRef .tc main_v12) := by after_results_simp
theorem keep3g_main_v13 (W : Valuation τ sig (Elt F)) : after ops3g W (Proc.devRef .tc main_v13) = W (Proc.devRef .tc main_v13) := by after_results_simp
theorem keep3g_main_arg0 (W : Valuation τ sig (Elt F)) : after ops3g W (Proc.devRef .tc main_arg0) = W (Proc.devRef .tc main_arg0) := by after_results_simp
theorem keep3g_main_arg1 (W : Valuation τ sig (Elt F)) : after ops3g W (Proc.devRef .tc main_arg1) = W (Proc.devRef .tc main_arg1) := by after_results_simp
theorem keep3g_main_arg2 (W : Valuation τ sig (Elt F)) : after ops3g W (Proc.devRef .tc main_arg2) = W (Proc.devRef .tc main_arg2) := by after_results_simp
theorem keep3g_main_arg3 (W : Valuation τ sig (Elt F)) : after ops3g W (Proc.devRef .tc main_arg3) = W (Proc.devRef .tc main_arg3) := by after_results_simp
theorem keep3s_main_v12 (W : Valuation τ sig (Elt F)) : after ops3s W (Proc.devRef .tc main_v12) = W (Proc.devRef .tc main_v12) := by after_results_simp
theorem keep3s_main_v13 (W : Valuation τ sig (Elt F)) : after ops3s W (Proc.devRef .tc main_v13) = W (Proc.devRef .tc main_v13) := by after_results_simp
theorem keep3s_main_arg0 (W : Valuation τ sig (Elt F)) : after ops3s W (Proc.devRef .tc main_arg0) = W (Proc.devRef .tc main_arg0) := by after_results_simp
theorem keep3s_main_arg1 (W : Valuation τ sig (Elt F)) : after ops3s W (Proc.devRef .tc main_arg1) = W (Proc.devRef .tc main_arg1) := by after_results_simp
theorem keep3s_main_arg2 (W : Valuation τ sig (Elt F)) : after ops3s W (Proc.devRef .tc main_arg2) = W (Proc.devRef .tc main_arg2) := by after_results_simp
theorem keep3s_main_arg3 (W : Valuation τ sig (Elt F)) : after ops3s W (Proc.devRef .tc main_arg3) = W (Proc.devRef .tc main_arg3) := by after_results_simp
theorem keep3e_main_v12 (W : Valuation τ sig (Elt F)) : after ops3e W (Proc.devRef .tc main_v12) = W (Proc.devRef .tc main_v12) := by after_results_simp
theorem keep3e_main_v13 (W : Valuation τ sig (Elt F)) : after ops3e W (Proc.devRef .tc main_v13) = W (Proc.devRef .tc main_v13) := by after_results_simp
theorem keep3e_main_arg0 (W : Valuation τ sig (Elt F)) : after ops3e W (Proc.devRef .tc main_arg0) = W (Proc.devRef .tc main_arg0) := by after_results_simp
theorem keep3e_main_arg1 (W : Valuation τ sig (Elt F)) : after ops3e W (Proc.devRef .tc main_arg1) = W (Proc.devRef .tc main_arg1) := by after_results_simp
theorem keep3e_main_arg2 (W : Valuation τ sig (Elt F)) : after ops3e W (Proc.devRef .tc main_arg2) = W (Proc.devRef .tc main_arg2) := by after_results_simp
theorem keep3e_main_arg3 (W : Valuation τ sig (Elt F)) : after ops3e W (Proc.devRef .tc main_arg3) = W (Proc.devRef .tc main_arg3) := by after_results_simp
theorem keep4a_main_v16 (W : Valuation τ sig (Elt F)) : after ops4a W (Proc.devRef .tc main_v16) = W (Proc.devRef .tc main_v16) := by after_results_simp
theorem keep4a_main_v12 (W : Valuation τ sig (Elt F)) : after ops4a W (Proc.devRef .tc main_v12) = W (Proc.devRef .tc main_v12) := by after_results_simp
theorem keep4a_main_arg0 (W : Valuation τ sig (Elt F)) : after ops4a W (Proc.devRef .tc main_arg0) = W (Proc.devRef .tc main_arg0) := by after_results_simp
theorem keep4a_main_arg2 (W : Valuation τ sig (Elt F)) : after ops4a W (Proc.devRef .tc main_arg2) = W (Proc.devRef .tc main_arg2) := by after_results_simp
theorem keep4a_main_arg3 (W : Valuation τ sig (Elt F)) : after ops4a W (Proc.devRef .tc main_arg3) = W (Proc.devRef .tc main_arg3) := by after_results_simp
theorem keep4w_main_v17 (W : Valuation τ sig (Elt F)) : after ops4w W (Proc.devRef .tc main_v17) = W (Proc.devRef .tc main_v17) := by after_results_simp
theorem keep4w_main_v16 (W : Valuation τ sig (Elt F)) : after ops4w W (Proc.devRef .tc main_v16) = W (Proc.devRef .tc main_v16) := by after_results_simp
theorem keep4w_main_v12 (W : Valuation τ sig (Elt F)) : after ops4w W (Proc.devRef .tc main_v12) = W (Proc.devRef .tc main_v12) := by after_results_simp
theorem keep4w_main_arg0 (W : Valuation τ sig (Elt F)) : after ops4w W (Proc.devRef .tc main_arg0) = W (Proc.devRef .tc main_arg0) := by after_results_simp
theorem keep4w_main_arg2 (W : Valuation τ sig (Elt F)) : after ops4w W (Proc.devRef .tc main_arg2) = W (Proc.devRef .tc main_arg2) := by after_results_simp
theorem keep4w_main_arg3 (W : Valuation τ sig (Elt F)) : after ops4w W (Proc.devRef .tc main_arg3) = W (Proc.devRef .tc main_arg3) := by after_results_simp
theorem keep4b_main_v17 (W : Valuation τ sig (Elt F)) : after ops4b W (Proc.devRef .tc main_v17) = W (Proc.devRef .tc main_v17) := by after_results_simp
theorem keep4b_main_v16 (W : Valuation τ sig (Elt F)) : after ops4b W (Proc.devRef .tc main_v16) = W (Proc.devRef .tc main_v16) := by after_results_simp
theorem keep4b_main_v12 (W : Valuation τ sig (Elt F)) : after ops4b W (Proc.devRef .tc main_v12) = W (Proc.devRef .tc main_v12) := by after_results_simp
theorem keep4b_main_arg0 (W : Valuation τ sig (Elt F)) : after ops4b W (Proc.devRef .tc main_arg0) = W (Proc.devRef .tc main_arg0) := by after_results_simp
theorem keep4b_main_arg2 (W : Valuation τ sig (Elt F)) : after ops4b W (Proc.devRef .tc main_arg2) = W (Proc.devRef .tc main_arg2) := by after_results_simp
theorem keep4b_main_arg3 (W : Valuation τ sig (Elt F)) : after ops4b W (Proc.devRef .tc main_arg3) = W (Proc.devRef .tc main_arg3) := by after_results_simp
theorem keep4c_main_call3_v5 (W : Valuation τ sig (Elt F)) : after ops4c W (Proc.devRef .tc main_call3_v5) = W (Proc.devRef .tc main_call3_v5) := by after_results_simp
theorem keep4c_main_v16 (W : Valuation τ sig (Elt F)) : after ops4c W (Proc.devRef .tc main_v16) = W (Proc.devRef .tc main_v16) := by after_results_simp
theorem keep4c_main_v12 (W : Valuation τ sig (Elt F)) : after ops4c W (Proc.devRef .tc main_v12) = W (Proc.devRef .tc main_v12) := by after_results_simp
theorem keep4c_main_arg0 (W : Valuation τ sig (Elt F)) : after ops4c W (Proc.devRef .tc main_arg0) = W (Proc.devRef .tc main_arg0) := by after_results_simp
theorem keep4c_main_arg2 (W : Valuation τ sig (Elt F)) : after ops4c W (Proc.devRef .tc main_arg2) = W (Proc.devRef .tc main_arg2) := by after_results_simp
theorem keep4c_main_arg3 (W : Valuation τ sig (Elt F)) : after ops4c W (Proc.devRef .tc main_arg3) = W (Proc.devRef .tc main_arg3) := by after_results_simp
theorem keep4d_main_call3_v6 (W : Valuation τ sig (Elt F)) : after ops4d W (Proc.devRef .tc main_call3_v6) = W (Proc.devRef .tc main_call3_v6) := by after_results_simp
theorem keep4d_main_call3_v5 (W : Valuation τ sig (Elt F)) : after ops4d W (Proc.devRef .tc main_call3_v5) = W (Proc.devRef .tc main_call3_v5) := by after_results_simp
theorem keep4d_main_v16 (W : Valuation τ sig (Elt F)) : after ops4d W (Proc.devRef .tc main_v16) = W (Proc.devRef .tc main_v16) := by after_results_simp
theorem keep4d_main_v12 (W : Valuation τ sig (Elt F)) : after ops4d W (Proc.devRef .tc main_v12) = W (Proc.devRef .tc main_v12) := by after_results_simp
theorem keep4d_main_arg0 (W : Valuation τ sig (Elt F)) : after ops4d W (Proc.devRef .tc main_arg0) = W (Proc.devRef .tc main_arg0) := by after_results_simp
theorem keep4d_main_arg2 (W : Valuation τ sig (Elt F)) : after ops4d W (Proc.devRef .tc main_arg2) = W (Proc.devRef .tc main_arg2) := by after_results_simp
theorem keep4d_main_arg3 (W : Valuation τ sig (Elt F)) : after ops4d W (Proc.devRef .tc main_arg3) = W (Proc.devRef .tc main_arg3) := by after_results_simp
theorem keep4r_main_call3_v6 (W : Valuation τ sig (Elt F)) : after ops4r W (Proc.devRef .tc main_call3_v6) = W (Proc.devRef .tc main_call3_v6) := by after_results_simp
theorem keep4r_main_call3_v5 (W : Valuation τ sig (Elt F)) : after ops4r W (Proc.devRef .tc main_call3_v5) = W (Proc.devRef .tc main_call3_v5) := by after_results_simp
theorem keep4r_main_v16 (W : Valuation τ sig (Elt F)) : after ops4r W (Proc.devRef .tc main_v16) = W (Proc.devRef .tc main_v16) := by after_results_simp
theorem keep4r_main_v12 (W : Valuation τ sig (Elt F)) : after ops4r W (Proc.devRef .tc main_v12) = W (Proc.devRef .tc main_v12) := by after_results_simp
theorem keep4r_main_arg0 (W : Valuation τ sig (Elt F)) : after ops4r W (Proc.devRef .tc main_arg0) = W (Proc.devRef .tc main_arg0) := by after_results_simp
theorem keep4r_main_arg2 (W : Valuation τ sig (Elt F)) : after ops4r W (Proc.devRef .tc main_arg2) = W (Proc.devRef .tc main_arg2) := by after_results_simp
theorem keep4r_main_arg3 (W : Valuation τ sig (Elt F)) : after ops4r W (Proc.devRef .tc main_arg3) = W (Proc.devRef .tc main_arg3) := by after_results_simp
theorem keep4g_main_call3_v13 (W : Valuation τ sig (Elt F)) : after ops4g W (Proc.devRef .tc main_call3_v13) = W (Proc.devRef .tc main_call3_v13) := by after_results_simp
theorem keep4g_main_v16 (W : Valuation τ sig (Elt F)) : after ops4g W (Proc.devRef .tc main_v16) = W (Proc.devRef .tc main_v16) := by after_results_simp
theorem keep4g_main_v12 (W : Valuation τ sig (Elt F)) : after ops4g W (Proc.devRef .tc main_v12) = W (Proc.devRef .tc main_v12) := by after_results_simp
theorem keep4g_main_arg0 (W : Valuation τ sig (Elt F)) : after ops4g W (Proc.devRef .tc main_arg0) = W (Proc.devRef .tc main_arg0) := by after_results_simp
theorem keep4g_main_arg2 (W : Valuation τ sig (Elt F)) : after ops4g W (Proc.devRef .tc main_arg2) = W (Proc.devRef .tc main_arg2) := by after_results_simp
theorem keep4g_main_arg3 (W : Valuation τ sig (Elt F)) : after ops4g W (Proc.devRef .tc main_arg3) = W (Proc.devRef .tc main_arg3) := by after_results_simp
theorem keep4s_main_v16 (W : Valuation τ sig (Elt F)) : after ops4s W (Proc.devRef .tc main_v16) = W (Proc.devRef .tc main_v16) := by after_results_simp
theorem keep4s_main_v12 (W : Valuation τ sig (Elt F)) : after ops4s W (Proc.devRef .tc main_v12) = W (Proc.devRef .tc main_v12) := by after_results_simp
theorem keep4s_main_arg0 (W : Valuation τ sig (Elt F)) : after ops4s W (Proc.devRef .tc main_arg0) = W (Proc.devRef .tc main_arg0) := by after_results_simp
theorem keep4s_main_arg2 (W : Valuation τ sig (Elt F)) : after ops4s W (Proc.devRef .tc main_arg2) = W (Proc.devRef .tc main_arg2) := by after_results_simp
theorem keep4s_main_arg3 (W : Valuation τ sig (Elt F)) : after ops4s W (Proc.devRef .tc main_arg3) = W (Proc.devRef .tc main_arg3) := by after_results_simp
theorem keep4e_main_v16 (W : Valuation τ sig (Elt F)) : after ops4e W (Proc.devRef .tc main_v16) = W (Proc.devRef .tc main_v16) := by after_results_simp
theorem keep4e_main_v12 (W : Valuation τ sig (Elt F)) : after ops4e W (Proc.devRef .tc main_v12) = W (Proc.devRef .tc main_v12) := by after_results_simp
theorem keep4e_main_arg0 (W : Valuation τ sig (Elt F)) : after ops4e W (Proc.devRef .tc main_arg0) = W (Proc.devRef .tc main_arg0) := by after_results_simp
theorem keep4e_main_arg2 (W : Valuation τ sig (Elt F)) : after ops4e W (Proc.devRef .tc main_arg2) = W (Proc.devRef .tc main_arg2) := by after_results_simp
theorem keep4e_main_arg3 (W : Valuation τ sig (Elt F)) : after ops4e W (Proc.devRef .tc main_arg3) = W (Proc.devRef .tc main_arg3) := by after_results_simp
theorem keep5_main_arg0 (W : Valuation τ sig (Elt F)) : after ops5 W (Proc.devRef .tc main_arg0) = W (Proc.devRef .tc main_arg0) := by after_results_simp
theorem keep5_main_arg2 (W : Valuation τ sig (Elt F)) : after ops5 W (Proc.devRef .tc main_arg2) = W (Proc.devRef .tc main_arg2) := by after_results_simp
theorem keep5_main_arg3 (W : Valuation τ sig (Elt F)) : after ops5 W (Proc.devRef .tc main_arg3) = W (Proc.devRef .tc main_arg3) := by after_results_simp

/-! ## The stages chained -/

/-- From any contents holding the arguments, the stages in order leave the result buffer at `val_main_v39` of the arguments. -/
theorem stages (W0 : Valuation τ sig (Elt F)) (x0 : (⟨S4096x256, .f32⟩ : BufTy).Contents (Elt F)) (x1 : (⟨S128x256x16, .f32⟩ : BufTy).Contents (Elt F)) (x2 x3 : (⟨S128x256, .f32⟩ : BufTy).Contents (Elt F))
    (a0 : W0 (Proc.devRef .tc main_arg0) = x0) (a1 : W0 (Proc.devRef .tc main_arg1) = x1) (a2 : W0 (Proc.devRef .tc main_arg2) = x2) (a3 : W0 (Proc.devRef .tc main_arg3) = x3) :
    after ops6 (after ops5 (after ops4e (after ops4s (after ops4g (after ops4r (after ops4d (after ops4c (after ops4b (after ops4w (after ops4a (after ops3e (after ops3s (after ops3g (after ops3r (after ops3d (after ops3c (after ops3b (after ops3a (after ops2 (after ops1 W0)))))))))))))))))))) (Proc.devRef .tc main_v39) = val_main_v39 (F := F) x0 x1 x2 x3 := by
  have h1_v6 := stage1_main_v6 W0 x0 x1 x2 x3 a0
  have k1_arg0 := (keep1_main_arg0 W0).trans a0
  have k1_arg1 := (keep1_main_arg1 W0).trans a1
  have k1_arg2 := (keep1_main_arg2 W0).trans a2
  have k1_arg3 := (keep1_main_arg3 W0).trans a3
  have h2_v12 := stage2_main_v12 (after ops1 W0) x0 x1 x2 x3 h1_v6 k1_arg1
  have h2_v13 := stage2_main_v13 (after ops1 W0) x0 x1 x2 x3 h1_v6 k1_arg1
  have h2_v14 := stage2_main_v14 (after ops1 W0) x0 x1 x2 x3 h1_v6 k1_arg1
  have k2_arg0 := (keep2_main_arg0 (after ops1 W0)).trans k1_arg0
  have k2_arg1 := (keep2_main_arg1 (after ops1 W0)).trans k1_arg1
  have k2_arg2 := (keep2_main_arg2 (after ops1 W0)).trans k1_arg2
  have k2_arg3 := (keep2_main_arg3 (after ops1 W0)).trans k1_arg3
  have h3a_call2_v4 := stage3a_main_call2_v4 (after ops2 (after ops1 W0)) x0 x1 x2 x3 h2_v13
  have k3a_v12 := (keep3a_main_v12 (after ops2 (after ops1 W0))).trans h2_v12
  have k3a_v13 := (keep3a_main_v13 (after ops2 (after ops1 W0))).trans h2_v13
  have k3a_v14 := (keep3a_main_v14 (after ops2 (after ops1 W0))).trans h2_v14
  have k3a_arg0 := (keep3a_main_arg0 (after ops2 (after ops1 W0))).trans k2_arg0
  have k3a_arg1 := (keep3a_main_arg1 (after ops2 (after ops1 W0))).trans k2_arg1
  have k3a_arg2 := (keep3a_main_arg2 (after ops2 (after ops1 W0))).trans k2_arg2
  have k3a_arg3 := (keep3a_main_arg3 (after ops2 (after ops1 W0))).trans k2_arg3
  have h3b_call2_v5 := stage3b_main_call2_v5 (after ops3a (after ops2 (after ops1 W0))) x0 x1 x2 x3 h3a_call2_v4
  have k3b_v12 := (keep3b_main_v12 (after ops3a (after ops2 (after ops1 W0)))).trans k3a_v12
  have k3b_v13 := (keep3b_main_v13 (after ops3a (after ops2 (after ops1 W0)))).trans k3a_v13
  have k3b_v14 := (keep3b_main_v14 (after ops3a (after ops2 (after ops1 W0)))).trans k3a_v14
  have k3b_arg0 := (keep3b_main_arg0 (after ops3a (after ops2 (after ops1 W0)))).trans k3a_arg0
  have k3b_arg1 := (keep3b_main_arg1 (after ops3a (after ops2 (after ops1 W0)))).trans k3a_arg1
  have k3b_arg2 := (keep3b_main_arg2 (after ops3a (after ops2 (after ops1 W0)))).trans k3a_arg2
  have k3b_arg3 := (keep3b_main_arg3 (after ops3a (after ops2 (after ops1 W0)))).trans k3a_arg3
  have h3c_call2_v6 := stage3c_main_call2_v6 (after ops3b (after ops3a (after ops2 (after ops1 W0)))) x0 x1 x2 x3 k3b_v14
  have k3c_call2_v5 := (keep3c_main_call2_v5 (after ops3b (after ops3a (after ops2 (after ops1 W0))))).trans h3b_call2_v5
  have k3c_v12 := (keep3c_main_v12 (after ops3b (after ops3a (after ops2 (after ops1 W0))))).trans k3b_v12
  have k3c_v13 := (keep3c_main_v13 (after ops3b (after ops3a (after ops2 (after ops1 W0))))).trans k3b_v13
  have k3c_arg0 := (keep3c_main_arg0 (after ops3b (after ops3a (after ops2 (after ops1 W0))))).trans k3b_arg0
  have k3c_arg1 := (keep3c_main_arg1 (after ops3b (after ops3a (after ops2 (after ops1 W0))))).trans k3b_arg1
  have k3c_arg2 := (keep3c_main_arg2 (after ops3b (after ops3a (after ops2 (after ops1 W0))))).trans k3b_arg2
  have k3c_arg3 := (keep3c_main_arg3 (after ops3b (after ops3a (after ops2 (after ops1 W0))))).trans k3b_arg3
  have h3d_call2_v12 := stage3d_main_call2_v12 (after ops3c (after ops3b (after ops3a (after ops2 (after ops1 W0))))) x0 x1 x2 x3 k3c_call2_v5
  have k3d_call2_v6 := (keep3d_main_call2_v6 (after ops3c (after ops3b (after ops3a (after ops2 (after ops1 W0)))))).trans h3c_call2_v6
  have k3d_call2_v5 := (keep3d_main_call2_v5 (after ops3c (after ops3b (after ops3a (after ops2 (after ops1 W0)))))).trans k3c_call2_v5
  have k3d_v12 := (keep3d_main_v12 (after ops3c (after ops3b (after ops3a (after ops2 (after ops1 W0)))))).trans k3c_v12
  have k3d_v13 := (keep3d_main_v13 (after ops3c (after ops3b (after ops3a (after ops2 (after ops1 W0)))))).trans k3c_v13
  have k3d_arg0 := (keep3d_main_arg0 (after ops3c (after ops3b (after ops3a (after ops2 (after ops1 W0)))))).trans k3c_arg0
  have k3d_arg1 := (keep3d_main_arg1 (after ops3c (after ops3b (after ops3a (after ops2 (after ops1 W0)))))).trans k3c_arg1
  have k3d_arg2 := (keep3d_main_arg2 (after ops3c (after ops3b (after ops3a (after ops2 (after ops1 W0)))))).trans k3c_arg2
  have k3d_arg3 := (keep3d_main_arg3 (after ops3c (after ops3b (after ops3a (after ops2 (after ops1 W0)))))).trans k3c_arg3
  have h3r_call2_v13 := stage3r_main_call2_v13 (after ops3d (after ops3c (after ops3b (after ops3a (after ops2 (after ops1 W0)))))) x0 x1 x2 x3 h3d_call2_v12
  have k3r_call2_v6 := (keep3r_main_call2_v6 (after ops3d (after ops3c (after ops3b (after ops3a (after ops2 (after ops1 W0))))))).trans k3d_call2_v6
  have k3r_call2_v5 := (keep3r_main_call2_v5 (after ops3d (after ops3c (after ops3b (after ops3a (after ops2 (after ops1 W0))))))).trans k3d_call2_v5
  have k3r_v12 := (keep3r_main_v12 (after ops3d (after ops3c (after ops3b (after ops3a (after ops2 (after ops1 W0))))))).trans k3d_v12
  have k3r_v13 := (keep3r_main_v13 (after ops3d (after ops3c (after ops3b (after ops3a (after ops2 (after ops1 W0))))))).trans k3d_v13
  have k3r_arg0 := (keep3r_main_arg0 (after ops3d (after ops3c (after ops3b (after ops3a (after ops2 (after ops1 W0))))))).trans k3d_arg0
  have k3r_arg1 := (keep3r_main_arg1 (after ops3d (after ops3c (after ops3b (after ops3a (after ops2 (after ops1 W0))))))).trans k3d_arg1
  have k3r_arg2 := (keep3r_main_arg2 (after ops3d (after ops3c (after ops3b (after ops3a (after ops2 (after ops1 W0))))))).trans k3d_arg2
  have k3r_arg3 := (keep3r_main_arg3 (after ops3d (after ops3c (after ops3b (after ops3a (after ops2 (after ops1 W0))))))).trans k3d_arg3
  have h3g_call2_v14 := stage3g_main_call2_v14 (after ops3r (after ops3d (after ops3c (after ops3b (after ops3a (after ops2 (after ops1 W0))))))) x0 x1 x2 x3 k3r_call2_v6 k3r_call2_v5
  have k3g_call2_v13 := (keep3g_main_call2_v13 (after ops3r (after ops3d (after ops3c (after ops3b (after ops3a (after ops2 (after ops1 W0)))))))).trans h3r_call2_v13
  have k3g_v12 := (keep3g_main_v12 (after ops3r (after ops3d (after ops3c (after ops3b (after ops3a (after ops2 (after ops1 W0)))))))).trans k3r_v12
  have k3g_v13 := (keep3g_main_v13 (after ops3r (after ops3d (after ops3c (after ops3b (after ops3a (after ops2 (after ops1 W0)))))))).trans k3r_v13
  have k3g_arg0 := (keep3g_main_arg0 (after ops3r (after ops3d (after ops3c (after ops3b (after ops3a (after ops2 (after ops1 W0)))))))).trans k3r_arg0
  have k3g_arg1 := (keep3g_main_arg1 (after ops3r (after ops3d (after ops3c (after ops3b (after ops3a (after ops2 (after ops1 W0)))))))).trans k3r_arg1
  have k3g_arg2 := (keep3g_main_arg2 (after ops3r (after ops3d (after ops3c (after ops3b (after ops3a (after ops2 (after ops1 W0)))))))).trans k3r_arg2
  have k3g_arg3 := (keep3g_main_arg3 (after ops3r (after ops3d (after ops3c (after ops3b (after ops3a (after ops2 (after ops1 W0)))))))).trans k3r_arg3
  have h3s_v15 := stage3s_main_v15 (after ops3g (after ops3r (after ops3d (after ops3c (after ops3b (after ops3a (after ops2 (after ops1 W0)))))))) x0 x1 x2 x3 k3g_call2_v13 h3g_call2_v14
  have k3s_v12 := (keep3s_main_v12 (after ops3g (after ops3r (after ops3d (after ops3c (after ops3b (after ops3a (after ops2 (after ops1 W0))))))))).trans k3g_v12
  have k3s_v13 := (keep3s_main_v13 (after ops3g (after ops3r (after ops3d (after ops3c (after ops3b (after ops3a (after ops2 (after ops1 W0))))))))).trans k3g_v13
  have k3s_arg0 := (keep3s_main_arg0 (after ops3g (after ops3r (after ops3d (after ops3c (after ops3b (after ops3a (after ops2 (after ops1 W0))))))))).trans k3g_arg0
  have k3s_arg1 := (keep3s_main_arg1 (after ops3g (after ops3r (after ops3d (after ops3c (after ops3b (after ops3a (after ops2 (after ops1 W0))))))))).trans k3g_arg1
  have k3s_arg2 := (keep3s_main_arg2 (after ops3g (after ops3r (after ops3d (after ops3c (after ops3b (after ops3a (after ops2 (after ops1 W0))))))))).trans k3g_arg2
  have k3s_arg3 := (keep3s_main_arg3 (after ops3g (after ops3r (after ops3d (after ops3c (after ops3b (after ops3a (after ops2 (after ops1 W0))))))))).trans k3g_arg3
  have h3e_v16 := stage3e_main_v16 (after ops3s (after ops3g (after ops3r (after ops3d (after ops3c (after ops3b (after ops3a (after ops2 (after ops1 W0))))))))) x0 x1 x2 x3 h3s_v15
  have k3e_v12 := (keep3e_main_v12 (after ops3s (after ops3g (after ops3r (after ops3d (after ops3c (after ops3b (after ops3a (after ops2 (after ops1 W0)))))))))).trans k3s_v12
  have k3e_v13 := (keep3e_main_v13 (after ops3s (after ops3g (after ops3r (after ops3d (after ops3c (after ops3b (after ops3a (after ops2 (after ops1 W0)))))))))).trans k3s_v13
  have k3e_arg0 := (keep3e_main_arg0 (after ops3s (after ops3g (after ops3r (after ops3d (after ops3c (after ops3b (after ops3a (after ops2 (after ops1 W0)))))))))).trans k3s_arg0
  have k3e_arg1 := (keep3e_main_arg1 (after ops3s (after ops3g (after ops3r (after ops3d (after ops3c (after ops3b (after ops3a (after ops2 (after ops1 W0)))))))))).trans k3s_arg1
  have k3e_arg2 := (keep3e_main_arg2 (after ops3s (after ops3g (after ops3r (after ops3d (after ops3c (after ops3b (after ops3a (after ops2 (after ops1 W0)))))))))).trans k3s_arg2
  have k3e_arg3 := (keep3e_main_arg3 (after ops3s (after ops3g (after ops3r (after ops3d (after ops3c (after ops3b (after ops3a (after ops2 (after ops1 W0)))))))))).trans k3s_arg3
  have h4a_v17 := stage4a_main_v17 (after ops3e (after ops3s (after ops3g (after ops3r (after ops3d (after ops3c (after ops3b (after ops3a (after ops2 (after ops1 W0)))))))))) x0 x1 x2 x3 k3e_arg1 k3e_v13
  have h4a_v19 := stage4a_main_v19 (after ops3e (after ops3s (after ops3g (after ops3r (after ops3d (after ops3c (after ops3b (after ops3a (after ops2 (after ops1 W0)))))))))) x0 x1 x2 x3 k3e_arg1 k3e_v13
  have k4a_v16 := (keep4a_main_v16 (after ops3e (after ops3s (after ops3g (after ops3r (after ops3d (after ops3c (after ops3b (after ops3a (after ops2 (after ops1 W0))))))))))).trans h3e_v16
  have k4a_v12 := (keep4a_main_v12 (after ops3e (after ops3s (after ops3g (after ops3r (after ops3d (after ops3c (after ops3b (after ops3a (after ops2 (after ops1 W0))))))))))).trans k3e_v12
  have k4a_arg0 := (keep4a_main_arg0 (after ops3e (after ops3s (after ops3g (after ops3r (after ops3d (after ops3c (after ops3b (after ops3a (after ops2 (after ops1 W0))))))))))).trans k3e_arg0
  have k4a_arg2 := (keep4a_main_arg2 (after ops3e (after ops3s (after ops3g (after ops3r (after ops3d (after ops3c (after ops3b (after ops3a (after ops2 (after ops1 W0))))))))))).trans k3e_arg2
  have k4a_arg3 := (keep4a_main_arg3 (after ops3e (after ops3s (after ops3g (after ops3r (after ops3d (after ops3c (after ops3b (after ops3a (after ops2 (after ops1 W0))))))))))).trans k3e_arg3
  have h4w_call3_v4 := stage4w_main_call3_v4 (after ops4a (after ops3e (after ops3s (after ops3g (after ops3r (after ops3d (after ops3c (after ops3b (after ops3a (after ops2 (after ops1 W0))))))))))) x0 x1 x2 x3 h4a_v19
  have k4w_v17 := (keep4w_main_v17 (after ops4a (after ops3e (after ops3s (after ops3g (after ops3r (after ops3d (after ops3c (after ops3b (after ops3a (after ops2 (after ops1 W0)))))))))))).trans h4a_v17
  have k4w_v16 := (keep4w_main_v16 (after ops4a (after ops3e (after ops3s (after ops3g (after ops3r (after ops3d (after ops3c (after ops3b (after ops3a (after ops2 (after ops1 W0)))))))))))).trans k4a_v16
  have k4w_v12 := (keep4w_main_v12 (after ops4a (after ops3e (after ops3s (after ops3g (after ops3r (after ops3d (after ops3c (after ops3b (after ops3a (after ops2 (after ops1 W0)))))))))))).trans k4a_v12
  have k4w_arg0 := (keep4w_main_arg0 (after ops4a (after ops3e (after ops3s (after ops3g (after ops3r (after ops3d (after ops3c (after ops3b (after ops3a (after ops2 (after ops1 W0)))))))))))).trans k4a_arg0
  have k4w_arg2 := (keep4w_main_arg2 (after ops4a (after ops3e (after ops3s (after ops3g (after ops3r (after ops3d (after ops3c (after ops3b (after ops3a (after ops2 (after ops1 W0)))))))))))).trans k4a_arg2
  have k4w_arg3 := (keep4w_main_arg3 (after ops4a (after ops3e (after ops3s (after ops3g (after ops3r (after ops3d (after ops3c (after ops3b (after ops3a (after ops2 (after ops1 W0)))))))))))).trans k4a_arg3
  have h4b_call3_v5 := stage4b_main_call3_v5 (after ops4w (after ops4a (after ops3e (after ops3s (after ops3g (after ops3r (after ops3d (after ops3c (after ops3b (after ops3a (after ops2 (after ops1 W0)))))))))))) x0 x1 x2 x3 h4w_call3_v4
  have k4b_v17 := (keep4b_main_v17 (after ops4w (after ops4a (after ops3e (after ops3s (after ops3g (after ops3r (after ops3d (after ops3c (after ops3b (after ops3a (after ops2 (after ops1 W0))))))))))))).trans k4w_v17
  have k4b_v16 := (keep4b_main_v16 (after ops4w (after ops4a (after ops3e (after ops3s (after ops3g (after ops3r (after ops3d (after ops3c (after ops3b (after ops3a (after ops2 (after ops1 W0))))))))))))).trans k4w_v16
  have k4b_v12 := (keep4b_main_v12 (after ops4w (after ops4a (after ops3e (after ops3s (after ops3g (after ops3r (after ops3d (after ops3c (after ops3b (after ops3a (after ops2 (after ops1 W0))))))))))))).trans k4w_v12
  have k4b_arg0 := (keep4b_main_arg0 (after ops4w (after ops4a (after ops3e (after ops3s (after ops3g (after ops3r (after ops3d (after ops3c (after ops3b (after ops3a (after ops2 (after ops1 W0))))))))))))).trans k4w_arg0
  have k4b_arg2 := (keep4b_main_arg2 (after ops4w (after ops4a (after ops3e (after ops3s (after ops3g (after ops3r (after ops3d (after ops3c (after ops3b (after ops3a (after ops2 (after ops1 W0))))))))))))).trans k4w_arg2
  have k4b_arg3 := (keep4b_main_arg3 (after ops4w (after ops4a (after ops3e (after ops3s (after ops3g (after ops3r (after ops3d (after ops3c (after ops3b (after ops3a (after ops2 (after ops1 W0))))))))))))).trans k4w_arg3
  have h4c_call3_v6 := stage4c_main_call3_v6 (after ops4b (after ops4w (after ops4a (after ops3e (after ops3s (after ops3g (after ops3r (after ops3d (after ops3c (after ops3b (after ops3a (after ops2 (after ops1 W0))))))))))))) x0 x1 x2 x3 k4b_v17
  have k4c_call3_v5 := (keep4c_main_call3_v5 (after ops4b (after ops4w (after ops4a (after ops3e (after ops3s (after ops3g (after ops3r (after ops3d (after ops3c (after ops3b (after ops3a (after ops2 (after ops1 W0)))))))))))))).trans h4b_call3_v5
  have k4c_v16 := (keep4c_main_v16 (after ops4b (after ops4w (after ops4a (after ops3e (after ops3s (after ops3g (after ops3r (after ops3d (after ops3c (after ops3b (after ops3a (after ops2 (after ops1 W0)))))))))))))).trans k4b_v16
  have k4c_v12 := (keep4c_main_v12 (after ops4b (after ops4w (after ops4a (after ops3e (after ops3s (after ops3g (after ops3r (after ops3d (after ops3c (after ops3b (after ops3a (after ops2 (after ops1 W0)))))))))))))).trans k4b_v12
  have k4c_arg0 := (keep4c_main_arg0 (after ops4b (after ops4w (after ops4a (after ops3e (after ops3s (after ops3g (after ops3r (after ops3d (after ops3c (after ops3b (after ops3a (after ops2 (after ops1 W0)))))))))))))).trans k4b_arg0
  have k4c_arg2 := (keep4c_main_arg2 (after ops4b (after ops4w (after ops4a (after ops3e (after ops3s (after ops3g (after ops3r (after ops3d (after ops3c (after ops3b (after ops3a (after ops2 (after ops1 W0)))))))))))))).trans k4b_arg2
  have k4c_arg3 := (keep4c_main_arg3 (after ops4b (after ops4w (after ops4a (after ops3e (after ops3s (after ops3g (after ops3r (after ops3d (after ops3c (after ops3b (after ops3a (after ops2 (after ops1 W0)))))))))))))).trans k4b_arg3
  have h4d_call3_v12 := stage4d_main_call3_v12 (after ops4c (after ops4b (after ops4w (after ops4a (after ops3e (after ops3s (after ops3g (after ops3r (after ops3d (after ops3c (after ops3b (after ops3a (after ops2 (after ops1 W0)))))))))))))) x0 x1 x2 x3 k4c_call3_v5
  have k4d_call3_v6 := (keep4d_main_call3_v6 (after ops4c (after ops4b (after ops4w (after ops4a (after ops3e (after ops3s (after ops3g (after ops3r (after ops3d (after ops3c (after ops3b (after ops3a (after ops2 (after ops1 W0))))))))))))))).trans h4c_call3_v6
  have k4d_call3_v5 := (keep4d_main_call3_v5 (after ops4c (after ops4b (after ops4w (after ops4a (after ops3e (after ops3s (after ops3g (after ops3r (after ops3d (after ops3c (after ops3b (after ops3a (after ops2 (after ops1 W0))))))))))))))).trans k4c_call3_v5
  have k4d_v16 := (keep4d_main_v16 (after ops4c (after ops4b (after ops4w (after ops4a (after ops3e (after ops3s (after ops3g (after ops3r (after ops3d (after ops3c (after ops3b (after ops3a (after ops2 (after ops1 W0))))))))))))))).trans k4c_v16
  have k4d_v12 := (keep4d_main_v12 (after ops4c (after ops4b (after ops4w (after ops4a (after ops3e (after ops3s (after ops3g (after ops3r (after ops3d (after ops3c (after ops3b (after ops3a (after ops2 (after ops1 W0))))))))))))))).trans k4c_v12
  have k4d_arg0 := (keep4d_main_arg0 (after ops4c (after ops4b (after ops4w (after ops4a (after ops3e (after ops3s (after ops3g (after ops3r (after ops3d (after ops3c (after ops3b (after ops3a (after ops2 (after ops1 W0))))))))))))))).trans k4c_arg0
  have k4d_arg2 := (keep4d_main_arg2 (after ops4c (after ops4b (after ops4w (after ops4a (after ops3e (after ops3s (after ops3g (after ops3r (after ops3d (after ops3c (after ops3b (after ops3a (after ops2 (after ops1 W0))))))))))))))).trans k4c_arg2
  have k4d_arg3 := (keep4d_main_arg3 (after ops4c (after ops4b (after ops4w (after ops4a (after ops3e (after ops3s (after ops3g (after ops3r (after ops3d (after ops3c (after ops3b (after ops3a (after ops2 (after ops1 W0))))))))))))))).trans k4c_arg3
  have h4r_call3_v13 := stage4r_main_call3_v13 (after ops4d (after ops4c (after ops4b (after ops4w (after ops4a (after ops3e (after ops3s (after ops3g (after ops3r (after ops3d (after ops3c (after ops3b (after ops3a (after ops2 (after ops1 W0))))))))))))))) x0 x1 x2 x3 h4d_call3_v12
  have k4r_call3_v6 := (keep4r_main_call3_v6 (after ops4d (after ops4c (after ops4b (after ops4w (after ops4a (after ops3e (after ops3s (after ops3g (after ops3r (after ops3d (after ops3c (after ops3b (after ops3a (after ops2 (after ops1 W0)))))))))))))))).trans k4d_call3_v6
  have k4r_call3_v5 := (keep4r_main_call3_v5 (after ops4d (after ops4c (after ops4b (after ops4w (after ops4a (after ops3e (after ops3s (after ops3g (after ops3r (after ops3d (after ops3c (after ops3b (after ops3a (after ops2 (after ops1 W0)))))))))))))))).trans k4d_call3_v5
  have k4r_v16 := (keep4r_main_v16 (after ops4d (after ops4c (after ops4b (after ops4w (after ops4a (after ops3e (after ops3s (after ops3g (after ops3r (after ops3d (after ops3c (after ops3b (after ops3a (after ops2 (after ops1 W0)))))))))))))))).trans k4d_v16
  have k4r_v12 := (keep4r_main_v12 (after ops4d (after ops4c (after ops4b (after ops4w (after ops4a (after ops3e (after ops3s (after ops3g (after ops3r (after ops3d (after ops3c (after ops3b (after ops3a (after ops2 (after ops1 W0)))))))))))))))).trans k4d_v12
  have k4r_arg0 := (keep4r_main_arg0 (after ops4d (after ops4c (after ops4b (after ops4w (after ops4a (after ops3e (after ops3s (after ops3g (after ops3r (after ops3d (after ops3c (after ops3b (after ops3a (after ops2 (after ops1 W0)))))))))))))))).trans k4d_arg0
  have k4r_arg2 := (keep4r_main_arg2 (after ops4d (after ops4c (after ops4b (after ops4w (after ops4a (after ops3e (after ops3s (after ops3g (after ops3r (after ops3d (after ops3c (after ops3b (after ops3a (after ops2 (after ops1 W0)))))))))))))))).trans k4d_arg2
  have k4r_arg3 := (keep4r_main_arg3 (after ops4d (after ops4c (after ops4b (after ops4w (after ops4a (after ops3e (after ops3s (after ops3g (after ops3r (after ops3d (after ops3c (after ops3b (after ops3a (after ops2 (after ops1 W0)))))))))))))))).trans k4d_arg3
  have h4g_call3_v14 := stage4g_main_call3_v14 (after ops4r (after ops4d (after ops4c (after ops4b (after ops4w (after ops4a (after ops3e (after ops3s (after ops3g (after ops3r (after ops3d (after ops3c (after ops3b (after ops3a (after ops2 (after ops1 W0)))))))))))))))) x0 x1 x2 x3 k4r_call3_v6 k4r_call3_v5
  have k4g_call3_v13 := (keep4g_main_call3_v13 (after ops4r (after ops4d (after ops4c (after ops4b (after ops4w (after ops4a (after ops3e (after ops3s (after ops3g (after ops3r (after ops3d (after ops3c (after ops3b (after ops3a (after ops2 (after ops1 W0))))))))))))))))).trans h4r_call3_v13
  have k4g_v16 := (keep4g_main_v16 (after ops4r (after ops4d (after ops4c (after ops4b (after ops4w (after ops4a (after ops3e (after ops3s (after ops3g (after ops3r (after ops3d (after ops3c (after ops3b (after ops3a (after ops2 (after ops1 W0))))))))))))))))).trans k4r_v16
  have k4g_v12 := (keep4g_main_v12 (after ops4r (after ops4d (after ops4c (after ops4b (after ops4w (after ops4a (after ops3e (after ops3s (after ops3g (after ops3r (after ops3d (after ops3c (after ops3b (after ops3a (after ops2 (after ops1 W0))))))))))))))))).trans k4r_v12
  have k4g_arg0 := (keep4g_main_arg0 (after ops4r (after ops4d (after ops4c (after ops4b (after ops4w (after ops4a (after ops3e (after ops3s (after ops3g (after ops3r (after ops3d (after ops3c (after ops3b (after ops3a (after ops2 (after ops1 W0))))))))))))))))).trans k4r_arg0
  have k4g_arg2 := (keep4g_main_arg2 (after ops4r (after ops4d (after ops4c (after ops4b (after ops4w (after ops4a (after ops3e (after ops3s (after ops3g (after ops3r (after ops3d (after ops3c (after ops3b (after ops3a (after ops2 (after ops1 W0))))))))))))))))).trans k4r_arg2
  have k4g_arg3 := (keep4g_main_arg3 (after ops4r (after ops4d (after ops4c (after ops4b (after ops4w (after ops4a (after ops3e (after ops3s (after ops3g (after ops3r (after ops3d (after ops3c (after ops3b (after ops3a (after ops2 (after ops1 W0))))))))))))))))).trans k4r_arg3
  have h4s_v20 := stage4s_main_v20 (after ops4g (after ops4r (after ops4d (after ops4c (after ops4b (after ops4w (after ops4a (after ops3e (after ops3s (after ops3g (after ops3r (after ops3d (after ops3c (after ops3b (after ops3a (after ops2 (after ops1 W0))))))))))))))))) x0 x1 x2 x3 k4g_call3_v13 h4g_call3_v14
  have k4s_v16 := (keep4s_main_v16 (after ops4g (after ops4r (after ops4d (after ops4c (after ops4b (after ops4w (after ops4a (after ops3e (after ops3s (after ops3g (after ops3r (after ops3d (after ops3c (after ops3b (after ops3a (after ops2 (after ops1 W0)))))))))))))))))).trans k4g_v16
  have k4s_v12 := (keep4s_main_v12 (after ops4g (after ops4r (after ops4d (after ops4c (after ops4b (after ops4w (after ops4a (after ops3e (after ops3s (after ops3g (after ops3r (after ops3d (after ops3c (after ops3b (after ops3a (after ops2 (after ops1 W0)))))))))))))))))).trans k4g_v12
  have k4s_arg0 := (keep4s_main_arg0 (after ops4g (after ops4r (after ops4d (after ops4c (after ops4b (after ops4w (after ops4a (after ops3e (after ops3s (after ops3g (after ops3r (after ops3d (after ops3c (after ops3b (after ops3a (after ops2 (after ops1 W0)))))))))))))))))).trans k4g_arg0
  have k4s_arg2 := (keep4s_main_arg2 (after ops4g (after ops4r (after ops4d (after ops4c (after ops4b (after ops4w (after ops4a (after ops3e (after ops3s (after ops3g (after ops3r (after ops3d (after ops3c (after ops3b (after ops3a (after ops2 (after ops1 W0)))))))))))))))))).trans k4g_arg2
  have k4s_arg3 := (keep4s_main_arg3 (after ops4g (after ops4r (after ops4d (after ops4c (after ops4b (after ops4w (after ops4a (after ops3e (after ops3s (after ops3g (after ops3r (after ops3d (after ops3c (after ops3b (after ops3a (after ops2 (after ops1 W0)))))))))))))))))).trans k4g_arg3
  have h4e_v21 := stage4e_main_v21 (after ops4s (after ops4g (after ops4r (after ops4d (after ops4c (after ops4b (after ops4w (after ops4a (after ops3e (after ops3s (after ops3g (after ops3r (after ops3d (after ops3c (after ops3b (after ops3a (after ops2 (after ops1 W0)))))))))))))))))) x0 x1 x2 x3 h4s_v20
  have k4e_v16 := (keep4e_main_v16 (after ops4s (after ops4g (after ops4r (after ops4d (after ops4c (after ops4b (after ops4w (after ops4a (after ops3e (after ops3s (after ops3g (after ops3r (after ops3d (after ops3c (after ops3b (after ops3a (after ops2 (after ops1 W0))))))))))))))))))).trans k4s_v16
  have k4e_v12 := (keep4e_main_v12 (after ops4s (after ops4g (after ops4r (after ops4d (after ops4c (after ops4b (after ops4w (after ops4a (after ops3e (after ops3s (after ops3g (after ops3r (after ops3d (after ops3c (after ops3b (after ops3a (after ops2 (after ops1 W0))))))))))))))))))).trans k4s_v12
  have k4e_arg0 := (keep4e_main_arg0 (after ops4s (after ops4g (after ops4r (after ops4d (after ops4c (after ops4b (after ops4w (after ops4a (after ops3e (after ops3s (after ops3g (after ops3r (after ops3d (after ops3c (after ops3b (after ops3a (after ops2 (after ops1 W0))))))))))))))))))).trans k4s_arg0
  have k4e_arg2 := (keep4e_main_arg2 (after ops4s (after ops4g (after ops4r (after ops4d (after ops4c (after ops4b (after ops4w (after ops4a (after ops3e (after ops3s (after ops3g (after ops3r (after ops3d (after ops3c (after ops3b (after ops3a (after ops2 (after ops1 W0))))))))))))))))))).trans k4s_arg2
  have k4e_arg3 := (keep4e_main_arg3 (after ops4s (after ops4g (after ops4r (after ops4d (after ops4c (after ops4b (after ops4w (after ops4a (after ops3e (after ops3s (after ops3g (after ops3r (after ops3d (after ops3c (after ops3b (after ops3a (after ops2 (after ops1 W0))))))))))))))))))).trans k4s_arg3
  have h5_v28 := stage5_main_v28 (after ops4e (after ops4s (after ops4g (after ops4r (after ops4d (after ops4c (after ops4b (after ops4w (after ops4a (after ops3e (after ops3s (after ops3g (after ops3r (after ops3d (after ops3c (after ops3b (after ops3a (after ops2 (after ops1 W0))))))))))))))))))) x0 x1 x2 x3 k4e_v12 k4e_v16 h4e_v21
  have k5_arg0 := (keep5_main_arg0 (after ops4e (after ops4s (after ops4g (after ops4r (after ops4d (after ops4c (after ops4b (after ops4w (after ops4a (after ops3e (after ops3s (after ops3g (after ops3r (after ops3d (after ops3c (after ops3b (after ops3a (after ops2 (after ops1 W0)))))))))))))))))))).trans k4e_arg0
  have k5_arg2 := (keep5_main_arg2 (after ops4e (after ops4s (after ops4g (after ops4r (after ops4d (after ops4c (after ops4b (after ops4w (after ops4a (after ops3e (after ops3s (after ops3g (after ops3r (after ops3d (after ops3c (after ops3b (after ops3a (after ops2 (after ops1 W0)))))))))))))))))))).trans k4e_arg2
  have k5_arg3 := (keep5_main_arg3 (after ops4e (after ops4s (after ops4g (after ops4r (after ops4d (after ops4c (after ops4b (after ops4w (after ops4a (after ops3e (after ops3s (after ops3g (after ops3r (after ops3d (after ops3c (after ops3b (after ops3a (after ops2 (after ops1 W0)))))))))))))))))))).trans k4e_arg3
  have h6_v39 := stage6_main_v39 (after ops5 (after ops4e (after ops4s (after ops4g (after ops4r (after ops4d (after ops4c (after ops4b (after ops4w (after ops4a (after ops3e (after ops3s (after ops3g (after ops3r (after ops3d (after ops3c (after ops3b (after ops3a (after ops2 (after ops1 W0)))))))))))))))))))) x0 x1 x2 x3 k5_arg0 k5_arg2 k5_arg3 h5_v28
  exact h6_v39

end Cert.ReferenceIdeal.Stages

end
-- ==== Proof.RefRunStages.lean ====
/-
  The reference's run: every weakly fair execution of its 114 host operations terminates with the result buffer at
  `val_main_v39` of the argument arrays — the stages of the line chained from the launch contents — and the
  argument arrays as they were.
-/
import proofs.«125629_j21638045237976_2_alg».proof.Proof.RefStages

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The whole line from the launch contents: the result buffer ends at `val_main_v39` of the argument arrays. -/
theorem result_eq (m : (ℓ : Loc nD τ sig) → Buf (Elt F) ℓ) (c : Dev nD) :
    after (Cert.ReferenceIdeal.ValueP.ops : List (HloOp τ sig (Elt F))) (launchContents m c) (Proc.devRef .tc main_v39)
      = val_main_v39 (F := F) (m ((c.tc : Thread nD τ).loc main_arg0)) (m ((c.tc : Thread nD τ).loc main_arg1)) (m ((c.tc : Thread nD τ).loc main_arg2)) (m ((c.tc : Thread nD τ).loc main_arg3)) := by
  rw [ops_eq]
  simp only [after_append]
  exact stages (launchContents m c) _ _ _ _ rfl rfl rfl rfl

set_option maxRecDepth 8192 in
set_option maxHeartbeats 45600000 in
/-- On every device, from any memory with zero counters: every weakly fair execution of the reference terminates with
    its result at `val_main_v39` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = val_main_v39 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v39).trans (result_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Stages

end
-- ==== Proof.Knots.lean ====
/-
  The integer word `leftWord t`: facts that hold for every extended real `t`.

  `leftWord t` is the signed minimum of `14` with the signed maximum of `0` with a 32-bit word, so
  its signed value is `min 14 (max 0 ·)` of that word's signed value: it lies in `[0, 14]`, adding
  one to it does not wrap, and as positions on the knot axis it and its successor are the natural
  numbers `k` and `k + 1` with `k ≤ 14`.
-/
import proofs.«125629_j21638045237976_2_alg».proof.Proof.Spec

namespace Cert.Kan

open Idealize.ShloMosaic

/-- The signed maximum of two words has the maximum of their signed values. -/
theorem toInt_maxsi (x y : BitVec 32) : (IntOp.maxsi x y).toInt = max x.toInt y.toInt := by
  unfold IntOp.maxsi
  by_cases h : y.slt x
  · rw [if_pos h]
    have := BitVec.slt_iff_toInt_lt.mp h
    omega
  · rw [if_neg h]
    have : ¬ y.toInt < x.toInt := fun h' => h (BitVec.slt_iff_toInt_lt.mpr h')
    omega

/-- The signed minimum of two words has the minimum of their signed values. -/
theorem toInt_minsi (x y : BitVec 32) : (IntOp.minsi x y).toInt = min x.toInt y.toInt := by
  unfold IntOp.minsi
  by_cases h : x.slt y
  · rw [if_pos h]
    have := BitVec.slt_iff_toInt_lt.mp h
    omega
  · rw [if_neg h]
    have : ¬ x.toInt < y.toInt := fun h' => h (BitVec.slt_iff_toInt_lt.mpr h')
    omega

theorem toInt_fourteen : (14#32 : BitVec 32).toInt = 14 := by decide
theorem toInt_zero32 : (0#32 : BitVec 32).toInt = 0 := by decide
theorem toInt_one32 : (1#32 : BitVec 32).toInt = 1 := by decide

/-- The signed value of `leftWord t` is the signed value of the converted floor, clamped to `[0, 14]`. -/
theorem leftWord_toInt (t : EReal) :
    (leftWord t).toInt = min 14 (max 0 (Ideal.fptosi 32 (Ideal.liftRound Int.floor t)).toInt) := by
  unfold leftWord
  rw [toInt_minsi, toInt_maxsi, toInt_fourteen, toInt_zero32]

/-- `0 ≤ leftWord t ≤ 14` as a signed integer, for every `t`. -/
theorem leftWord_range (t : EReal) : 0 ≤ (leftWord t).toInt ∧ (leftWord t).toInt ≤ 14 := by
  rw [leftWord_toInt]
  omega

/-- Adding one to `leftWord t` does not wrap: the signed value goes up by one. -/
theorem leftWord_succ_toInt (t : EReal) : (leftWord t + 1#32).toInt = (leftWord t).toInt + 1 := by
  have h := leftWord_range t
  rw [BitVec.toInt_add, toInt_one32]
  apply Int.bmod_eq_of_le_mul_two <;> omega

/-- As a position on the knot axis, `leftWord t` is its own signed value. -/
theorem knotIdx_leftWord_val (t : EReal) : (knotIdx (leftWord t)).val = (leftWord t).toInt.toNat := by
  have h := leftWord_range t
  unfold knotIdx
  simp only
  omega

/-- As a position on the knot axis, `leftWord t + 1` is the position after `leftWord t`. -/
theorem knotIdx_leftWord_succ_val (t : EReal) :
    (knotIdx (leftWord t + 1#32)).val = (leftWord t).toInt.toNat + 1 := by
  have h := leftWord_range t
  unfold knotIdx
  simp only [leftWord_succ_toInt]
  omega

end Cert.Kan
-- ==== Proof.RefGather.lean ====
/-
  The two operations of the reference program that read more than one element of an operand, each read at an
  index: its `stablehlo.gather`, and its `stablehlo.reduce` by `and` over an axis of extent one. Then two facts
  about 32-bit words the index arithmetic around the gather needs.

  The operand has shape [128, 256, 16] and the start indices have shape [4096, 256, 1, 1]. The operand's
  middle axis is a batching axis paired with the start indices' second axis, its last axis is collapsed
  and is the one the start index addresses, and its first axis is an offset axis taken whole. So the result
  element at (b, o, i, 0) is the operand at (o, i, k), where k is the start index at (b, i, 0, 0), read as a
  signed integer and clamped into [0, 15].
-/
import proofs.«125629_j21638045237976_2_alg».proof.Proof.Gen.ReferenceIdeal
import Idealize.ShloMosaic.Lib.ValueIdx
import Idealize.ShloMosaic.PureOps.Reduce

noncomputable section

namespace Cert.ReferenceIdeal.RefGather

open Cert.ReferenceIdeal Cert.ReferenceIdeal.Gen Idealize.ShloMosaic Idealize.ShloMosaic.ValueIdx

/-- The gather's dimension numbers, under a short name. -/
abbrev G := gather_S128x256x16_S4096x256x1x1_S4096x128x256x1_1_2_1_1_2_3_12811

/-- Operand axis 0 is an offset axis: the result's coordinate on its own axis 1. -/
theorem axis0 {w : Nat} (idx : IVec S4096x256x1x1 w) (b : Fin 4096) (o : Fin 128) (i : Fin 256) (z : Fin 1) :
    G.start (ix4 b o i z) idx 0 + G.batchCoord (ix4 b o i z) 0 + G.offCoord (ix4 b o i z) 0 = o.val := by
  have h1 : (0 : Fin 3) ∉ G.startIndexMap := by decide
  have h2 : (0 : Fin 3) ∉ G.operandBatchingDims := by decide
  have h3 : (0 : Fin 3) ∈ G.sKept := by decide
  unfold GatherDims.start
  rw [dif_neg h1, G.batchCoord_eq_zero _ _ h2]
  unfold GatherDims.offCoord
  rw [dif_pos h3]
  simp only [Nat.zero_add, Nat.add_zero]
  rfl

/-- Operand axis 1 is the batching axis: the result's coordinate on its axis 2. -/
theorem axis1 {w : Nat} (idx : IVec S4096x256x1x1 w) (b : Fin 4096) (o : Fin 128) (i : Fin 256) (z : Fin 1) :
    G.start (ix4 b o i z) idx 1 + G.batchCoord (ix4 b o i z) 1 + G.offCoord (ix4 b o i z) 1 = i.val := by
  have h1 : (1 : Fin 3) ∉ G.startIndexMap := by decide
  have h2 : (1 : Fin 3) ∈ G.operandBatchingDims := by decide
  have h3 : (1 : Fin 3) ∉ G.sKept := by decide
  unfold GatherDims.start
  rw [dif_neg h1, G.offCoord_eq_zero _ _ h3]
  unfold GatherDims.batchCoord
  rw [dif_pos h2]
  simp only [Nat.zero_add, Nat.add_zero]
  unfold GatherDims.siCoord
  rfl

/-- Operand axis 2 is collapsed and addressed by the start index: the start index at (b, i, 0, 0), read signed and
    clamped into [0, 15]. -/
theorem axis2 {w : Nat} (idx : IVec S4096x256x1x1 w) (b : Fin 4096) (o : Fin 128) (i : Fin 256) (z : Fin 1) :
    G.start (ix4 b o i z) idx 2 + G.batchCoord (ix4 b o i z) 2 + G.offCoord (ix4 b o i z) 2
      = min (idx (ix4 b i 0 0)).toInt.toNat 15 := by
  obtain rfl : z = 0 := Subsingleton.elim _ _
  have h1 : (2 : Fin 3) ∈ G.startIndexMap := by decide
  have h2 : (2 : Fin 3) ∉ G.operandBatchingDims := by decide
  have h3 : (2 : Fin 3) ∉ G.sKept := by decide
  rw [G.offCoord_eq_zero _ _ h3, G.batchCoord_eq_zero _ _ h2]
  unfold GatherDims.start
  rw [dif_pos h1]
  simp only [Nat.add_zero]
  have hsi : G.siIdx (ix4 b o i 0) ⟨List.idxOf (2 : Fin 3) G.startIndexMap,
      List.idxOf_lt_length_iff.2 h1⟩ = ix4 b i 0 0 := by
    funext c; refine Fin.ext ?_
    match c with
    | ⟨0, _⟩ => rfl
    | ⟨1, _⟩ => rfl
    | ⟨2, _⟩ => rfl
    | ⟨3, _⟩ => rfl
  rw [hsi]
  rfl

/-- THE GATHER READ AT (b, o, i, z): the operand at (o, i, k), k the start index at (b, i, 0, 0) read signed and
    clamped into [0, 15]. -/
theorem gather_apply {α : Type} {w : Nat} (x : S128x256x16.Idx → α) (idx : IVec S4096x256x1x1 w)
    (b : Fin 4096) (o : Fin 128) (i : Fin 256) (z : Fin 1) :
    Host.gather gather_S128x256x16_S4096x256x1x1_S4096x128x256x1_1_2_1_1_2_3_12811 x idx (ix4 b o i z)
      = x (ix3 o i ⟨min (idx (ix4 b i 0 0)).toInt.toNat 15, by omega⟩) := by
  unfold Host.gather
  congr 1
  funext a
  refine Fin.ext ?_
  match a with
  | ⟨0, _⟩ => exact axis0 idx b o i z
  | ⟨1, _⟩ => exact axis1 idx b o i z
  | ⟨2, _⟩ => exact axis2 idx b o i z

/-- A fold over an index range of one element is one application of the operation. -/
theorem fold_fin_one {α : Type} (n : Nat) (hn : n = 1) (f : α → α → α) [Std.Commutative f] [Std.Associative f]
    (init : α) (g : Fin n → α) : (Finset.univ : Finset (Fin n)).fold f init g = f (g ⟨0, by omega⟩) init := by
  subst hn
  rw [Finset.univ_unique, Finset.fold_singleton]
  rfl

/-- THE REDUCTION BY `and` OVER THE LAST AXIS, of extent one, from the bit 1: the one element it covers. -/
theorem reduce_and_apply (p : S4096x256x1x1.Idx → BitVec 1) (init : S_.Idx → BitVec 1) (hinit : ∀ k, init k = 1#1)
    (b : Fin 4096) (i : Fin 256) (z : Fin 1) :
    Host.reduce IntOp.andi p init reducesTo_S4096x256x1x1_S4096x256x1_d3 h_S_ (ix3 b i z) = p (ix4 b i 0 0) := by
  obtain rfl : z = 0 := Subsingleton.elim _ _
  have hR : S4096x256x1x1.Reduces [3] S4096x256x1 := by decide
  rw [Host.reduce_eq_fold_single IntOp.andi p init _ hR h_S_, hinit, fold_fin_one _ (by decide)]
  have hl : hR.lift (ix3 b i (0 : Fin 1)) ⟨0, by decide⟩ = ix4 b i 0 0 := by
    funext c; refine Fin.ext ?_
    match c with
    | ⟨0, _⟩ => rfl
    | ⟨1, _⟩ => rfl
    | ⟨2, _⟩ => rfl
    | ⟨3, _⟩ => rfl
  show IntOp.andi (p (hR.lift (ix3 b i 0) ⟨0, _⟩)) 1#1 = _
  rw [hl]
  generalize p (ix4 b i 0 0) = v
  revert v; decide

/-- A word that is not negative is not wrapped around. -/
theorem wrap_eq (v : BitVec 32) (h0 : 0 ≤ v.toInt) :
    Scalar.select (IntOp.cmpi .slt v 0#32) (IntOp.addi v 16#32) v = v := by
  have h : IntOp.cmpi .slt v 0#32 = 0#1 := by
    apply eq_zero_of_ne_one
    rw [IntOp.cmpi_slt, show (0#32 : BitVec 32).toInt = 0 from by decide]
    omega
  rw [h, select_zero]

/-- A word in [0, 15] passes the bounds test. -/
theorem mask_eq (v : BitVec 32) (h0 : 0 ≤ v.toInt) (h1 : v.toInt ≤ 15) :
    IntOp.andi (IntOp.cmpi .sge v 0#32) (IntOp.cmpi .sle v 15#32) = 1#1 := by
  have a : IntOp.cmpi .sge v 0#32 = 1#1 :=
    IntOp.cmpi_sge.2 (by rw [show (0#32 : BitVec 32).toInt = 0 from by decide]; exact h0)
  have c : IntOp.cmpi .sle v 15#32 = 1#1 :=
    IntOp.cmpi_sle.2 (by rw [show (15#32 : BitVec 32).toInt = 15 from by decide]; exact h1)
  rw [a, c]; decide

end Cert.ReferenceIdeal.RefGather

end
-- ==== Proof.RefValue.lean ====
/-
  The reference program's result, read at the ideal instance, is `Cert.Kan.referenceVal`.

  The program computes, for an input `x[b, i]`: the knot coordinate `t = (clamp x - (-2)) / 4 · 15`, the knot to
  its left as an integer word `k = min 14 (max 0 ⌊t⌋)`, the offset `α = t - k`, the two neighbouring spline values
  `sv[o, i, k]` and `sv[o, i, k + 1]` (two gathers along the last axis, each guarded by a bounds test that holds
  because `0 ≤ k ≤ 14`), their blend `(1 - α) · sv[o, i, k] + α · sv[o, i, k + 1]` scaled by `ss[o, i]`, the base
  term `bs[o, i] · silu x`, and the sum of the two over `i`. Each stage is read at explicit coordinates, from the
  inside out; the last theorem puts them together.
-/
import proofs.«125629_j21638045237976_2_alg».proof.Proof.RefRead
import proofs.«125629_j21638045237976_2_alg».proof.Proof.Spec
import proofs.«125629_j21638045237976_2_alg».proof.Proof.Knots
import proofs.«125629_j21638045237976_2_alg».proof.Proof.RefGather

noncomputable section

namespace Cert.ReferenceIdeal.RefValue

open Cert.ReferenceIdeal Cert.ReferenceIdeal.Gen Cert.ReferenceIdeal.ReadP Cert.ReferenceIdeal.RefGather Idealize.ShloMosaic Idealize.ShloMosaic.ValueIdx
open scoped BigOperators
/-! ## The stages that read one element of `x` -/

/-- The knot coordinate: `(clamp x - (-2)) / 4 · 15`. -/
theorem v6_eq (x0 : (⟨S4096x256, .f32⟩ : BufTy).Contents (Elt Ideal)) (i : S4096x256.Idx) :
    val_main_v6 (F := Ideal) x0 i = Cert.Kan.knotR (x0 i) := by
  simp only [val_main_v6_apply, val_main_v4_apply, val_main_v2_apply, val_main_v0_apply, val_main_call0_v4_apply,
    val_main_call0_v3_apply, val_main_cst_0_apply, val_main_call0_v2_apply, val_main_call0_v1_apply,
    val_main_call0_v0_apply, val_main_cst_apply, val_main_v1_apply, val_main_cst_1_apply, val_main_v3_apply,
    val_main_cst_2_apply, val_main_v5_apply, val_main_cst_3_apply,
    Ideal.mulf_def, Ideal.hostDivf_def, Ideal.subf_def, Ideal.minimumf_def, Ideal.maximumf_def, Ideal.ofBits_def]
  rfl

/-- The knot to the left, as a word. -/
theorem v9_eq (x0 : (⟨S4096x256, .f32⟩ : BufTy).Contents (Elt Ideal)) (i : S4096x256.Idx) :
    val_main_v9 (F := Ideal) x0 i = Cert.Kan.leftWord (Cert.Kan.knotR (x0 i)) := by
  simp only [val_main_v9_apply, val_main_call1_v4_apply, val_main_call1_v3_apply, val_main_c_4_apply,
    val_main_call1_v2_apply, val_main_call1_v1_apply, val_main_call1_v0_apply, val_main_c_apply,
    val_main_v8_apply, val_main_v7_apply, v6_eq, Ideal.hostUnary_floor_def]
  rfl

/-- The offset from the knot to the left. -/
theorem v11_eq (x0 : (⟨S4096x256, .f32⟩ : BufTy).Contents (Elt Ideal)) (i : S4096x256.Idx) :
    val_main_v11 (F := Ideal) x0 i = Cert.Kan.alpha (Cert.Kan.knotR (x0 i)) := by
  simp only [val_main_v11_apply, val_main_v10_apply, v6_eq, v9_eq, Ideal.subf_def]
  rfl

/-- `silu`, spelt `x · (1 / (1 + e⁻ˣ))`. -/
theorem v29_eq (x0 : (⟨S4096x256, .f32⟩ : BufTy).Contents (Elt Ideal)) (i : S4096x256.Idx) :
    val_main_v29 (F := Ideal) x0 i = Cert.Kan.siluR (x0 i) := by
  simp only [val_main_v29_apply, val_main_call4_v5_apply, val_main_call4_v4_apply, val_main_call4_cst_0_apply,
    val_main_call4_v3_apply, val_main_call4_v2_apply, val_main_call4_cst_apply, val_main_call4_v1_apply,
    val_main_call4_v0_apply, Ideal.mulf_def, Ideal.hostDivf_def, Ideal.addf_def, Ideal.hostUnary_exp_def,
    Ideal.hostNegf_def, Ideal.negf_def, Ideal.ofBits_def]
  rfl

/-! ## Index maps at coordinates -/

theorem e_v13 (b : Fin 4096) (z1 : Fin 1) (i : Fin 256) (z2 : Fin 1) : idx_main_v13 (ix4 b z1 i z2) = ix2 b i :=
  funext fun a => Fin.ext (by match a with | ⟨0, _⟩ => rfl | ⟨1, _⟩ => rfl)

theorem e_call2_v5 (b : Fin 4096) (i : Fin 256) : idx_main_call2_v5 (ix4 b i (0 : Fin 1) (0 : Fin 1)) = ix4 b 0 i 0 := by
  have hb := b.isLt; have hi := i.isLt
  funext a; refine Fin.ext ?_
  match a with
  | ⟨0, _⟩ => show (((b.val * 256 + i.val) * 1 + 0) * 1 + 0) / 256 = b.val; omega
  | ⟨1, _⟩ => rfl
  | ⟨2, _⟩ => show (((b.val * 256 + i.val) * 1 + 0) * 1 + 0) / 1 % 256 = i.val; omega
  | ⟨3, _⟩ => rfl

theorem e_call3_v5 (b : Fin 4096) (i : Fin 256) : idx_main_call3_v5 (ix4 b i (0 : Fin 1) (0 : Fin 1)) = ix4 b 0 i 0 := by
  have hb := b.isLt; have hi := i.isLt
  funext a; refine Fin.ext ?_
  match a with
  | ⟨0, _⟩ => show (((b.val * 256 + i.val) * 1 + 0) * 1 + 0) / 256 = b.val; omega
  | ⟨1, _⟩ => rfl
  | ⟨2, _⟩ => show (((b.val * 256 + i.val) * 1 + 0) * 1 + 0) / 1 % 256 = i.val; omega
  | ⟨3, _⟩ => rfl

theorem e_call2_v6 (o : Fin 128) (i : Fin 256) (g : Fin 16) : idx_main_v14 (idx_main_call2_v6 (ix3 o i g)) = ix3 o i g := by
  have ho := o.isLt; have hi := i.isLt; have hg := g.isLt
  funext a; refine Fin.ext ?_
  match a with
  | ⟨0, _⟩ => show ((o.val * 256 + i.val) * 16 + g.val) / 4096 % 128 = o.val; omega
  | ⟨1, _⟩ => show ((o.val * 256 + i.val) * 16 + g.val) / 16 % 256 = i.val; omega
  | ⟨2, _⟩ => show ((o.val * 256 + i.val) * 16 + g.val) % 16 = g.val; omega

theorem e_call3_v6 (o : Fin 128) (i : Fin 256) (g : Fin 16) : idx_main_v17 (idx_main_call3_v6 (ix3 o i g)) = ix3 o i g := by
  have ho := o.isLt; have hi := i.isLt; have hg := g.isLt
  funext a; refine Fin.ext ?_
  match a with
  | ⟨0, _⟩ => show ((o.val * 256 + i.val) * 16 + g.val) / 4096 % 128 = o.val; omega
  | ⟨1, _⟩ => show ((o.val * 256 + i.val) * 16 + g.val) / 16 % 256 = i.val; omega
  | ⟨2, _⟩ => show ((o.val * 256 + i.val) * 16 + g.val) % 16 = g.val; omega

theorem e_call2_v15 (b : Fin 4096) (o : Fin 128) (i : Fin 256) (z : Fin 1) :
    idx_main_call2_v15 (ix4 b o i z) = ix3 b i (0 : Fin 1) :=
  funext fun a => Fin.ext (by match a with | ⟨0, _⟩ => rfl | ⟨1, _⟩ => rfl | ⟨2, _⟩ => rfl)

theorem e_call3_v15 (b : Fin 4096) (o : Fin 128) (i : Fin 256) (z : Fin 1) :
    idx_main_call3_v15 (ix4 b o i z) = ix3 b i (0 : Fin 1) :=
  funext fun a => Fin.ext (by match a with | ⟨0, _⟩ => rfl | ⟨1, _⟩ => rfl | ⟨2, _⟩ => rfl)

/-! ## The two gathers -/

/-- The value to the left: `sv[o, i, k]`, `k` the knot to the left. -/
theorem v15_eq (x0 : (⟨S4096x256, .f32⟩ : BufTy).Contents (Elt Ideal)) (x1 : (⟨S128x256x16, .f32⟩ : BufTy).Contents (Elt Ideal))
    (b : Fin 4096) (o : Fin 128) (i : Fin 256) (z : Fin 1) :
    val_main_v15 (F := Ideal) x0 x1 (ix4 b o i z)
      = x1 (ix3 o i (Cert.Kan.knotIdx (Cert.Kan.leftWord (Cert.Kan.knotR (x0 (ix2 b i)))))) := by
  have hr := Cert.Kan.leftWord_range (Cert.Kan.knotR (x0 (ix2 b i)))
  have hidx : val_main_call2_v5 (F := Ideal) x0 (ix4 b i 0 0) = Cert.Kan.leftWord (Cert.Kan.knotR (x0 (ix2 b i))) := by
    simp only [val_main_call2_v5_apply, e_call2_v5, val_main_call2_v4_apply, val_main_call2_v1_apply,
      val_main_call2_v3_apply, val_main_v13_apply, e_v13, v9_eq, val_main_call2_v0_apply, val_main_call2_c_apply,
      val_main_call2_v2_apply, val_main_call2_c_0_apply]
    exact wrap_eq _ hr.1
  have hmask : val_main_call2_v15 (F := Ideal) x0 (ix4 b o i z) = 1#1 := by
    rw [val_main_call2_v15_apply, e_call2_v15]
    unfold val_main_call2_v13
    rw [reduce_and_apply (val_main_call2_v12 (F := Ideal) x0) (val_main_call2_c_3 (F := Ideal)) (fun k => rfl)]
    simp only [val_main_call2_v12_apply, val_main_call2_v8_apply, val_main_call2_v11_apply, hidx,
      val_main_call2_v7_apply, val_main_call2_c_2_apply, val_main_call2_v10_apply, val_main_call2_v9_apply,
      val_main_call2_c_1_apply]
    exact mask_eq _ hr.1 (by have := hr.2; omega)
  rw [val_main_v15_apply, hmask, select_one]
  unfold val_main_call2_v14
  rw [gather_apply, val_main_call2_v6_apply, val_main_v14_apply, e_call2_v6]
  refine congrArg x1 (congrArg (ix3 o i) (Fin.ext ?_))
  show min (val_main_call2_v5 (F := Ideal) x0 (ix4 b i 0 0)).toInt.toNat 15 = _
  rw [hidx]
  rfl

/-- The value to the right: `sv[o, i, k + 1]`. -/
theorem v20_eq (x0 : (⟨S4096x256, .f32⟩ : BufTy).Contents (Elt Ideal)) (x1 : (⟨S128x256x16, .f32⟩ : BufTy).Contents (Elt Ideal))
    (b : Fin 4096) (o : Fin 128) (i : Fin 256) (z : Fin 1) :
    val_main_v20 (F := Ideal) x0 x1 (ix4 b o i z)
      = x1 (ix3 o i (Cert.Kan.knotIdx (Cert.Kan.leftWord (Cert.Kan.knotR (x0 (ix2 b i))) + 1#32))) := by
  have hr := Cert.Kan.leftWord_range (Cert.Kan.knotR (x0 (ix2 b i)))
  have hs := Cert.Kan.leftWord_succ_toInt (Cert.Kan.knotR (x0 (ix2 b i)))
  have hidx : val_main_call3_v5 (F := Ideal) x0 (ix4 b i 0 0)
      = Cert.Kan.leftWord (Cert.Kan.knotR (x0 (ix2 b i))) + 1#32 := by
    simp only [val_main_call3_v5_apply, e_call3_v5, val_main_call3_v4_apply, val_main_call3_v1_apply,
      val_main_call3_v3_apply, val_main_v19_apply, val_main_v13_apply, e_v13, v9_eq, val_main_v18_apply,
      val_main_c_5_apply, val_main_call3_v0_apply, val_main_call3_c_apply,
      val_main_call3_v2_apply, val_main_call3_c_0_apply]
    exact wrap_eq _ (by show 0 ≤ (Cert.Kan.leftWord (Cert.Kan.knotR (x0 (ix2 b i))) + 1#32).toInt; omega)
  have hmask : val_main_call3_v15 (F := Ideal) x0 (ix4 b o i z) = 1#1 := by
    rw [val_main_call3_v15_apply, e_call3_v15]
    unfold val_main_call3_v13
    rw [reduce_and_apply (val_main_call3_v12 (F := Ideal) x0) (val_main_call3_c_3 (F := Ideal)) (fun k => rfl)]
    simp only [val_main_call3_v12_apply, val_main_call3_v8_apply, val_main_call3_v11_apply, hidx,
      val_main_call3_v7_apply, val_main_call3_c_2_apply, val_main_call3_v10_apply, val_main_call3_v9_apply,
      val_main_call3_c_1_apply]
    exact mask_eq _ (by omega) (by omega)
  rw [val_main_v20_apply, hmask, select_one]
  unfold val_main_call3_v14
  rw [gather_apply, val_main_call3_v6_apply, val_main_v17_apply, e_call3_v6]
  refine congrArg x1 (congrArg (ix3 o i) (Fin.ext ?_))
  show min (val_main_call3_v5 (F := Ideal) x0 (ix4 b i 0 0)).toInt.toNat 15 = _
  rw [hidx]
  rfl

/-! ## The blend, the two scaled terms and the sum -/

theorem e_v16 (b : Fin 4096) (o : Fin 128) (i : Fin 256) : idx_main_v16 (ix3 b o i) = ix4 b o i (0 : Fin 1) := by
  have hb := b.isLt; have ho := o.isLt; have hi := i.isLt
  funext a; refine Fin.ext ?_
  match a with
  | ⟨0, _⟩ => show ((b.val * 128 + o.val) * 256 + i.val) / 32768 = b.val; omega
  | ⟨1, _⟩ => show ((b.val * 128 + o.val) * 256 + i.val) / 256 % 128 = o.val; omega
  | ⟨2, _⟩ => show ((b.val * 128 + o.val) * 256 + i.val) / 1 % 256 = i.val; omega
  | ⟨3, _⟩ => rfl

theorem e_v21 (b : Fin 4096) (o : Fin 128) (i : Fin 256) : idx_main_v21 (ix3 b o i) = ix4 b o i (0 : Fin 1) := by
  have hb := b.isLt; have ho := o.isLt; have hi := i.isLt
  funext a; refine Fin.ext ?_
  match a with
  | ⟨0, _⟩ => show ((b.val * 128 + o.val) * 256 + i.val) / 32768 = b.val; omega
  | ⟨1, _⟩ => show ((b.val * 128 + o.val) * 256 + i.val) / 256 % 128 = o.val; omega
  | ⟨2, _⟩ => show ((b.val * 128 + o.val) * 256 + i.val) / 1 % 256 = i.val; omega
  | ⟨3, _⟩ => rfl

theorem e_v12 (b : Fin 4096) (z : Fin 1) (i : Fin 256) : idx_main_v12 (ix3 b z i) = ix2 b i :=
  funext fun a => Fin.ext (by match a with | ⟨0, _⟩ => rfl | ⟨1, _⟩ => rfl)
theorem e_v30 (b : Fin 4096) (z : Fin 1) (i : Fin 256) : idx_main_v30 (ix3 b z i) = ix2 b i :=
  funext fun a => Fin.ext (by match a with | ⟨0, _⟩ => rfl | ⟨1, _⟩ => rfl)
theorem e_v24 (b : Fin 4096) (o : Fin 128) (i : Fin 256) : idx_main_v24 (ix3 b o i) = ix3 b (0 : Fin 1) i :=
  funext fun a => Fin.ext (by match a with | ⟨0, _⟩ => rfl | ⟨1, _⟩ => rfl | ⟨2, _⟩ => rfl)
theorem e_v26 (b : Fin 4096) (o : Fin 128) (i : Fin 256) : idx_main_v26 (ix3 b o i) = ix3 b (0 : Fin 1) i :=
  funext fun a => Fin.ext (by match a with | ⟨0, _⟩ => rfl | ⟨1, _⟩ => rfl | ⟨2, _⟩ => rfl)
theorem e_v33 (b : Fin 4096) (o : Fin 128) (i : Fin 256) : idx_main_v33 (ix3 b o i) = ix3 b (0 : Fin 1) i :=
  funext fun a => Fin.ext (by match a with | ⟨0, _⟩ => rfl | ⟨1, _⟩ => rfl | ⟨2, _⟩ => rfl)
theorem e_v32 (b : Fin 4096) (o : Fin 128) (i : Fin 256) : idx_main_v32 (ix3 b o i) = ix3 (0 : Fin 1) o i :=
  funext fun a => Fin.ext (by match a with | ⟨0, _⟩ => rfl | ⟨1, _⟩ => rfl | ⟨2, _⟩ => rfl)
theorem e_v36 (b : Fin 4096) (o : Fin 128) (i : Fin 256) : idx_main_v36 (ix3 b o i) = ix3 (0 : Fin 1) o i :=
  funext fun a => Fin.ext (by match a with | ⟨0, _⟩ => rfl | ⟨1, _⟩ => rfl | ⟨2, _⟩ => rfl)
theorem e_v31 (z : Fin 1) (o : Fin 128) (i : Fin 256) : idx_main_v31 (ix3 z o i) = ix2 o i :=
  funext fun a => Fin.ext (by match a with | ⟨0, _⟩ => rfl | ⟨1, _⟩ => rfl)
theorem e_v35 (z : Fin 1) (o : Fin 128) (i : Fin 256) : idx_main_v35 (ix3 z o i) = ix2 o i :=
  funext fun a => Fin.ext (by match a with | ⟨0, _⟩ => rfl | ⟨1, _⟩ => rfl)
theorem e_v39 (b : Fin 4096) (o : Fin 128) (k : Fin 256) : idx_main_v39 (ix2 b o) k = ix3 b o k :=
  funext fun a => Fin.ext (by match a with | ⟨0, _⟩ => rfl | ⟨1, _⟩ => rfl | ⟨2, _⟩ => rfl)

/-- The two neighbouring values blended: `(1 - α) · sv[o, i, k] + α · sv[o, i, k + 1]`. -/
theorem v28_eq (x0 : (⟨S4096x256, .f32⟩ : BufTy).Contents (Elt Ideal)) (x1 : (⟨S128x256x16, .f32⟩ : BufTy).Contents (Elt Ideal))
    (b : Fin 4096) (o : Fin 128) (i : Fin 256) :
    val_main_v28 (F := Ideal) x0 x1 (ix3 b o i)
      = (Cert.Kan.w1 - Cert.Kan.alpha (Cert.Kan.knotR (x0 (ix2 b i))))
          * x1 (ix3 o i (Cert.Kan.knotIdx (Cert.Kan.leftWord (Cert.Kan.knotR (x0 (ix2 b i))))))
        + Cert.Kan.alpha (Cert.Kan.knotR (x0 (ix2 b i)))
          * x1 (ix3 o i (Cert.Kan.knotIdx (Cert.Kan.leftWord (Cert.Kan.knotR (x0 (ix2 b i))) + 1#32))) := by
  simp only [val_main_v28_apply, val_main_v25_apply, val_main_v24_apply, e_v24, val_main_v23_apply, val_main_v22_apply,
    val_main_cst_6_apply, val_main_v12_apply, e_v12, v11_eq, val_main_v16_apply, e_v16, v15_eq,
    val_main_v27_apply, val_main_v26_apply, e_v26, val_main_v21_apply, e_v21, v20_eq,
    Ideal.addf_def, Ideal.mulf_def, Ideal.subf_def, Ideal.ofBits_def]

/-- One term of the layer's sum. -/
theorem v38_eq (x0 : (⟨S4096x256, .f32⟩ : BufTy).Contents (Elt Ideal)) (x1 : (⟨S128x256x16, .f32⟩ : BufTy).Contents (Elt Ideal))
    (x2 x3 : (⟨S128x256, .f32⟩ : BufTy).Contents (Elt Ideal)) (b : Fin 4096) (o : Fin 128) (i : Fin 256) :
    val_main_v38 (F := Ideal) x0 x1 x2 x3 (ix3 b o i)
      = x2 (ix2 o i) * Cert.Kan.siluR (x0 (ix2 b i))
        + x3 (ix2 o i)
          * ((Cert.Kan.w1 - Cert.Kan.alpha (Cert.Kan.knotR (x0 (ix2 b i))))
              * x1 (ix3 o i (Cert.Kan.knotIdx (Cert.Kan.leftWord (Cert.Kan.knotR (x0 (ix2 b i))))))
            + Cert.Kan.alpha (Cert.Kan.knotR (x0 (ix2 b i)))
              * x1 (ix3 o i (Cert.Kan.knotIdx (Cert.Kan.leftWord (Cert.Kan.knotR (x0 (ix2 b i))) + 1#32)))) := by
  simp only [val_main_v38_apply, val_main_v34_apply, val_main_v32_apply, e_v32, val_main_v31_apply, e_v31,
    val_main_v33_apply, e_v33, val_main_v30_apply, e_v30, v29_eq, val_main_v37_apply, val_main_v36_apply, e_v36,
    val_main_v35_apply, e_v35, v28_eq, Ideal.addf_def, Ideal.mulf_def]

/-- THE REFERENCE PROGRAM'S RESULT is the layer with the two neighbouring knots blended. -/
theorem reference_eq (x0 : (⟨S4096x256, .f32⟩ : BufTy).Contents (Elt Ideal)) (x1 : (⟨S128x256x16, .f32⟩ : BufTy).Contents (Elt Ideal))
    (x2 x3 : (⟨S128x256, .f32⟩ : BufTy).Contents (Elt Ideal)) :
    val_main_v39 (F := Ideal) x0 x1 x2 x3 = Cert.Kan.referenceVal x0 x1 x2 x3 := by
  funext j
  obtain ⟨b, o, rfl⟩ : ∃ (b : Fin 4096) (o : Fin 128), j = ix2 b o := ⟨j 0, j 1, eq_ix2 j⟩
  rw [val_main_v39_apply, val_main_cst_7_apply, Ideal.ofBits_def, Ideal.ofBits_zero_f32, zero_add]
  unfold Cert.Kan.referenceVal
  refine Finset.sum_congr rfl fun k _ => ?_
  rw [e_v39, v38_eq]

end Cert.ReferenceIdeal.RefValue

end
-- ==== Proof.Tent.lean ====
/-
  The tent identity, on the reals.

  The sixteen tent functions `max 0 (1 - |t - g|)`, `g = 0 … 15`, are a partition of unity on the knot
  axis `[0, 15]` and each is supported on `[g - 1, g + 1]`: at a coordinate `t` between the knots `k`
  and `k + 1` only the tents at `k` and `k + 1` are nonzero, with values `1 - (t - k)` and `t - k`.
  So a tent-weighted sum of sixteen values is the linear interpolation of two neighbouring ones.
-/
import proofs.«125629_j21638045237976_2_alg».proof.Proof.Spec

open scoped BigOperators

namespace Cert.Kan

open Idealize.ShloMosaic Idealize.ShloMosaic.ValueIdx

/-- The tent identity. For `t` between the knots `k` and `k + 1` (`k ≤ 14`), the sixteen tents
    `max 0 (1 - |t - g|)` vanish except at `g = k`, where the tent is `1 - (t - k)`, and at `g = k + 1`,
    where it is `t - k`; so the tent-weighted sum of sixteen values is the linear blend of the two
    neighbouring ones. At `t = k + 1` the tent at `k` is `0` and the one at `k + 1` is `1`. -/
theorem tent_sum (s : Fin 16 → ℝ) (t : ℝ) (k : ℕ) (hk : k ≤ 14) (h0 : (k : ℝ) ≤ t) (h1 : t ≤ k + 1) :
    ∑ g : Fin 16, s g * max 0 (1 - |t - (g.val : ℝ)|)
      = (1 - (t - k)) * s ⟨k, by omega⟩ + (t - k) * s ⟨k + 1, by omega⟩ := by
  have hn : (⟨k, by omega⟩ : Fin 16) ≠ ⟨k + 1, by omega⟩ := by
    intro h
    have := congrArg Fin.val h
    simp at this
  have hoff : ∀ g ∈ (Finset.univ : Finset (Fin 16)), g ≠ ⟨k, by omega⟩ ∧ g ≠ ⟨k + 1, by omega⟩ →
      s g * max 0 (1 - |t - (g.val : ℝ)|) = 0 := by
    intro g _ hg
    have hgk : g.val ≠ k := fun h => hg.1 (Fin.ext h)
    have hgk1 : g.val ≠ k + 1 := fun h => hg.2 (Fin.ext h)
    have hz : max 0 (1 - |t - (g.val : ℝ)|) = 0 := by
      apply max_eq_left
      rcases Nat.lt_or_ge g.val k with hlt | hge
      · have h' : (g.val : ℝ) + 1 ≤ k := by exact_mod_cast hlt
        rw [abs_of_nonneg (by linarith)]
        linarith
      · have h2 : k + 2 ≤ g.val := by omega
        have h' : (k : ℝ) + 2 ≤ g.val := by exact_mod_cast h2
        rw [abs_of_nonpos (by linarith)]
        linarith
    rw [hz, mul_zero]
  rw [Finset.sum_eq_add _ _ hn hoff (fun h => absurd (Finset.mem_univ _) h)
    (fun h => absurd (Finset.mem_univ _) h)]
  have hk0 : max 0 (1 - |t - (k : ℝ)|) = 1 - (t - k) := by
    rw [abs_of_nonneg (by linarith), max_eq_right (by linarith)]
  have hk1 : max 0 (1 - |t - ((k + 1 : ℕ) : ℝ)|) = t - k := by
    push_cast
    rw [abs_of_nonpos (by linarith), max_eq_right (by linarith)]
    ring
  show s ⟨k, _⟩ * max 0 (1 - |t - (k : ℝ)|) + s ⟨k + 1, _⟩ * max 0 (1 - |t - ((k + 1 : ℕ) : ℝ)|) = _
  rw [hk0, hk1]
  ring

end Cert.Kan
-- ==== Proof.Words.lean ====
/-
  The pieces of the two spellings, evaluated at a real input.

  The float words are the reals `-2, 2, 15/4, 4, 15, 1, 0`. For a real `x` both knot coordinates,
  `(c + 2) · 3.75` and `(c + 2) / 4 · 15` with `c = min 2 (max (-2) x)`, are the real
  `t = (c + 2) · 15 / 4 ∈ [0, 15]`; the tent at a real is a real; the two spellings of `silu` are
  one function; and the left-knot word at `t` is a natural number `k ≤ 14` with `k ≤ t ≤ k + 1`.
-/
import proofs.«125629_j21638045237976_2_alg».proof.Proof.Knots

open scoped BigOperators

namespace Cert.Kan

open Idealize.ShloMosaic Idealize.ShloMosaic.ValueIdx

/-! ### The float words -/

theorem wNeg2_eq : wNeg2 = ((-2 : ℝ) : EReal) := by
  show Ideal.ofBits .f32 0xC0000000#32 = _
  simp [Ideal.ofBits, Ideal.ieee, -EReal.coe_mul, -EReal.coe_neg]; norm_num

theorem w2_eq : w2 = ((2 : ℝ) : EReal) := by
  show Ideal.ofBits .f32 0x40000000#32 = _
  simp [Ideal.ofBits, Ideal.ieee, -EReal.coe_mul]; norm_num

theorem w375_eq : w375 = ((15 / 4 : ℝ) : EReal) := by
  show Ideal.ofBits .f32 0x40700000#32 = _
  simp [Ideal.ofBits, Ideal.ieee, -EReal.coe_mul]; norm_num

theorem w4_eq : w4 = ((4 : ℝ) : EReal) := by
  show Ideal.ofBits .f32 0x40800000#32 = _
  simp [Ideal.ofBits, Ideal.ieee, -EReal.coe_mul]; norm_num

theorem w15_eq : w15 = ((15 : ℝ) : EReal) := by
  show Ideal.ofBits .f32 0x41700000#32 = _
  simp [Ideal.ofBits, Ideal.ieee, -EReal.coe_mul]; norm_num

theorem w1_eq : w1 = ((1 : ℝ) : EReal) := by
  show Ideal.ofBits .f32 0x3F800000#32 = _
  simp [Ideal.ofBits, Ideal.ieee, -EReal.coe_mul]; norm_num

theorem w0_eq : w0 = ((0 : ℝ) : EReal) := by
  show Ideal.ofBits .f32 0x00000000#32 = _
  simp [Ideal.ofBits, Ideal.ieee]

/-! ### Coercion of a maximum, a minimum -/

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-! ### The knot coordinate -/

/-- The knot coordinate of a real input: `(clamp x + 2) · 15 / 4`. -/
noncomputable def knotT (x : ℝ) : ℝ := (min 2 (max (-2) x) + 2) * 15 / 4

/-- The knot coordinate lies on the knot axis `[0, 15]`. -/
theorem knotT_range (x : ℝ) : 0 ≤ knotT x ∧ knotT x ≤ 15 := by
  have hlo : (-2 : ℝ) ≤ min 2 (max (-2) x) := le_min (by norm_num) (le_max_left _ _)
  have hhi : min 2 (max (-2) x) ≤ (2 : ℝ) := min_le_left _ _
  unfold knotT
  constructor <;> linarith

theorem clampX_coe (x : ℝ) : clampX (x : EReal) = ((min 2 (max (-2) x) : ℝ) : EReal) := by
  unfold clampX
  rw [w2_eq, wNeg2_eq, ← coe_max', ← coe_min']

/-- The kernel's spelling of the knot coordinate, `(c - (-2)) · 3.75`. -/
theorem knotK_coe (x : ℝ) : knotK (x : EReal) = ((knotT x : ℝ) : EReal) := by
  unfold knotK
  rw [clampX_coe, wNeg2_eq, w375_eq, ← EReal.coe_sub, ← EReal.coe_mul]
  congr 1
  unfold knotT
  ring

/-- The reference's spelling of the knot coordinate, `(c - (-2)) / 4 · 15`: division by the
    nonzero real `4` is the product with `1/4`. -/
theorem knotR_coe (x : ℝ) : knotR (x : EReal) = ((knotT x : ℝ) : EReal) := by
  unfold knotR
  rw [clampX_coe, wNeg2_eq, w4_eq, w15_eq, ← EReal.coe_sub, Ideal.div_coe (by norm_num : (4 : ℝ) ≠ 0),
    ← EReal.coe_mul, ← EReal.coe_mul]
  congr 1
  unfold knotT
  ring

/-! ### The tent function and `silu` -/

/-- On a real `t` the tent centred at `g` is the real `max 0 (1 - |t - g|)`. -/
theorem hat_coe (g : ℕ) (t : ℝ) : hat g (t : EReal) = ((max 0 (1 - |t - (g : ℝ)|) : ℝ) : EReal) := by
  unfold hat absE
  rw [w0_eq, w1_eq, Int.cast_natCast, ← EReal.coe_sub, ← EReal.coe_neg, ← coe_max', ← abs_eq_max_neg,
    ← EReal.coe_sub, ← coe_max']

/-- The logistic function is by definition `1 / (1 + e⁻ˣ)` with the extended real `1`, which the
    word `w1` denotes; so the two spellings of `silu` agree at every extended real. -/
theorem siluK_eq_siluR (x : EReal) : siluK x = siluR x := by
  unfold siluK siluR Ideal.logistic
  rw [w1_eq, EReal.coe_one]

/-! ### The left knot at a real coordinate -/

/-- For a real `t` on the knot axis `[0, 15]` the left-knot word is `min 14 ⌊t⌋`: the floor is an
    integer in `[0, 15]`, so the conversion to a 32-bit word does not clamp. -/
theorem leftWord_coe_toInt (t : ℝ) (h0 : 0 ≤ t) (h15 : t ≤ 15) :
    (leftWord (t : EReal)).toInt = min 14 ⌊t⌋ := by
  have hf0 : 0 ≤ ⌊t⌋ := Int.floor_nonneg.mpr h0
  have hf15 : ⌊t⌋ ≤ 15 := by
    have h : ((⌊t⌋ : ℤ) : ℝ) ≤ 15 := le_trans (Int.floor_le t) h15
    exact_mod_cast h
  have hfr : (0 : ℝ) ≤ ((⌊t⌋ : ℤ) : ℝ) := by exact_mod_cast hf0
  rw [leftWord_toInt, Ideal.liftRound_coe, Ideal.fptosi, Ideal.toIntClamped_coe, if_pos hfr, Int.floor_intCast]
  have hc : max (-((2 ^ (32 - 1) : ℕ) : ℤ)) (min (((2 ^ (32 - 1) : ℕ) : ℤ) - 1) ⌊t⌋) = ⌊t⌋ := by
    norm_num
    omega
  rw [hc, BitVec.toInt_ofInt_eq_self (by norm_num) (by norm_num; omega) (by norm_num; omega)]
  omega

/-- The knots around a real coordinate `t ∈ [0, 15]`: the left-knot word is a natural number
    `k ≤ 14` with `k ≤ t ≤ k + 1` (at `t = 15`, `k = 14` and `t = k + 1`). -/
theorem leftWord_coe_spec (t : ℝ) (h0 : 0 ≤ t) (h15 : t ≤ 15) :
    ∃ k : ℕ, k ≤ 14 ∧ (k : ℝ) ≤ t ∧ t ≤ k + 1 ∧ (leftWord (t : EReal)).toInt = (k : ℤ) := by
  have hw := leftWord_coe_toInt t h0 h15
  have hf0 : 0 ≤ ⌊t⌋ := Int.floor_nonneg.mpr h0
  have hfl : ((⌊t⌋ : ℤ) : ℝ) ≤ t := Int.floor_le t
  have hfu : t < ((⌊t⌋ : ℤ) : ℝ) + 1 := Int.lt_floor_add_one t
  refine ⟨(min 14 ⌊t⌋).toNat, by omega, ?_, ?_, by rw [hw]; omega⟩
  · have hc : (((min 14 ⌊t⌋).toNat : ℤ) : ℝ) ≤ ((⌊t⌋ : ℤ) : ℝ) := by
      exact_mod_cast (show ((min 14 ⌊t⌋).toNat : ℤ) ≤ ⌊t⌋ by omega)
    have hc' : (((min 14 ⌊t⌋).toNat : ℕ) : ℝ) = (((min 14 ⌊t⌋).toNat : ℤ) : ℝ) := by norm_cast
    rw [hc']
    linarith
  · rcases le_or_gt ⌊t⌋ 14 with hle | hgt
    · have he : ((min 14 ⌊t⌋).toNat : ℤ) = ⌊t⌋ := by omega
      have hc' : (((min 14 ⌊t⌋).toNat : ℕ) : ℝ) = ((⌊t⌋ : ℤ) : ℝ) := by exact_mod_cast he
      rw [hc']
      linarith
    · have he : (min 14 ⌊t⌋).toNat = 14 := by omega
      rw [he]
      norm_num
      linarith

end Cert.Kan
-- ==== Proof.Law.lean ====
/-
  The law that joins the two spellings: on finite inputs, `kernelVal = referenceVal`.

  On one edge (one input `x`, one scale, sixteen spline values) every quantity is the coercion of a
  real, so the products distribute over the sums and the statement is the tent identity on the reals.
  The layer is the sum of its edges: exchanging the sum over the sixteen knots with the sum over the
  inputs and joining the base term is valid in any commutative additive monoid.
-/
import proofs.«125629_j21638045237976_2_alg».proof.Proof.Tent
import proofs.«125629_j21638045237976_2_alg».proof.Proof.Words

open scoped BigOperators

namespace Cert.Kan

open Idealize.ShloMosaic Idealize.ShloMosaic.ValueIdx

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on one edge. For a real input `x`, a real scale `w` and sixteen real spline values `s`,
    the tent-weighted sum of the scaled values at the kernel's knot coordinate is the scale times the
    linear blend of the two values around the reference's knot coordinate. Both coordinates are the real
    `t = knotT x ∈ [0, 15]`; with `k` the left knot and `α = t - k`, this is the tent identity. -/
theorem edge_law (x w : ℝ) (s : Fin 16 → ℝ) :
    ∑ g : Fin 16, ((s g : EReal) * (w : EReal)) * hat g.val (knotK (x : EReal))
      = (w : EReal) * ((w1 - alpha (knotR (x : EReal))) * (s (knotIdx (leftWord (knotR (x : EReal)))) : EReal)
          + alpha (knotR (x : EReal)) * (s (knotIdx (leftWord (knotR (x : EReal)) + 1#32)) : EReal)) := by
  rw [knotK_coe, knotR_coe]
  obtain ⟨h0, h15⟩ := knotT_range x
  obtain ⟨k, hk, hkt, htk, hw⟩ := leftWord_coe_spec (knotT x) h0 h15
  have hi0 : knotIdx (leftWord ((knotT x : ℝ) : EReal)) = ⟨k, by omega⟩ := by
    apply Fin.ext
    rw [knotIdx_leftWord_val, hw, Int.toNat_natCast]
  have hi1 : knotIdx (leftWord ((knotT x : ℝ) : EReal) + 1#32) = ⟨k + 1, by omega⟩ := by
    apply Fin.ext
    rw [knotIdx_leftWord_succ_val, hw, Int.toNat_natCast]
  have ha : alpha ((knotT x : ℝ) : EReal) = ((knotT x - k : ℝ) : EReal) := by
    unfold alpha
    rw [hw, Int.cast_natCast, ← EReal.coe_sub]
  rw [hi0, hi1, ha, w1_eq]
  have hL : ∀ g : Fin 16, ((s g : EReal) * (w : EReal)) * hat g.val ((knotT x : ℝ) : EReal)
      = ((s g * w * max 0 (1 - |knotT x - (g.val : ℝ)|) : ℝ) : EReal) := by
    intro g
    rw [hat_coe, EReal.coe_mul, EReal.coe_mul]
  rw [Finset.sum_congr rfl (fun g _ => hL g), ← coe_finset_sum, ← EReal.coe_sub, ← EReal.coe_mul, ← EReal.coe_mul,
    ← EReal.coe_add, ← EReal.coe_mul]
  congr 1
  rw [← tent_sum s (knotT x) k hk hkt htk, Finset.mul_sum]
  exact Finset.sum_congr rfl (fun g _ => by ring)

/-- The law of the layer. On finite inputs the kernel's seventeen matrix products and the reference's
    blend of two neighbouring knots are the same extended real at every output position: exchange the
    sums over the knots and over the inputs, join the base term, and apply the edge law to each input. -/
theorem kernelVal_eq_referenceVal (x : SX.Idx → EReal) (sv : SV.Idx → EReal) (bs ss : SW.Idx → EReal)
    (hx : ∀ i, ∃ r : ℝ, x i = (r : EReal)) (hsv : ∀ i, ∃ r : ℝ, sv i = (r : EReal))
    (hbs : ∀ i, ∃ r : ℝ, bs i = (r : EReal)) (hss : ∀ i, ∃ r : ℝ, ss i = (r : EReal)) :
    kernelVal x sv bs ss = referenceVal x sv bs ss := by
  choose xr hxr using hx
  choose svr hsvr using hsv
  choose bsr hbsr using hbs
  choose ssr hssr using hss
  obtain rfl : x = fun i => ((xr i : ℝ) : EReal) := funext hxr
  obtain rfl : sv = fun i => ((svr i : ℝ) : EReal) := funext hsvr
  obtain rfl : bs = fun i => ((bsr i : ℝ) : EReal) := funext hbsr
  obtain rfl : ss = fun i => ((ssr i : ℝ) : EReal) := funext hssr
  funext j
  simp only [kernelVal, referenceVal]
  rw [Finset.sum_comm, ← Finset.sum_add_distrib]
  refine Finset.sum_congr rfl (fun i _ => ?_)
  rw [siluK_eq_siluR]
  congr 1
  exact edge_law (xr (ix2 (j 0) i)) (ssr (ix2 (j 1) i)) (fun g => svr (ix3 (j 1) i g))

end Cert.Kan
-- ==== Proof.Finite.lean ====
/-
  From the precondition to "every entry is a real".

  The precondition `finite_inputs` is the conjunction, over the four argument arrays, of
  `jnp.all (|a| < +∞)`: each array's absolute value `max a (-a)` is compared with the word of `+∞`
  element by element, the comparisons are reduced by `and` over all axes from the constant one, and the
  four results are joined by `and`. If the whole is one, each reduction is one, so each comparison is
  one at every position; and an extended real whose absolute value is below `⊤` is neither `⊥` nor `⊤`.
-/
import proofs.«125629_j21638045237976_2_alg».proof.Proof.Gen.Pre_finite_inputs
import Idealize.ShloMosaic.Lib.ReduceAll
import Idealize.ShloMosaic.PureOps.Ideal

namespace Cert.Kan.Finite

open Idealize.ShloMosaic Cert.Pre_finite_inputs

/-- The result shape of a full reduction has exactly one index. -/
instance : Subsingleton S_.Idx := ⟨fun a b => funext fun d => d.elim0⟩

/-- The f32 word `0x7F800000` is `+∞`. -/
theorem inf_word : Ideal.ofBits .f32 0x7F800000#32 = (⊤ : EReal) := by
  simp [Ideal.ofBits, Ideal.ieee]

/-- An extended real whose absolute value `max x (-x)` is below `+∞` is a real: at `⊥` and at `⊤`
    the absolute value is `⊤`. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One element of the comparison `|a| < +∞` being `1` says that element of `a` is a real. -/
theorem elem_real {S : Shape} (hb : S_.BroadcastsInDim S (![] : Fin 0 → Fin S.rank)) (a : FVec Ideal S .f32) (i : S.Idx)
    (h : cmpf .olt (Host.absf a) (broadcastInDim S ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_word] at h'
  exact real_of_abs_lt_top _ h'

/-- The conjunction over all positions of `|a| < +∞` being `1` says every element of `a` is a real. -/
theorem all_real {S : Shape} {axes : List (Fin S.rank)} (hb : S_.BroadcastsInDim S (![] : Fin 0 → Fin S.rank))
    (hr : S.ReducesTo axes S_) (hu : 0 < S_.numel) (a : FVec Ideal S .f32) (j : S_.Idx)
    (h : Host.reduce IntOp.andi (cmpf .olt (Host.absf a) (broadcastInDim S ![] hb (constant S_ .f32 0x7F800000#32)))
      (constantI S_ 1 1#1) hr hu j = 1#1) :
    ∀ i, ∃ r : ℝ, a i = (r : EReal) :=
  fun i => elem_real hb a i (Host.reduce_andi_all _ _ hr hu _ h i)

/-- The precondition `finite_inputs`, read back: if it is all ones then every entry of each of the four
    argument arrays is a real. It is the conjunction of four `jnp.all (|a| < +∞)`. -/
theorem finite_of_pre [Cert.Pre_finite_inputs.Facts] (a0 : FVec Ideal S4096x256 .f32) (a1 : FVec Ideal S128x256x16 .f32)
    (a2 a3 : FVec Ideal S128x256 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h (fun d => d.elim0)
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨h00, h01⟩, h02⟩, h03⟩ := h0
  exact ⟨all_real _ _ _ a0 _ h00, all_real _ _ _ a1 _ h01, all_real _ _ _ a2 _ h02, all_real _ _ _ a3 _ h03⟩

end Cert.Kan.Finite
-- ==== Proof.lean ====
/-
  A spline layer computed two ways, equal on the extended reals.

  For inputs `x[b, i]`, spline values `sv[o, i, 0 … 15]`, base scales `bs[o, i]` and spline scales `ss[o, i]` the layer is

      y[b, o] = ∑ i, ( bs[o, i] · silu (x[b, i]) + ss[o, i] · spline_{o,i} (t (x[b, i])) ),

  where `t (x) = (clamp_{[-2,2]} x + 2) · 15/4 ∈ [0, 15]` is the knot coordinate and `spline_{o,i}` is the piecewise linear
  function through the sixteen values `sv[o, i, ·]` at the knots `0, …, 15`.

  * The kernel evaluates the spline with the tent functions `hat g t = max 0 (1 - |t - g|)`, one matrix product per knot
    `g` (with `ss` multiplied into `sv` beforehand) and one more for the base term, four row blocks of 1024 inputs at a
    time, into a transposed result that the host transposes back.
  * The reference finds the knot `k = min 14 ⌊t⌋` to the left, the offset `α = t - k`, gathers the two neighbouring
    values and blends them, `(1 - α) · sv[k] + α · sv[k + 1]`.

  The two agree because at most two tents are non-zero at any `t ∈ [0, 15]`, those at `k` and `k + 1`, with values
  `1 - α` and `α` (at `t = 15`: `k = 14`, `α = 1`); because `(x + 2) · 3.75 = (x + 2) / 4 · 15`; because the logistic function is
  `1 / (1 + e⁻ˣ)`; and because sums of finitely many reals may be regrouped and a common factor `ss[o, i]` taken out — the
  one place where the precondition (every input finite) is used: on the extended reals distributivity fails at infinities.

  The modules: `Spec` states the two spellings; `Knots`, `Words`, `Tent`, `Law` prove them equal on finite inputs; `Finite`
  reads finiteness off the precondition; `KLoop`, `KPay`, `KBlock`, `KArrays`, `KFinal` read the idealized kernel's run as the
  first spelling; `RefGather`, `RefValue` read the reference's per-operation stages as the second, and `RefRunStages` its run.
  The kernel's sanctioned idealization rewrote nothing, so that claim is trivial; the three frames are the runs with
  the results forgotten.
-/
import proofs.«125629_j21638045237976_2_alg».proof.Defs
import proofs.«125629_j21638045237976_2_alg».proof.Proof.Gen.Kernel
import proofs.«125629_j21638045237976_2_alg».proof.Proof.Gen.Kernel.Skeleton
import proofs.«125629_j21638045237976_2_alg».proof.Proof.Gen.Kernel.Loops
import proofs.«125629_j21638045237976_2_alg».proof.Proof.Gen.Kernel.Launch
import proofs.«125629_j21638045237976_2_alg».proof.Proof.Gen.Kernel.Points
import proofs.«125629_j21638045237976_2_alg».proof.Proof.Gen.Kernel.Frame
import proofs.«125629_j21638045237976_2_alg».proof.Proof.Gen.KernelIdeal
import proofs.«125629_j21638045237976_2_alg».proof.Proof.Gen.KernelIdeal.Skeleton
import proofs.«125629_j21638045237976_2_alg».proof.Proof.Gen.KernelIdeal.Loops
import proofs.«125629_j21638045237976_2_alg».proof.Proof.Gen.KernelIdeal.Launch
import proofs.«125629_j21638045237976_2_alg».proof.Proof.Gen.KernelIdeal.Points
import proofs.«125629_j21638045237976_2_alg».proof.Proof.Gen.KernelIdeal.Frame
import proofs.«125629_j21638045237976_2_alg».proof.Proof.Gen.ReferenceIdeal
import proofs.«125629_j21638045237976_2_alg».proof.Proof.Gen.Pre_finite_inputs
import proofs.«125629_j21638045237976_2_alg».proof.Proof.KFinal
import proofs.«125629_j21638045237976_2_alg».proof.Proof.RefRunStages
import proofs.«125629_j21638045237976_2_alg».proof.Proof.RefValue
import proofs.«125629_j21638045237976_2_alg».proof.Proof.Law
import proofs.«125629_j21638045237976_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- On finite inputs the idealized kernel and the idealized reference, from memories agreeing on the arguments, end
    with the same result: the layer's value, in the kernel's spelling and in the reference's. -/
theorem algebraic : Cert.algebraic_KernelIdeal_ReferenceIdeal := by
  intro m ρ m' ρ' hpre hagree
  refine ⟨fun c => Cert.KernelIdeal.KValue.layer m c, Cert.KernelIdeal.KValue.run m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.RefValue.reference_eq, (hagree c).1, (hagree c).2.1, (hagree c).2.2.1, (hagree c).2.2.2]
  obtain ⟨h0, h1, h2, h3⟩ := Cert.Kan.Finite.finite_of_pre _ _ _ _ (hpre c)
  exact (Cert.Kan.kernelVal_eq_referenceVal _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
